-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x128 : Shape := ⟨2, ![256, 128]⟩
abbrev S384x128 : Shape := ⟨2, ![384, 128]⟩
abbrev S512x128 : Shape := ⟨2, ![512, 128]⟩
abbrev S640x128 : Shape := ⟨2, ![640, 128]⟩
abbrev S128x256 : Shape := ⟨2, ![128, 256]⟩
abbrev S256 : Shape := ⟨1, ![256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S384x128 : S_.BroadcastsInDim S384x128 (![] : Fin 0 → Fin S384x128.rank)
  reducesTo_S384x128_S_d0_1 : S384x128.ReducesTo [0, 1] S_
  bcast_S_S512x128 : S_.BroadcastsInDim S512x128 (![] : Fin 0 → Fin S512x128.rank)
  reducesTo_S512x128_S_d0_1 : S512x128.ReducesTo [0, 1] S_
  bcast_S_S640x128 : S_.BroadcastsInDim S640x128 (![] : Fin 0 → Fin S640x128.rank)
  reducesTo_S640x128_S_d0_1 : S640x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part5 {F : FTy → Type} [FloatOps F] (main_arg19 : FVec F S128 .f32) (main_v83 : IVec S_ 1) (main_v84 : FVec F S256x128 .f32) (main_cst_32 : FVec F S_ .f32) : IVec S_ 1 :=
  let main_v85 : FVec F S256x128 .f32 := broadcastInDim S256x128 ![] bcast_S_S256x128 main_cst_32
  let main_v86 : IVec S256x128 1 := cmpf .olt main_v84 main_v85
  let main_c_33 : IVec S_ 1 := constantI S_ 1 1#1
  let main_v87 : IVec S_ 1 := (fun x v => Host.reduce IntOp.andi x v reducesTo_S256x128_S_d0_1 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  main_v93

def fn_part4 {F : FTy → Type} [FloatOps F] (main_arg15 : FVec F S128 .f32) (main_arg16 : FVec F S128x256 .f32) (main_arg17 : FVec F S256 .f32) (main_arg18 : FVec F S256x128 .f32) (main_arg19 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x256 .f32 := Host.absf main_arg16
  let main_cst_28 : FVec F S_ .f32 := constant S_ .f32 0x7F800000#32
  let main_v75 : FVec F S128x256 .f32 := broadcastInDim S128x256 ![] bcast_S_S128x256 main_cst_28
  let main_v76 : IVec S128x256 1 := cmpf .olt main_v74 main_v75
  let main_c_29 : IVec S_ 1 := constantI S_ 1 1#1
  let main_v77 : IVec S_ 1 := (fun x v => Host.reduce IntOp.andi x v reducesTo_S128x256_S_d0_1 h_S_) main_v76 main_c_29
  let main_v78 : IVec S_ 1 := andi main_v73 main_v77
  let main_v79 : FVec F S256 .f32 := Host.absf main_arg17
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x128 .f32 := Host.absf main_arg18
  let main_cst_32 : FVec F S_ .f32 := constant S_ .f32 0x7F800000#32
  fn_part5 (F := F) main_arg19 main_v83 main_v84 main_cst_32

def fn_part3 {F : FTy → Type} [FloatOps F] (main_arg12 : FVec F S640x128 .f32) (main_arg13 : FVec F S128 .f32) (main_arg14 : FVec F S128x128 .f32) (main_arg15 : FVec F S128 .f32) (main_arg16 : FVec F S128x256 .f32) (main_arg17 : FVec F S256 .f32) (main_arg18 : FVec F S256x128 .f32) (main_arg19 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S640x128 .f32 := Host.absf main_arg12
  let main_cst_20 : FVec F S_ .f32 := constant S_ .f32 0x7F800000#32
  let main_v55 : FVec F S640x128 .f32 := broadcastInDim S640x128 ![] bcast_S_S640x128 main_cst_20
  let main_v56 : IVec S640x128 1 := cmpf .olt main_v54 main_v55
  let main_c_21 : IVec S_ 1 := constantI S_ 1 1#1
  let main_v57 : IVec S_ 1 := (fun x v => Host.reduce IntOp.andi x v reducesTo_S640x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_arg18 main_arg19 main_v63 main_v67

def fn_part2 {F : FTy → Type} [FloatOps F] (main_arg8 : FVec F S384x128 .f32) (main_arg9 : FVec F S128 .f32) (main_arg10 : FVec F S512x128 .f32) (main_arg11 : FVec F S128 .f32) (main_arg12 : FVec F S640x128 .f32) (main_arg13 : FVec F S128 .f32) (main_arg14 : FVec F S128x128 .f32) (main_arg15 : FVec F S128 .f32) (main_arg16 : FVec F S128x256 .f32) (main_arg17 : FVec F S256 .f32) (main_arg18 : FVec F S256x128 .f32) (main_arg19 : FVec F S128 .f32) (main_v33 : IVec S_ 1) : IVec S_ 1 :=
  let main_v34 : FVec F S384x128 .f32 := Host.absf main_arg8
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S512x128 .f32 := Host.absf main_arg10
  let main_cst_16 : FVec F S_ .f32 := constant S_ .f32 0x7F800000#32
  let main_v45 : FVec F S512x128 .f32 := broadcastInDim S512x128 ![] bcast_S_S512x128 main_cst_16
  let main_v46 : IVec S512x128 1 := cmpf .olt main_v44 main_v45
  let main_c_17 : IVec S_ 1 := constantI S_ 1 1#1
  let main_v47 : IVec S_ 1 := (fun x v => Host.reduce IntOp.andi x v reducesTo_S512x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_v48 main_v49 main_v50

def fn_part1 {F : FTy → Type} [FloatOps F] (main_arg5 : FVec F S128 .f32) (main_arg6 : FVec F S256x128 .f32) (main_arg7 : FVec F S128 .f32) (main_arg8 : FVec F S384x128 .f32) (main_arg9 : FVec F S128 .f32) (main_arg10 : FVec F S512x128 .f32) (main_arg11 : FVec F S128 .f32) (main_arg12 : FVec F S640x128 .f32) (main_arg13 : FVec F S128 .f32) (main_arg14 : FVec F S128x128 .f32) (main_arg15 : FVec F S128 .f32) (main_arg16 : FVec F S128x256 .f32) (main_arg17 : FVec F S256 .f32) (main_arg18 : FVec F S256x128 .f32) (main_arg19 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S256x128 .f32) (main_arg7 : FVec F S128 .f32) (main_arg8 : FVec F S384x128 .f32) (main_arg9 : FVec F S128 .f32) (main_arg10 : FVec F S512x128 .f32) (main_arg11 : FVec F S128 .f32) (main_arg12 : FVec F S640x128 .f32) (main_arg13 : FVec F S128 .f32) (main_arg14 : FVec F S128x128 .f32) (main_arg15 : FVec F S128 .f32) (main_arg16 : FVec F S128x256 .f32) (main_arg17 : FVec F S256 .f32) (main_arg18 : FVec F S256x128 .f32) (main_arg19 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x128 : Shape := ⟨2, ![256, 128]⟩
abbrev S384x128 : Shape := ⟨2, ![384, 128]⟩
abbrev S512x128 : Shape := ⟨2, ![512, 128]⟩
abbrev S640x128 : Shape := ⟨2, ![640, 128]⟩
abbrev S128x256 : Shape := ⟨2, ![128, 256]⟩
abbrev S256 : Shape := ⟨1, ![256]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S5000x128 : Shape := ⟨2, ![5000, 128]⟩
abbrev S1700000x128 : Shape := ⟨2, ![1700000, 128]⟩
abbrev S100000x256 : Shape := ⟨2, ![100000, 256]⟩
abbrev S5000x256 : Shape := ⟨2, ![5000, 256]⟩
abbrev S100000x384 : Shape := ⟨2, ![100000, 384]⟩
abbrev S5000x384 : Shape := ⟨2, ![5000, 384]⟩
abbrev S100000x512 : Shape := ⟨2, ![100000, 512]⟩
abbrev S5000x512 : Shape := ⟨2, ![5000, 512]⟩
abbrev S100000x640 : Shape := ⟨2, ![100000, 640]⟩
abbrev S5000x640 : Shape := ⟨2, ![5000, 640]⟩
abbrev S1x256 : Shape := ⟨2, ![1, 256]⟩

abbrev nBuf : Space → Nat
  | .hbm => 156
  | .vmem => 74
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S256x128, .f32⟩
  | 7 => ⟨S128, .f32⟩
  | 8 => ⟨S384x128, .f32⟩
  | 9 => ⟨S128, .f32⟩
  | 10 => ⟨S512x128, .f32⟩
  | 11 => ⟨S128, .f32⟩
  | 12 => ⟨S640x128, .f32⟩
  | 13 => ⟨S128, .f32⟩
  | 14 => ⟨S128x128, .f32⟩
  | 15 => ⟨S128, .f32⟩
  | 16 => ⟨S128x256, .f32⟩
  | 17 => ⟨S256, .f32⟩
  | 18 => ⟨S256x128, .f32⟩
  | 19 => ⟨S128, .f32⟩
  | 20 => ⟨S1x1600000, .i32⟩
  | 21 => ⟨S1600000, .i32⟩
  | 22 => ⟨S1x1600000, .i32⟩
  | 23 => ⟨S1600000, .i32⟩
  | 24 => ⟨S100000, .i32⟩
  | 25 => ⟨S1700000, .i32⟩
  | 26 => ⟨S1700000, .i32⟩
  | 27 => ⟨S_, .f32⟩
  | 28 => ⟨S1700000, .f32⟩
  | 29 => ⟨S_, .f32⟩
  | 30 => ⟨S100000, .f32⟩
  | 31 => ⟨S1700000x1, .i32⟩
  | 32 => ⟨S100000, .f32⟩
  | 33 => ⟨S_, .f32⟩
  | 34 => ⟨S100000, .f32⟩
  | 35 => ⟨S100000, .i1⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S1700000, .f32⟩
  | 60 => ⟨S1x128, .f32⟩
  | 61 => ⟨S100000x128, .f32⟩
  | 62 => ⟨S_, .f32⟩
  | 63 => ⟨S128, .f32⟩
  | 64 => ⟨S1x128, .f32⟩
  | 65 => ⟨S100000x128, .f32⟩
  | 66 => ⟨S1700000x1, .f32⟩
  | 67 => ⟨S_, .i32⟩
  | 68 => ⟨S1700000, .i32⟩
  | 69 => ⟨S1700000, .i1⟩
  | 70 => ⟨S_, .i32⟩
  | 71 => ⟨S1700000, .i32⟩
  | 72 => ⟨S1700000, .i32⟩
  | 73 => ⟨S1700000, .i32⟩
  | 74 => ⟨S1700000x1, .i32⟩
  | 75 => ⟨S1700000x128, .f32⟩
  | 76 => ⟨S1700000x128, .f32⟩
  | 77 => ⟨S1700000x128, .f32⟩
  | 78 => ⟨S_, .f32⟩
  | 79 => ⟨S100000x128, .f32⟩
  | 80 => ⟨S1700000x1, .i32⟩
  | 81 => ⟨S100000x128, .f32⟩
  | 82 => ⟨S1x128, .f32⟩
  | 83 => ⟨S100000x128, .f32⟩
  | 84 => ⟨S100000x256, .f32⟩
  | 85 => ⟨S1x128, .f32⟩
  | 86 => ⟨S100000x128, .f32⟩
  | 87 => ⟨S1700000x1, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000x128, .f32⟩
  | 97 => ⟨S1700000x128, .f32⟩
  | 98 => ⟨S1700000x128, .f32⟩
  | 99 => ⟨S_, .f32⟩
  | 100 => ⟨S100000x128, .f32⟩
  | 101 => ⟨S1700000x1, .i32⟩
  | 102 => ⟨S100000x128, .f32⟩
  | 103 => ⟨S1x128, .f32⟩
  | 104 => ⟨S100000x128, .f32⟩
  | 105 => ⟨S100000x384, .f32⟩
  | 106 => ⟨S1x128, .f32⟩
  | 107 => ⟨S100000x128, .f32⟩
  | 108 => ⟨S1700000x1, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x128, .f32⟩
  | 118 => ⟨S1700000x128, .f32⟩
  | 119 => ⟨S1700000x128, .f32⟩
  | 120 => ⟨S_, .f32⟩
  | 121 => ⟨S100000x128, .f32⟩
  | 122 => ⟨S1700000x1, .i32⟩
  | 123 => ⟨S100000x128, .f32⟩
  | 124 => ⟨S1x128, .f32⟩
  | 125 => ⟨S100000x128, .f32⟩
  | 126 => ⟨S100000x512, .f32⟩
  | 127 => ⟨S1x128, .f32⟩
  | _ => ⟨S100000x128, .f32⟩

abbrev hbmTy0_1 (i : Nat) : BufTy := match i % 128 with
  | 0 => ⟨S100000x128, .f32⟩
  | 1 => ⟨S1700000x1, .f32⟩
  | 2 => ⟨S_, .i32⟩
  | 3 => ⟨S1700000, .i32⟩
  | 4 => ⟨S1700000, .i1⟩
  | 5 => ⟨S_, .i32⟩
  | 6 => ⟨S1700000, .i32⟩
  | 7 => ⟨S1700000, .i32⟩
  | 8 => ⟨S1700000, .i32⟩
  | 9 => ⟨S1700000x1, .i32⟩
  | 10 => ⟨S1700000x128, .f32⟩
  | 11 => ⟨S1700000x128, .f32⟩
  | 12 => ⟨S1700000x128, .f32⟩
  | 13 => ⟨S_, .f32⟩
  | 14 => ⟨S100000x128, .f32⟩
  | 15 => ⟨S1700000x1, .i32⟩
  | 16 => ⟨S100000x128, .f32⟩
  | 17 => ⟨S1x128, .f32⟩
  | 18 => ⟨S100000x128, .f32⟩
  | 19 => ⟨S100000x640, .f32⟩
  | 20 => ⟨S1x128, .f32⟩
  | 21 => ⟨S100000x128, .f32⟩
  | 22 => ⟨S1x128, .f32⟩
  | 23 => ⟨S100000x128, .f32⟩
  | 24 => ⟨S1x256, .f32⟩
  | 25 => ⟨S100000x256, .f32⟩
  | 26 => ⟨S1x128, .f32⟩
  | 27 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x256, .f32⟩
  | .local _ .vmem, ⟨18, _⟩ => ⟨S5000x256, .f32⟩
  | .local _ .vmem, ⟨19, _⟩ => ⟨S256x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x384, .f32⟩
  | .local _ .vmem, ⟨29, _⟩ => ⟨S5000x384, .f32⟩
  | .local _ .vmem, ⟨30, _⟩ => ⟨S384x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S1x128, .f32⟩
  | .local _ .vmem, ⟨37, _⟩ => ⟨S5000x128, .f32⟩
  | .local _ .vmem, ⟨38, _⟩ => ⟨S5000x128, .f32⟩
  | .local _ .vmem, ⟨39, _⟩ => ⟨S5000x512, .f32⟩
  | .local _ .vmem, ⟨40, _⟩ => ⟨S5000x512, .f32⟩
  | .local _ .vmem, ⟨41, _⟩ => ⟨S512x128, .f32⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S5000x640, .f32⟩
  | .local _ .vmem, ⟨51, _⟩ => ⟨S5000x640, .f32⟩
  | .local _ .vmem, ⟨52, _⟩ => ⟨S640x128, .f32⟩
  | .local _ .vmem, ⟨53, _⟩ => ⟨S1x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S128x128, .f32⟩
  | .local _ .vmem, ⟨59, _⟩ => ⟨S1x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S128x256, .f32⟩
  | .local _ .vmem, ⟨65, _⟩ => ⟨S1x256, .f32⟩
  | .local _ .vmem, ⟨66, _⟩ => ⟨S5000x256, .f32⟩
  | .local _ .vmem, ⟨67, _⟩ => ⟨S5000x256, .f32⟩
  | .local _ .vmem, ⟨68, _⟩ => ⟨S5000x256, .f32⟩
  | .local _ .vmem, ⟨69, _⟩ => ⟨S5000x256, .f32⟩
  | .local _ .vmem, ⟨70, _⟩ => ⟨S256x128, .f32⟩
  | .local _ .vmem, ⟨71, _⟩ => ⟨S1x128, .f32⟩
  | .local _ .vmem, ⟨72, _⟩ => ⟨S5000x128, .f32⟩
  | .local _ .vmem, ⟨73, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v14 : Ref sig .tc := ⟨.hbm, 40, rfl⟩
abbrev main_c : Ref sig .tc := ⟨.hbm, 41, rfl⟩
abbrev main_v15 : Ref sig .tc := ⟨.hbm, 42, rfl⟩
abbrev main_v16 : Ref sig .tc := ⟨.hbm, 43, rfl⟩
abbrev main_c_3 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_cst_6 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_7 : Ref sig .tc := ⟨.hbm, 67, rfl⟩
abbrev main_v36 : Ref sig .tc := ⟨.hbm, 68, rfl⟩
abbrev main_v37 : Ref sig .tc := ⟨.hbm, 69, rfl⟩
abbrev main_c_8 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_9 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_c_10 : Ref sig .tc := ⟨.hbm, 88, rfl⟩
abbrev main_v54 : Ref sig .tc := ⟨.hbm, 89, rfl⟩
abbrev main_v55 : Ref sig .tc := ⟨.hbm, 90, rfl⟩
abbrev main_c_11 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_12 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_13 : Ref sig .tc := ⟨.hbm, 109, rfl⟩
abbrev main_v72 : Ref sig .tc := ⟨.hbm, 110, rfl⟩
abbrev main_v73 : Ref sig .tc := ⟨.hbm, 111, rfl⟩
abbrev main_c_14 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_15 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_c_16 : Ref sig .tc := ⟨.hbm, 130, rfl⟩
abbrev main_v90 : Ref sig .tc := ⟨.hbm, 131, rfl⟩
abbrev main_v91 : Ref sig .tc := ⟨.hbm, 132, rfl⟩
abbrev main_c_17 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_18 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg3_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg3_0 : Ref sig .tc := ⟨.vmem, 43, rfl⟩
abbrev cc7_stg3_1 : Ref sig .tc := ⟨.vmem, 44, rfl⟩
abbrev cc8_stg0_0 : Ref sig .tc := ⟨.vmem, 45, rfl⟩
abbrev cc8_stg0_1 : Ref sig .tc := ⟨.vmem, 46, rfl⟩
abbrev cc8_stg1_0 : Ref sig .tc := ⟨.vmem, 47, rfl⟩
abbrev cc8_stg2_0 : Ref sig .tc := ⟨.vmem, 48, rfl⟩
abbrev cc8_stg2_1 : Ref sig .tc := ⟨.vmem, 49, rfl⟩
abbrev cc9_stg0_0 : Ref sig .tc := ⟨.vmem, 50, rfl⟩
abbrev cc9_stg0_1 : Ref sig .tc := ⟨.vmem, 51, rfl⟩
abbrev cc9_stg1_0 : Ref sig .tc := ⟨.vmem, 52, rfl⟩
abbrev cc9_stg2_0 : Ref sig .tc := ⟨.vmem, 53, rfl⟩
abbrev cc9_stg3_0 : Ref sig .tc := ⟨.vmem, 54, rfl⟩
abbrev cc9_stg3_1 : Ref sig .tc := ⟨.vmem, 55, rfl⟩
abbrev cc10_stg0_0 : Ref sig .tc := ⟨.vmem, 56, rfl⟩
abbrev cc10_stg0_1 : Ref sig .tc := ⟨.vmem, 57, rfl⟩
abbrev cc10_stg1_0 : Ref sig .tc := ⟨.vmem, 58, rfl⟩
abbrev cc10_stg2_0 : Ref sig .tc := ⟨.vmem, 59, rfl⟩
abbrev cc10_stg3_0 : Ref sig .tc := ⟨.vmem, 60, rfl⟩
abbrev cc10_stg3_1 : Ref sig .tc := ⟨.vmem, 61, rfl⟩
abbrev cc11_stg0_0 : Ref sig .tc := ⟨.vmem, 62, rfl⟩
abbrev cc11_stg0_1 : Ref sig .tc := ⟨.vmem, 63, rfl⟩
abbrev cc11_stg1_0 : Ref sig .tc := ⟨.vmem, 64, rfl⟩
abbrev cc11_stg2_0 : Ref sig .tc := ⟨.vmem, 65, rfl⟩
abbrev cc11_stg3_0 : Ref sig .tc := ⟨.vmem, 66, rfl⟩
abbrev cc11_stg3_1 : Ref sig .tc := ⟨.vmem, 67, rfl⟩
abbrev cc12_stg0_0 : Ref sig .tc := ⟨.vmem, 68, rfl⟩
abbrev cc12_stg0_1 : Ref sig .tc := ⟨.vmem, 69, rfl⟩
abbrev cc12_stg1_0 : Ref sig .tc := ⟨.vmem, 70, rfl⟩
abbrev cc12_stg2_0 : Ref sig .tc := ⟨.vmem, 71, rfl⟩
abbrev cc12_stg3_0 : Ref sig .tc := ⟨.vmem, 72, rfl⟩
abbrev cc12_stg3_1 : Ref sig .tc := ⟨.vmem, 73, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem3_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem3_0 : DmaSem sig := 43
abbrev cc7_sem3_1 : DmaSem sig := 44
abbrev cc8_sem0_0 : DmaSem sig := 45
abbrev cc8_sem0_1 : DmaSem sig := 46
abbrev cc8_sem1_0 : DmaSem sig := 47
abbrev cc8_sem2_0 : DmaSem sig := 48
abbrev cc8_sem2_1 : DmaSem sig := 49
abbrev cc9_sem0_0 : DmaSem sig := 50
abbrev cc9_sem0_1 : DmaSem sig := 51
abbrev cc9_sem1_0 : DmaSem sig := 52
abbrev cc9_sem2_0 : DmaSem sig := 53
abbrev cc9_sem3_0 : DmaSem sig := 54
abbrev cc9_sem3_1 : DmaSem sig := 55
abbrev cc10_sem0_0 : DmaSem sig := 56
abbrev cc10_sem0_1 : DmaSem sig := 57
abbrev cc10_sem1_0 : DmaSem sig := 58
abbrev cc10_sem2_0 : DmaSem sig := 59
abbrev cc10_sem3_0 : DmaSem sig := 60
abbrev cc10_sem3_1 : DmaSem sig := 61
abbrev cc11_sem0_0 : DmaSem sig := 62
abbrev cc11_sem0_1 : DmaSem sig := 63
abbrev cc11_sem1_0 : DmaSem sig := 64
abbrev cc11_sem2_0 : DmaSem sig := 65
abbrev cc11_sem3_0 : DmaSem sig := 66
abbrev cc11_sem3_1 : DmaSem sig := 67
abbrev cc12_sem0_0 : DmaSem sig := 68
abbrev cc12_sem0_1 : DmaSem sig := 69
abbrev cc12_sem1_0 : DmaSem sig := 70
abbrev cc12_sem2_0 : DmaSem sig := 71
abbrev cc12_sem3_0 : DmaSem sig := 72
abbrev cc12_sem3_1 : DmaSem sig := 73

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x384 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S384x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x512 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S512x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x640 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S640x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S128x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S5000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S128x256 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x256 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S5000x256 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S5000x256 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S256x128 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S5000x128 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S128 : S_.BroadcastsInDim S128 (![] : Fin 0 → Fin S128.rank)
  shapeCasts_S5000x128_S5000x128 : S5000x128.ShapeCasts S5000x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  concatenates_S100000x128_S100000x128_S100000x256_d1 : Shape.Concatenates [S100000x128, S100000x128] S100000x256 1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  concatenates_S100000x256_S100000x128_S100000x384_d1 : Shape.Concatenates [S100000x256, S100000x128] S100000x384 1
  inb_S5000x384_S5000x384_0_0 : ∀ a, (![0, 0] : Fin 2 → Nat) a + S5000x384.size a ≤ S5000x384.size a
  h_S5000x384 : 0 < S5000x384.numel
  shapeCasts_S5000x384_S5000x384 : S5000x384.ShapeCasts S5000x384
  inb_S384x128_S384x128_0_0 : ∀ a, (![0, 0] : Fin 2 → Nat) a + S384x128.size a ≤ S384x128.size a
  h_S384x128 : 0 < S384x128.numel
  concatenates_S100000x384_S100000x128_S100000x512_d1 : Shape.Concatenates [S100000x384, S100000x128] S100000x512 1
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512x128_S512x128_0_0 : ∀ a, (![0, 0] : Fin 2 → Nat) a + S512x128.size a ≤ S512x128.size a
  h_S512x128 : 0 < S512x128.numel
  concatenates_S100000x512_S100000x128_S100000x640_d1 : Shape.Concatenates [S100000x512, S100000x128] S100000x640 1
  inb_S5000x640_S5000x640_0_0 : ∀ a, (![0, 0] : Fin 2 → Nat) a + S5000x640.size a ≤ S5000x640.size a
  h_S5000x640 : 0 < S5000x640.numel
  shapeCasts_S5000x640_S5000x640 : S5000x640.ShapeCasts S5000x640
  inb_S640x128_S640x128_0_0 : ∀ a, (![0, 0] : Fin 2 → Nat) a + S640x128.size a ≤ S640x128.size a
  h_S640x128 : 0 < S640x128.numel
  shapeCasts_S256_S1x256 : S256.ShapeCasts S1x256
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x256_S256x128_S5000x128_1_0_0_1_n_n_wf : DotDims.WF S5000x256 S256x128 S5000x128 [1] [0] [0] [1] [] []
  dot_S5000x384_S384x128_S5000x128_1_0_0_1_n_n_wf : DotDims.WF S5000x384 S384x128 S5000x128 [1] [0] [0] [1] [] []
  dot_S5000x512_S512x128_S5000x128_1_0_0_1_n_n_wf : DotDims.WF S5000x512 S512x128 S5000x128 [1] [0] [0] [1] [] []
  dot_S5000x640_S640x128_S5000x128_1_0_0_1_n_n_wf : DotDims.WF S5000x640 S640x128 S5000x128 [1] [0] [0] [1] [] []
  dot_S5000x128_S128x256_S5000x256_1_0_0_1_n_n_wf : DotDims.WF S5000x128 S128x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S100000x256.size a
  hwx3_0 : ∀ i : grid3.Coords, EltTy.bits .f32 = 32 ∨ (Rect.block (s := S100000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x384.size a ≤ S100000x384.size a
  hwx5_0 : ∀ i : grid5.Coords, EltTy.bits .f32 = 32 ∨ (Rect.block (s := S100000x384) S5000x384.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S384x128.size a ≤ S384x128.size a
  hwx5_1 : ∀ i : grid5.Coords, EltTy.bits .f32 = 32 ∨ (Rect.block (s := S384x128) S384x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x512.size a ≤ S100000x512.size a
  hwx7_0 : ∀ i : grid7.Coords, EltTy.bits .f32 = 32 ∨ (Rect.block (s := S100000x512) S5000x512.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S512x128.size a ≤ S512x128.size a
  hwx7_1 : ∀ i : grid7.Coords, EltTy.bits .f32 = 32 ∨ (Rect.block (s := S512x128) S512x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S100000x128.size a
  hwx7_3 : ∀ i : grid7.Coords, EltTy.bits .f32 = 32 ∨ (Rect.block (s := S100000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x128.size a ≤ S100000x128.size a
  hwx8_2 : ∀ i : grid8.Coords, EltTy.bits .f32 = 32 ∨ (Rect.block (s := S100000x128) S5000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x640.size a ≤ S100000x640.size a
  hwx9_0 : ∀ i : grid9.Coords, EltTy.bits .f32 = 32 ∨ (Rect.block (s := S100000x640) S5000x640.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S640x128.size a ≤ S640x128.size a
  hwx9_1 : ∀ i : grid9.Coords, EltTy.bits .f32 = 32 ∨ (Rect.block (s := S640x128) S640x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x128.size a ≤ S100000x128.size a
  hwx9_3 : ∀ i : grid9.Coords, EltTy.bits .f32 = 32 ∨ (Rect.block (s := S100000x128) S5000x128.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S128x128.size a ≤ S128x128.size a
  hwx10_1 : ∀ i : grid10.Coords, EltTy.bits .f32 = 32 ∨ (Rect.block (s := S128x128) S128x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x128.size a ≤ S100000x128.size a
  hwx10_3 : ∀ i : grid10.Coords, EltTy.bits .f32 = 32 ∨ (Rect.block (s := S100000x128) S5000x128.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S100000x128.size a
  hwx11_0 : ∀ i : grid11.Coords, EltTy.bits .f32 = 32 ∨ (Rect.block (s := S100000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S128x256.size a ≤ S128x256.size a
  hwx11_1 : ∀ i : grid11.Coords, EltTy.bits .f32 = 32 ∨ (Rect.block (s := S128x256) S128x256.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x256.size a ≤ S1x256.size a
  hwx11_2 : ∀ i : grid11.Coords, EltTy.bits .f32 = 32 ∨ (Rect.block (s := S1x256) S1x256.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S5000x256.size a ≤ S100000x256.size a
  hwx11_3 : ∀ i : grid11.Coords, EltTy.bits .f32 = 32 ∨ (Rect.block (s := S100000x256) S5000x256.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x256.size a ≤ S100000x256.size a
  hwx12_0 : ∀ i : grid12.Coords, EltTy.bits .f32 = 32 ∨ (Rect.block (s := S100000x256) S5000x256.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S256x128.size a ≤ S256x128.size a
  hwx12_1 : ∀ i : grid12.Coords, EltTy.bits .f32 = 32 ∨ (Rect.block (s := S256x128) S256x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x128.size a ≤ S1x128.size a
  hwx12_2 : ∀ i : grid12.Coords, EltTy.bits .f32 = 32 ∨ (Rect.block (s := S1x128) S1x128.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S5000x128.size a ≤ S100000x128.size a
  hwx12_3 : ∀ i : grid12.Coords, EltTy.bits .f32 = 32 ∨ (Rect.block (s := S100000x128) S5000x128.size (cc12_transform_3 i) (hinb12_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x384_S384x128_S5000x128_1_0_0_1_n_n : DotDims S5000x384 S384x128 S5000x128 where
  lhsContracting := [1]
  rhsContracting := [0]
  lhsNonContracting := [0]
  rhsNonContracting := [1]
  lhsBatch := []
  rhsBatch := []
  wf := dot_S5000x384_S384x128_S5000x128_1_0_0_1_n_n_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def dot_S5000x640_S640x128_S5000x128_1_0_0_1_n_n : DotDims S5000x640 S640x128 S5000x128 where
  lhsContracting := [1]
  rhsContracting := [0]
  lhsNonContracting := [0]
  rhsNonContracting := [1]
  lhsBatch := []
  rhsBatch := []
  wf := dot_S5000x640_S640x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v50) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v65) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v68) S5000x384.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S384x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v69) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v70) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v83) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v84) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v85) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v86) S5000x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S512x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v87) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v88) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v101) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v102) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v103) S5000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v104) S5000x640.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg12) S640x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v105) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v106) S5000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v106) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg14) S128x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v107) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v108) S5000x128.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v108) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg16) S128x256.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v109) S1x256.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v110) S5000x256.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v110) S5000x256.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg18) S256x128.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v111) S1x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v112) S5000x128.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x128 : Shape := ⟨2, ![256, 128]⟩
abbrev S384x128 : Shape := ⟨2, ![384, 128]⟩
abbrev S512x128 : Shape := ⟨2, ![512, 128]⟩
abbrev S640x128 : Shape := ⟨2, ![640, 128]⟩
abbrev S128x256 : Shape := ⟨2, ![128, 256]⟩
abbrev S256 : Shape := ⟨1, ![256]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S1700000x128 : Shape := ⟨2, ![1700000, 128]⟩
abbrev S100000x256 : Shape := ⟨2, ![100000, 256]⟩
abbrev S100000x384 : Shape := ⟨2, ![100000, 384]⟩
abbrev S100000x512 : Shape := ⟨2, ![100000, 512]⟩
abbrev S100000x640 : Shape := ⟨2, ![100000, 640]⟩
abbrev S1x256 : Shape := ⟨2, ![1, 256]⟩

abbrev nBuf : Space → Nat
  | .hbm => 189
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S256x128, .f32⟩
  | 7 => ⟨S128, .f32⟩
  | 8 => ⟨S384x128, .f32⟩
  | 9 => ⟨S128, .f32⟩
  | 10 => ⟨S512x128, .f32⟩
  | 11 => ⟨S128, .f32⟩
  | 12 => ⟨S640x128, .f32⟩
  | 13 => ⟨S128, .f32⟩
  | 14 => ⟨S128x128, .f32⟩
  | 15 => ⟨S128, .f32⟩
  | 16 => ⟨S128x256, .f32⟩
  | 17 => ⟨S256, .f32⟩
  | 18 => ⟨S256x128, .f32⟩
  | 19 => ⟨S128, .f32⟩
  | 20 => ⟨S1x1600000, .i32⟩
  | 21 => ⟨S1600000, .i32⟩
  | 22 => ⟨S1x1600000, .i32⟩
  | 23 => ⟨S1600000, .i32⟩
  | 24 => ⟨S100000, .i32⟩
  | 25 => ⟨S1700000, .i32⟩
  | 26 => ⟨S1700000, .i32⟩
  | 27 => ⟨S_, .f32⟩
  | 28 => ⟨S1700000, .f32⟩
  | 29 => ⟨S_, .f32⟩
  | 30 => ⟨S100000, .f32⟩
  | 31 => ⟨S1700000x1, .i32⟩
  | 32 => ⟨S100000, .f32⟩
  | 33 => ⟨S_, .f32⟩
  | 34 => ⟨S100000, .f32⟩
  | 35 => ⟨S100000, .i1⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S1700000, .f32⟩
  | 60 => ⟨S100000x128, .f32⟩
  | 61 => ⟨S1x128, .f32⟩
  | 62 => ⟨S100000x128, .f32⟩
  | 63 => ⟨S100000x128, .f32⟩
  | 64 => ⟨S100000x128, .f32⟩
  | 65 => ⟨S1700000x1, .f32⟩
  | 66 => ⟨S_, .i32⟩
  | 67 => ⟨S1700000, .i32⟩
  | 68 => ⟨S1700000, .i1⟩
  | 69 => ⟨S_, .i32⟩
  | 70 => ⟨S1700000, .i32⟩
  | 71 => ⟨S1700000, .i32⟩
  | 72 => ⟨S1700000, .i32⟩
  | 73 => ⟨S1700000x1, .i32⟩
  | 74 => ⟨S1700000x128, .f32⟩
  | 75 => ⟨S1700000x128, .f32⟩
  | 76 => ⟨S1700000x128, .f32⟩
  | 77 => ⟨S_, .f32⟩
  | 78 => ⟨S100000x128, .f32⟩
  | 79 => ⟨S1700000x1, .i32⟩
  | 80 => ⟨S100000x128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S100000x256, .f32⟩
  | 88 => ⟨S100000x128, .f32⟩
  | 89 => ⟨S1700000x1, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000x128, .f32⟩
  | 99 => ⟨S1700000x128, .f32⟩
  | 100 => ⟨S1700000x128, .f32⟩
  | 101 => ⟨S_, .f32⟩
  | 102 => ⟨S100000x128, .f32⟩
  | 103 => ⟨S1700000x1, .i32⟩
  | 104 => ⟨S100000x128, .f32⟩
  | 105 => ⟨S1x128, .f32⟩
  | 106 => ⟨S100000x128, .f32⟩
  | 107 => ⟨S100000x128, .f32⟩
  | 108 => ⟨S_, .f32⟩
  | 109 => ⟨S100000x128, .f32⟩
  | 110 => ⟨S100000x128, .f32⟩
  | 111 => ⟨S100000x384, .f32⟩
  | 112 => ⟨S100000x128, .f32⟩
  | 113 => ⟨S1700000x1, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000x128, .f32⟩
  | 123 => ⟨S1700000x128, .f32⟩
  | 124 => ⟨S1700000x128, .f32⟩
  | 125 => ⟨S_, .f32⟩
  | 126 => ⟨S100000x128, .f32⟩
  | 127 => ⟨S1700000x1, .i32⟩
  | _ => ⟨S100000x128, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S100000x128, .f32⟩
  | 6 => ⟨S100000x128, .f32⟩
  | 7 => ⟨S100000x512, .f32⟩
  | 8 => ⟨S100000x128, .f32⟩
  | 9 => ⟨S1700000x1, .f32⟩
  | 10 => ⟨S_, .i32⟩
  | 11 => ⟨S1700000, .i32⟩
  | 12 => ⟨S1700000, .i1⟩
  | 13 => ⟨S_, .i32⟩
  | 14 => ⟨S1700000, .i32⟩
  | 15 => ⟨S1700000, .i32⟩
  | 16 => ⟨S1700000, .i32⟩
  | 17 => ⟨S1700000x1, .i32⟩
  | 18 => ⟨S1700000x128, .f32⟩
  | 19 => ⟨S1700000x128, .f32⟩
  | 20 => ⟨S1700000x128, .f32⟩
  | 21 => ⟨S_, .f32⟩
  | 22 => ⟨S100000x128, .f32⟩
  | 23 => ⟨S1700000x1, .i32⟩
  | 24 => ⟨S100000x128, .f32⟩
  | 25 => ⟨S1x128, .f32⟩
  | 26 => ⟨S100000x128, .f32⟩
  | 27 => ⟨S100000x128, .f32⟩
  | 28 => ⟨S_, .f32⟩
  | 29 => ⟨S100000x128, .f32⟩
  | 30 => ⟨S100000x128, .f32⟩
  | 31 => ⟨S100000x640, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S100000x128, .f32⟩
  | 38 => ⟨S100000x128, .i1⟩
  | 39 => ⟨S_, .f32⟩
  | 40 => ⟨S100000x128, .f32⟩
  | 41 => ⟨S100000x128, .f32⟩
  | 42 => ⟨S100000x128, .f32⟩
  | 43 => ⟨S100000x128, .f32⟩
  | 44 => ⟨S1x128, .f32⟩
  | 45 => ⟨S100000x128, .f32⟩
  | 46 => ⟨S100000x128, .f32⟩
  | 47 => ⟨S_, .f32⟩
  | 48 => ⟨S100000x128, .f32⟩
  | 49 => ⟨S100000x128, .f32⟩
  | 50 => ⟨S100000x256, .f32⟩
  | 51 => ⟨S1x256, .f32⟩
  | 52 => ⟨S100000x256, .f32⟩
  | 53 => ⟨S100000x256, .f32⟩
  | 54 => ⟨S_, .f32⟩
  | 55 => ⟨S100000x256, .f32⟩
  | 56 => ⟨S100000x256, .f32⟩
  | 57 => ⟨S100000x128, .f32⟩
  | 58 => ⟨S1x128, .f32⟩
  | 59 => ⟨S100000x128, .f32⟩
  | 60 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_cst_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_1 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_v14 : Ref sig .tc := ⟨.hbm, 40, rfl⟩
abbrev main_c : Ref sig .tc := ⟨.hbm, 41, rfl⟩
abbrev main_v15 : Ref sig .tc := ⟨.hbm, 42, rfl⟩
abbrev main_v16 : Ref sig .tc := ⟨.hbm, 43, rfl⟩
abbrev main_c_3 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_4 : Ref sig .tc := ⟨.hbm, 50, rfl⟩
abbrev main_v22 : Ref sig .tc := ⟨.hbm, 51, rfl⟩
abbrev main_v23 : Ref sig .tc := ⟨.hbm, 52, rfl⟩
abbrev main_c_5 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_c_6 : Ref sig .tc := ⟨.hbm, 66, rfl⟩
abbrev main_v36 : Ref sig .tc := ⟨.hbm, 67, rfl⟩
abbrev main_v37 : Ref sig .tc := ⟨.hbm, 68, rfl⟩
abbrev main_c_7 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_8 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_call1_cst : Ref sig .tc := ⟨.hbm, 84, rfl⟩
abbrev main_call1_v0 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_c_9 : Ref sig .tc := ⟨.hbm, 90, rfl⟩
abbrev main_v55 : Ref sig .tc := ⟨.hbm, 91, rfl⟩
abbrev main_v56 : Ref sig .tc := ⟨.hbm, 92, rfl⟩
abbrev main_c_10 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_11 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_call2_cst : Ref sig .tc := ⟨.hbm, 108, rfl⟩
abbrev main_call2_v0 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_c_12 : Ref sig .tc := ⟨.hbm, 114, rfl⟩
abbrev main_v74 : Ref sig .tc := ⟨.hbm, 115, rfl⟩
abbrev main_v75 : Ref sig .tc := ⟨.hbm, 116, rfl⟩
abbrev main_c_13 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_14 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_call3_cst : Ref sig .tc := ⟨.hbm, 132, rfl⟩
abbrev main_call3_v0 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_c_15 : Ref sig .tc := ⟨.hbm, 138, rfl⟩
abbrev main_v93 : Ref sig .tc := ⟨.hbm, 139, rfl⟩
abbrev main_v94 : Ref sig .tc := ⟨.hbm, 140, rfl⟩
abbrev main_c_16 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_17 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_call4_cst : Ref sig .tc := ⟨.hbm, 156, rfl⟩
abbrev main_call4_v0 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_cst_18 : Ref sig .tc := ⟨.hbm, 164, rfl⟩
abbrev main_v114 : Ref sig .tc := ⟨.hbm, 165, rfl⟩
abbrev main_v115 : Ref sig .tc := ⟨.hbm, 166, rfl⟩
abbrev main_cst_19 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_call6_cst : Ref sig .tc := ⟨.hbm, 175, rfl⟩
abbrev main_call6_v0 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_call7_cst : Ref sig .tc := ⟨.hbm, 182, rfl⟩
abbrev main_call7_v0 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  concatenates_S100000x128_S100000x128_S100000x256_d1 : Shape.Concatenates [S100000x128, S100000x128] S100000x256 1
  concatenates_S100000x256_S100000x128_S100000x384_d1 : Shape.Concatenates [S100000x256, S100000x128] S100000x384 1
  concatenates_S100000x384_S100000x128_S100000x512_d1 : Shape.Concatenates [S100000x384, S100000x128] S100000x512 1
  concatenates_S100000x512_S100000x128_S100000x640_d1 : Shape.Concatenates [S100000x512, S100000x128] S100000x640 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x256_S256x128_S100000x128_1_0_0_1_n_n_wf : DotDims.WF S100000x256 S256x128 S100000x128 [1] [0] [0] [1] [] []
  dot_S100000x384_S384x128_S100000x128_1_0_0_1_n_n_wf : DotDims.WF S100000x384 S384x128 S100000x128 [1] [0] [0] [1] [] []
  dot_S100000x512_S512x128_S100000x128_1_0_0_1_n_n_wf : DotDims.WF S100000x512 S512x128 S100000x128 [1] [0] [0] [1] [] []
  dot_S100000x640_S640x128_S100000x128_1_0_0_1_n_n_wf : DotDims.WF S100000x640 S640x128 S100000x128 [1] [0] [0] [1] [] []
  dot_S100000x128_S128x256_S100000x256_1_0_0_1_n_n_wf : DotDims.WF S100000x128 S128x256 S100000x256 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def dot_S100000x640_S640x128_S100000x128_1_0_0_1_n_n : DotDims S100000x640 S640x128 S100000x128 where
  lhsContracting := [1]
  rhsContracting := [0]
  lhsNonContracting := [0]
  rhsNonContracting := [1]
  lhsBatch := []
  rhsBatch := []
  wf := dot_S100000x640_S640x128_S100000x128_1_0_0_1_n_n_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf

class Facts : Prop extends Facts₀ where

variable [Facts]
-- ==== Proof.LibPlainMatmul.lean ====
/-
  A plain matrix product read at an index, over the extended reals.

  For the dimension numbers of an ordinary product of an `R × n` matrix by an `n × k` matrix (the left operand
  contracted on its second axis, the right one on its first, no batch axis), a product accumulated into the zero
  matrix is, at row `q` and column `o`, the sum over `c : Fin n` of `A (q, c) * B (c, o)`: the zero accumulator
  contributes `0 + _`, and the contraction index, a one-axis multi-index, is re-indexed by its one coordinate.
  The statement quantifies over the well-formedness proof only, so it applies to any record with these six lists.
-/
import Idealize.ShloMosaic.PureOps.Ideal
import Idealize.ShloMosaic.PureOps.Ideal.Laws
import Idealize.ShloMosaic.Lib.ValueIdx

noncomputable section

namespace Cert.PointConv

open Idealize.ShloMosaic Idealize.ShloMosaic.ValueIdx

/-- The dimension numbers of an ordinary `R × n` by `n × k` product, for any proof that they are well formed. -/
abbrev plainDims (R n k : Nat)
    (wf : DotDims.WF (⟨2, ![R, n]⟩ : Shape) ⟨2, ![n, k]⟩ ⟨2, ![R, k]⟩ [1] [0] [0] [1] [] []) :
    DotDims (⟨2, ![R, n]⟩ : Shape) ⟨2, ![n, k]⟩ ⟨2, ![R, k]⟩ :=
  { lhsContracting := [1], rhsContracting := [0], lhsNonContracting := [0], rhsNonContracting := [1],
    lhsBatch := [], rhsBatch := [], wf := wf }

theorem plainDims_contr_rank {R n k : Nat} (wf) : (plainDims R n k wf).contr.rank = 1 := rfl

theorem plainDims_contr_size {R n k : Nat} (wf) :
    (plainDims R n k wf).contr.size ⟨0, by rw [plainDims_contr_rank]; exact Nat.one_pos⟩ = n := rfl

/-- The contraction index of such a product is one coordinate in `Fin n`. -/
abbrev plainContr {R n k : Nat} (wf) : (plainDims R n k wf).contr.Idx ≃ Fin n :=
  contrEquiv1 (plainDims R n k wf) n (plainDims_contr_rank wf) (plainDims_contr_size wf)

/-- The left operand's index at output `(q, o)` and contraction coordinate `c` is `(q, c)`. -/
theorem plainDims_lhsIdx {R n k : Nat} (wf) (q : Fin R) (o : Fin k) (c : Fin n) :
    (plainDims R n k wf).lhsIdx (ix2 q o) ((plainContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (plainDims R n k wf).lhsBatch from List.not_mem_nil),
      dif_pos (show (⟨0, h0⟩ : Fin (⟨2, ![R, n]⟩ : Shape).rank) ∈ (plainDims R n k wf).lhsNonContracting from
        List.mem_singleton.mpr rfl)]
    rfl
  | ⟨1, h1⟩ =>
    exact ((plainDims R n k wf).lhsIdx_val_of_single (cl := ⟨1, h1⟩) rfl _ _).trans
      (contrEquiv1_symm_val (plainDims R n k wf) n (plainDims_contr_rank wf) (plainDims_contr_size wf) c)

/-- The right operand's index there is `(c, o)`. -/
theorem plainDims_rhsIdx {R n k : Nat} (wf) (q : Fin R) (o : Fin k) (c : Fin n) :
    (plainDims R n k wf).rhsIdx (ix2 q o) ((plainContr wf).symm c) = ix2 c o := by
  funext a
  apply Fin.ext
  match a with
  | ⟨0, h0⟩ =>
    exact ((plainDims R n k wf).rhsIdx_val_of_single (cr := ⟨0, h0⟩) rfl _ _).trans
      (contrEquiv1_symm_val (plainDims R n k wf) n (plainDims_contr_rank wf) (plainDims_contr_size wf) c)
  | ⟨1, h1⟩ =>
    unfold DotDims.rhsIdx
    rw [dif_neg (show ¬(⟨1, h1⟩ : Fin (⟨2, ![n, k]⟩ : Shape).rank) ∈ (plainDims R n k wf).rhsBatch from List.not_mem_nil),
      dif_pos (show (⟨1, h1⟩ : Fin (⟨2, ![n, k]⟩ : Shape).rank) ∈ (plainDims R n k wf).rhsNonContracting from
        List.mem_singleton.mpr rfl)]
    rfl

/-- A product accumulated into the zero matrix, at `(q, o)`: the sum over the shared axis. -/
theorem plainMatmul_zero_apply {R n k : Nat} {φ₁ φ₂ : FTy} (wf) (prec : Option ContractPrecision)
    (A : FVec Ideal (⟨2, ![R, n]⟩ : Shape) φ₁) (B : FVec Ideal (⟨2, ![n, k]⟩ : Shape) φ₂) (q : Fin R) (o : Fin k) :
    FloatOps.matmul (plainDims R n k wf) prec A B (constant (F := Ideal) (⟨2, ![R, k]⟩ : Shape) .f32 0x00000000#32) (ix2 q o)
      = ∑ c : Fin n, A (ix2 q c) * B (ix2 c o) := by
  rw [Ideal.matmul_constant_zero_apply, ← Equiv.sum_comp (plainContr wf).symm]
  refine Finset.sum_congr rfl fun c _ => ?_
  rw [plainDims_lhsIdx, plainDims_rhsIdx]

end Cert.PointConv

end
-- ==== Proof.LibPlainHostProduct.lean ====
/-
  A plain host matrix product read at an index, over the extended reals.

  The host's `dot_general` of an `R × n` matrix by an `n × k` matrix (the left operand contracted on its second axis,
  the right one on its first, no batch axis) is, at row `q` and column `o`, the sum over `c : Fin n` of
  `A (q, c) * B (c, o)`, whatever the schedule key: there is no accumulator, and the contraction index, a one-axis
  multi-index, is re-indexed by its one coordinate. It is the host counterpart of the kernel-side product into the
  zero matrix, over the same dimension numbers `plainDims`, so the two meet in one sum.
-/
import Idealize.ShloMosaic.PureOps.Ideal
import Idealize.ShloMosaic.PureOps.Ideal.Laws
import Idealize.ShloMosaic.Lib.ValueIdx
import proofs.«113295_j44487271252562_1_alg».proof.Proof.LibPlainMatmul

noncomputable section

namespace Cert.PointConv

open Idealize.ShloMosaic Idealize.ShloMosaic.ValueIdx

/-- A host product of an `R × n` by an `n × k` matrix, at `(q, o)`: the sum over the shared axis. -/
theorem plainDotGeneral_apply {R n k : Nat} {φ₁ φ₂ : FTy} (wf) (prec : Option ContractPrecision) (sched : HostSchedule)
    (A : FVec Ideal (⟨2, ![R, n]⟩ : Shape) φ₁) (B : FVec Ideal (⟨2, ![n, k]⟩ : Shape) φ₂) (q : Fin R) (o : Fin k) :
    FloatOps.dotGeneral (plainDims R n k wf) prec sched A B (ix2 q o) = ∑ c : Fin n, A (ix2 q c) * B (ix2 c o) := by
  rw [Ideal.dotGeneral_apply, ← Equiv.sum_comp (plainContr wf).symm]
  refine Finset.sum_congr rfl fun c _ => ?_
  rw [plainDims_lhsIdx, plainDims_rhsIdx]

end Cert.PointConv

end
-- ==== Proof.LibRowLayout.lean ====
/-
  A vector laid out as a one-row matrix, two ways, and a one-row matrix copied down the rows.

  A bias vector of n entries meets an R×n table as a one-row matrix copied down the R rows. A kernel gets the row by a
  reshape of the vector to 1×n on the host and copies it with `vector.broadcast`; jnp gets it by a broadcast of the vector
  into dimension 1 of a 1×n matrix and a second broadcast down the rows. The two one-row matrices are the same matrix
  (`rowLayout`: entry (0, k) of either is entry k of the vector), and the kernel's copy, read at (r, k), is the row at
  (0, k) (`rowBroadcast_apply`). Stated for any entry type and any sizes; n = 1 is a bias cell met with a column.
-/
import Idealize.ShloMosaic.Lib.Pipeline.Value
import Idealize.ShloMosaic.Lib.ValueIdx

noncomputable section

namespace Idealize.ShloMosaic.RowLayout

open Idealize.ShloMosaic Idealize.ShloMosaic.ValueIdx

/-- A one-row matrix copied down R rows (a kernel's `vector.broadcast` of 1×n to R×n), read at (r, k), is the row at (0, k). -/
theorem rowBroadcast_apply {α : Type} {R n : ℕ} (x : (⟨2, ![1, n]⟩ : Shape).Idx → α)
    (h : (⟨2, ![1, n]⟩ : Shape).Broadcasts ⟨2, ![R, n]⟩) (r : Fin R) (k : Fin n) :
    broadcastTo ⟨2, ![R, n]⟩ x h (ix2 r k) = x (ix2 (0 : Fin 1) k) := by
  refine broadcastTo_apply x h (ix2 r k) (ix2 (0 : Fin 1) k) fun a => ?_
  match a with
  | ⟨0, _⟩ => rfl
  | ⟨1, _⟩ =>
    show k.val = if n = 1 then 0 else k.val
    split_ifs with hn
    · have := k.isLt; omega
    · rfl

/-- A vector of n entries broadcast into dimension 1 of a 1×n matrix, read at (z, k), is the vector at k. -/
theorem rowOfVector_apply {α : Type} {n : ℕ} (b : (⟨1, ![n]⟩ : Shape).Idx → α)
    (h : (⟨1, ![n]⟩ : Shape).BroadcastsInDim ⟨2, ![1, n]⟩ ![1]) (z : Fin 1) (k : Fin n) :
    broadcastInDim ⟨2, ![1, n]⟩ ![1] h b (ix2 z k) = b (ix1 k) := by
  refine broadcastInDim_apply ![1] h b (ix2 z k) (ix1 k) fun a => ?_
  match a with
  | ⟨0, _⟩ =>
    show k.val = if n = 1 then 0 else k.val
    split_ifs with hn
    · have := k.isLt; omega
    · rfl

/-- A vector of n entries reshaped to 1×n is the vector broadcast into dimension 1 of a 1×n matrix. -/
theorem rowLayout {α : Type} {n : ℕ} (b : (⟨1, ![n]⟩ : Shape).Idx → α) (h : (⟨1, ![n]⟩ : Shape).ShapeCasts ⟨2, ![1, n]⟩)
    (h' : (⟨1, ![n]⟩ : Shape).BroadcastsInDim ⟨2, ![1, n]⟩ ![1]) :
    shapeCast ⟨2, ![1, n]⟩ b h = broadcastInDim ⟨2, ![1, n]⟩ ![1] h' b := by
  funext j
  obtain ⟨z, k, rfl⟩ : ∃ (z : Fin 1) (k : Fin n), j = ix2 z k := ⟨j 0, j 1, eq_ix2 j⟩
  rw [rowOfVector_apply b h' z k]
  refine (shapeCast_addUnit_apply ![n] b h (ix2 z k)).trans (congrArg b (funext fun a => ?_))
  match a with
  | ⟨0, _⟩ => rfl

end Idealize.ShloMosaic.RowLayout

end
-- ==== Proof.LibDenseLayer.lean ====
/-
  Dense layers read entry by entry, over the extended reals.

  A layer `act (X · W + bias)` is computed two ways. On the vector unit a block of `R` rows `x` is multiplied by the
  weight matrix into the zero matrix, and a bias row `[1, k]` is copied down the `R` rows and added. On the host the
  whole matrix `X : [N, n]` is multiplied by `W : [n, k]` and the bias row is broadcast along the rows. Read at row
  `q`, column `o`, both are the same number: `(∑ c, X (q, c) * W (c, o)) + bias (0, o)`. The lemmas below state
  each form at an index, generic in the sizes, together with the forms of the two activations used after such a layer
  (the maximum with zero, and `x` where `x > 0` else `x` scaled), a bias row that is all zeros (adding it changes
  nothing: `a + 0 = a` holds for every extended real), and the elementwise `A + bias` layer.
-/
import Idealize.ShloMosaic.PureOps.Ideal
import Idealize.ShloMosaic.PureOps.Ideal.Laws
import Idealize.ShloMosaic.Lib.ValueIdx
import Idealize.ShloMosaic.Lib.Pipeline.Value
import proofs.«113295_j44487271252562_1_alg».proof.Proof.LibPlainMatmul
import proofs.«113295_j44487271252562_1_alg».proof.Proof.LibPlainHostProduct
import proofs.«113295_j44487271252562_1_alg».proof.Proof.LibRowLayout

noncomputable section

namespace Cert.DenseLayer

open Idealize.ShloMosaic Idealize.ShloMosaic.ValueIdx Cert.PointConv Idealize.ShloMosaic.RowLayout

variable {R N n k : Nat}

/-- A bias row `[1, k]` broadcast along the rows of `[N, k]` by the host (dimensions `[0, 1]`) reads, at `(i, o)`,
    the row's entry `(0, o)`. -/
theorem hostRow_apply {α : Type} (B2 : (⟨2, ![1, k]⟩ : Shape).Idx → α)
    (h : (⟨2, ![1, k]⟩ : Shape).BroadcastsInDim ⟨2, ![N, k]⟩ ![0, 1]) (i : Fin N) (o : Fin k) :
    broadcastInDim ⟨2, ![N, k]⟩ ![0, 1] h B2 (ix2 i o) = B2 (ix2 (0 : Fin 1) o) := by
  refine broadcastInDim_apply ![0, 1] h B2 (ix2 i o) (ix2 (0 : Fin 1) o) fun a => ?_
  match a with
  | ⟨0, _⟩ => show (0 : Nat) = if (1 : Nat) = 1 then 0 else i.val; rw [if_pos rfl]
  | ⟨1, _⟩ =>
    show o.val = if k = 1 then 0 else o.val
    split
    · have := o.isLt; omega
    · rfl

/-- A block of `R` rows times the weights, accumulated from zero, plus the bias row copied down the block:
    entry `(q, o)` is `(∑ c, x (q, c) * w (c, o)) + bias (0, o)`. -/
theorem blockAffine_apply (wf) (prec : Option ContractPrecision) (x : FVec Ideal (⟨2, ![R, n]⟩ : Shape) .f32)
    (w : FVec Ideal (⟨2, ![n, k]⟩ : Shape) .f32) (b2 : FVec Ideal (⟨2, ![1, k]⟩ : Shape) .f32)
    (hb : (⟨2, ![1, k]⟩ : Shape).Broadcasts ⟨2, ![R, k]⟩) (q : Fin R) (o : Fin k) :
    addf (matmul (plainDims R n k wf) prec x w (constant (F := Ideal) (⟨2, ![R, k]⟩ : Shape) .f32 0x00000000#32))
        (broadcastTo ⟨2, ![R, k]⟩ b2 hb) (ix2 q o)
      = (∑ c : Fin n, x (ix2 q c) * w (ix2 c o)) + b2 (ix2 (0 : Fin 1) o) := by
  show FloatOps.matmul (plainDims R n k wf) prec x w _ (ix2 q o) + broadcastTo ⟨2, ![R, k]⟩ b2 hb (ix2 q o) = _
  rw [plainMatmul_zero_apply, rowBroadcast_apply]

/-- The host's product of the whole matrix plus the bias row broadcast along the rows: entry `(i, o)` is
    `(∑ c, X (i, c) * W (c, o)) + bias (0, o)`. -/
theorem hostAffine_apply (wf) (prec : Option ContractPrecision) (X : FVec Ideal (⟨2, ![N, n]⟩ : Shape) .f32)
    (W : FVec Ideal (⟨2, ![n, k]⟩ : Shape) .f32) (B2 : FVec Ideal (⟨2, ![1, k]⟩ : Shape) .f32)
    (h : (⟨2, ![1, k]⟩ : Shape).BroadcastsInDim ⟨2, ![N, k]⟩ ![0, 1]) (i : Fin N) (o : Fin k) :
    addf (Host.dotGeneral (plainDims N n k wf) prec X W) (broadcastInDim ⟨2, ![N, k]⟩ ![0, 1] h B2) (ix2 i o)
      = (∑ c : Fin n, X (ix2 i c) * W (ix2 c o)) + B2 (ix2 (0 : Fin 1) o) := by
  show FloatOps.dotGeneral (plainDims N n k wf) prec .single X W (ix2 i o)
      + broadcastInDim ⟨2, ![N, k]⟩ ![0, 1] h B2 (ix2 i o) = _
  rw [plainDotGeneral_apply, hostRow_apply]

/-- The host's product alone, at an entry. -/
theorem hostProduct_apply (wf) (prec : Option ContractPrecision) (X : FVec Ideal (⟨2, ![N, n]⟩ : Shape) .f32)
    (W : FVec Ideal (⟨2, ![n, k]⟩ : Shape) .f32) (i : Fin N) (o : Fin k) :
    Host.dotGeneral (plainDims N n k wf) prec X W (ix2 i o) = ∑ c : Fin n, X (ix2 i c) * W (ix2 c o) :=
  plainDotGeneral_apply wf prec .single X W i o

/-- The word of zero is the extended real zero, and adding it changes nothing. -/
theorem add_zero_word (a : EReal) : a + Ideal.ofBits .f32 0x00000000#32 = a := by
  rw [Ideal.ofBits_zero_f32, add_zero]

end Cert.DenseLayer

end
-- ==== Proof.Region0.lean ====
/-
  Kernel launch 0 as the whole array it leaves.

  The rows of the first operand `[100000, 128]` are visited in 20 blocks of 5000 rows. At block `t` the body multiplies
  rows `5000 t … 5000 t + 4999` by the whole `[128, 128]` weight matrix, adds the bias row, and writes the block
  back to the same rows of the result; entry `(5000 t + q, o)` is `(∑ c, X (5000 t + q, c) * W (c, o)) + b (0, o)`:
  the entry of the host's whole-matrix form. Every row lies in the block `t = row / 5000`, so the blocks fill the array.
-/
import proofs.«113295_j44487271252562_1_alg».proof.Proof.Gen.KernelIdeal.Frame
import proofs.«113295_j44487271252562_1_alg».proof.Proof.Gen.ReferenceIdeal
import proofs.«113295_j44487271252562_1_alg».proof.Proof.LibDenseLayer
import Idealize.ShloMosaic.Lib.Pipeline.Value
import Idealize.ShloMosaic.Lib.ValueIdx
import Idealize.ShloMosaic.Lib.ValueLayout

set_option maxRecDepth 16384

noncomputable section

namespace Cert.KernelIdeal.Layers

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

private theorem hz : (![0, 0] : Fin 2 → Nat) = fun _ => 0 := funext fun a => by fin_cases a <;> rfl

/-- A constant copied to every entry reads that constant. -/
private theorem splat_apply {s : Shape} (h : (⟨0, ![]⟩ : Shape).BroadcastsInDim s ![]) (b : BitVec 32) (j : s.Idx) :
    broadcastInDim s ![] h (constant (F := Ideal) (⟨0, ![]⟩ : Shape) .f32 b) j = Ideal.ofBits .f32 b :=
  (broadcastInDim_apply ![] h (constant (F := Ideal) (⟨0, ![]⟩ : Shape) .f32 b) j (fun a => a.elim0) (fun a => a.elim0)).trans rfl

/-- One entry of the body's result from its loaded blocks. -/
theorem pay0_apply (x0 : Vec Ideal S5000x128 .f32) (x1 : Vec Ideal S128x128 .f32) (x2 : Vec Ideal S1x128 .f32)
    (q : Fin 5000) (o : Fin 128) :
    k0_pay1 x0 x1 x2 (ix2 q o) = ((∑ c : Fin 128, x0 (ix2 q c) * x1 (ix2 c o)) + x2 (ix2 (0 : Fin 1) o)) := by
  unfold k0_pay1
  simp only [shapeCast_self]
  exact Cert.DenseLayer.blockAffine_apply (R := 5000) (n := 128) (k := 128)
    dot_S5000x128_S128x128_S5000x128_1_0_0_1_n_n_wf none x0 x1 x2 broadcasts_S1x128_S5000x128 q o

/-- The printed index maps over the grid: the row blocks move with the point, the other operands stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `q` of the block of the first operand at point `t` is row `5000 t + q` of the array. -/
theorem read0_0 (c : Dev nD) (t : Fin cfg0.N) (q : Fin 5000) (k : Fin 128) (i : Fin 100000) (hi : i.val = t.val * 5000 + q.val) :
    iblk0 V c 0 t (ix2 q k) = V c main_arg0 (ix2 i k) := by
  obtain ⟨e0, e1, -, -, -, -, -, -⟩ := idx_facts0 t
  show V c main_arg0 (((cfg0.win 0).blk t).view.emb (ix2 q k)) = V c main_arg0 (ix2 i k)
  refine congrArg (V c main_arg0) ?_
  funext a; apply Fin.ext
  match a with
  | ⟨0, _⟩ => show win0_0.index t (0 : Fin 2) * 5000 + 1 * q.val = i.val; omega
  | ⟨1, _⟩ => show win0_0.index t (1 : Fin 2) * 128 + 1 * k.val = k.val; omega

/-- The weights' block is the whole matrix. -/
theorem read0_1 (c : Dev nD) (t : Fin cfg0.N) (k : Fin 128) (o : Fin 128) :
    iblk0 V c 1 t (ix2 k o) = V c main_arg2 (ix2 k o) := by
  obtain ⟨-, -, e0, e1, -, -, -, -⟩ := idx_facts0 t
  show V c main_arg2 (((cfg0.win 1).blk t).view.emb (ix2 k o)) = V c main_arg2 (ix2 k o)
  refine congrArg (V c main_arg2) ?_
  funext a; apply Fin.ext
  match a with
  | ⟨0, _⟩ => show win0_1.index t (0 : Fin 2) * 128 + 1 * k.val = k.val; omega
  | ⟨1, _⟩ => show win0_1.index t (1 : Fin 2) * 128 + 1 * o.val = o.val; omega

/-- The bias row's block is the whole row. -/
theorem read0_2 (c : Dev nD) (t : Fin cfg0.N) (z : Fin 1) (o : Fin 128) :
    iblk0 V c 2 t (ix2 z o) = V c main_v30 (ix2 z o) := by
  obtain ⟨-, -, -, -, e0, e1, -, -⟩ := idx_facts0 t
  show V c main_v30 (((cfg0.win 2).blk t).view.emb (ix2 z o)) = V c main_v30 (ix2 z o)
  refine congrArg (V c main_v30) ?_
  funext a; apply Fin.ext
  match a with
  | ⟨0, _⟩ => show win0_2.index t (0 : Fin 2) * 1 + 1 * z.val = z.val; omega
  | ⟨1, _⟩ => show win0_2.index t (1 : Fin 2) * 128 + 1 * o.val = o.val; omega

/-- The layer as the host writes it on whole arrays. -/
abbrev layer0 (X : FVec Ideal Cert.ReferenceIdeal.S100000x128 .f32) (W : FVec Ideal Cert.ReferenceIdeal.S128x128 .f32) (B2 : FVec Ideal Cert.ReferenceIdeal.S1x128 .f32) :
    FVec Ideal Cert.ReferenceIdeal.S100000x128 .f32 :=
  (addf (Host.dotGeneral Cert.ReferenceIdeal.dot_S100000x128_S128x128_S100000x128_1_0_0_1_n_n none X W) (broadcastInDim Cert.ReferenceIdeal.S100000x128 ![0, 1] Cert.ReferenceIdeal.Facts₀.bcast_S1x128_S100000x128_0_1 B2))

theorem layer0_apply (X : FVec Ideal Cert.ReferenceIdeal.S100000x128 .f32) (W : FVec Ideal Cert.ReferenceIdeal.S128x128 .f32) (B2 : FVec Ideal Cert.ReferenceIdeal.S1x128 .f32)
    (i : Fin 100000) (o : Fin 128) :
    layer0 X W B2 (ix2 i o) = ((∑ c : Fin 128, X (ix2 i c) * W (ix2 c o)) + B2 (ix2 (0 : Fin 1) o)) :=
  Cert.DenseLayer.hostAffine_apply (N := 100000) (n := 128) (k := 128) Cert.ReferenceIdeal.Facts₀.dot_S100000x128_S128x128_S100000x128_1_0_0_1_n_n_wf none X W B2 Cert.ReferenceIdeal.Facts₀.bcast_S1x128_S100000x128_0_1 i o

/-- What point `t` writes back is block `t` of the layer of the arrays the region finds. -/
theorem flushed0 (c : Dev nD) (t : Fin cfg0.N) :
    (dat0 V c).flushed 3 t = ((cfg0.win 3).blk t).view.read (Elt Ideal)
      (layer0 (V c main_arg0) (V c main_arg2) (V c main_v30)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  funext j
  obtain ⟨q, o, rfl⟩ : ∃ (q : Fin 5000) (o : Fin 128), j = ix2 q o := ⟨j 0, j 1, eq_ix2 j⟩
  have ht : t.val < 20 := by have := t.isLt; have hN : cfg0.N = 20 := N_0; omega
  obtain ⟨-, -, -, -, -, -, e0, e1⟩ := idx_facts0 t
  have hemb : ((cfg0.win 3).blk t).view.emb (ix2 q o) = ix2 (⟨t.val * 5000 + q.val, by omega⟩ : Fin 100000) o := by
    funext a; apply Fin.ext
    match a with
    | ⟨0, _⟩ => show win0_3.index t (0 : Fin 2) * 5000 + 1 * q.val = t.val * 5000 + q.val; omega
    | ⟨1, _⟩ => show win0_3.index t (1 : Fin 2) * 128 + 1 * o.val = o.val; omega
  show k0_pay1 (iblk0 V c 0 t) (iblk0 V c 1 t) (iblk0 V c 2 t) (ix2 q o)
      = layer0 (V c main_arg0) (V c main_arg2) (V c main_v30) (((cfg0.win 3).blk t).view.emb (ix2 q o))
  rw [hemb, layer0_apply]
  refine (pay0_apply (iblk0 V c 0 t) (iblk0 V c 1 t) (iblk0 V c 2 t) q o).trans ?_
  rw [read0_2 V c t 0 o]
  refine congrArg (· + V c main_v30 (ix2 (0 : Fin 1) o)) (Finset.sum_congr rfl fun k _ => ?_)
  rw [read0_0 V c t q k (⟨t.val * 5000 + q.val, by omega⟩ : Fin 100000) rfl, read0_1 V c t k o]

/-- Every row of the array is in the block of the point `row / 5000`. -/
theorem cover0 (i : S100000x128.Idx) :
    ∃ t : Fin cfg0.N, (cfg0.win 3).flush t = true ∧ i ∈ ((cfg0.win 3).blk t).view.set := by
  have hN : cfg0.N = 20 := N_0
  have hi0 : (i 0).val < 100000 := (i 0).isLt
  have hi1 : (i 1).val < 128 := (i 1).isLt
  let t : Fin cfg0.N := ⟨(i 0).val / 5000, by rw [hN]; omega⟩
  obtain ⟨-, -, -, -, -, -, e0, e1⟩ := idx_facts0 t
  have e0' : win0_3.index t (0 : Fin 2) = (i 0).val / 5000 := e0
  refine ⟨t, flush0_3 t, ?_⟩
  show i ∈ ((View.whole main_v31).slice (win0_3.rect t)).set
  rw [View.set_slice_whole, Rect.mem_set_unit]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The array the region leaves: the layer of the arrays it finds. -/
theorem out0 (c : Dev nD) :
    (dat0 V c).arrAt 3 cfg0.N = layer0 (V c main_arg0) (V c main_arg2) (V c main_v30) :=
  (dat0 V c).arrAt_eq_of_cover 3 _ (fun t _ => flushed0 V c t) cover0

end Cert.KernelIdeal.Layers

end
-- ==== Proof.Region1.lean ====
/-
  Kernel launch 1 as the whole array it leaves.

  The rows of the first operand `[100000, 128]` are visited in 20 blocks of 5000 rows. At block `t` the body multiplies
  rows `5000 t … 5000 t + 4999` by the whole `[128, 128]` weight matrix, adds the bias row, and writes the block
  back to the same rows of the result; entry `(5000 t + q, o)` is `(∑ c, X (5000 t + q, c) * W (c, o)) + b (0, o)` with `b` all zeros, so the sum alone:
  the entry of the host's whole-matrix form. Every row lies in the block `t = row / 5000`, so the blocks fill the array.
-/
import proofs.«113295_j44487271252562_1_alg».proof.Proof.Gen.KernelIdeal.Frame
import proofs.«113295_j44487271252562_1_alg».proof.Proof.Gen.ReferenceIdeal
import proofs.«113295_j44487271252562_1_alg».proof.Proof.LibDenseLayer
import Idealize.ShloMosaic.Lib.Pipeline.Value
import Idealize.ShloMosaic.Lib.ValueIdx
import Idealize.ShloMosaic.Lib.ValueLayout

set_option maxRecDepth 16384

noncomputable section

namespace Cert.KernelIdeal.Layers

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

private theorem hz : (![0, 0] : Fin 2 → Nat) = fun _ => 0 := funext fun a => by fin_cases a <;> rfl

/-- A constant copied to every entry reads that constant. -/
private theorem splat_apply {s : Shape} (h : (⟨0, ![]⟩ : Shape).BroadcastsInDim s ![]) (b : BitVec 32) (j : s.Idx) :
    broadcastInDim s ![] h (constant (F := Ideal) (⟨0, ![]⟩ : Shape) .f32 b) j = Ideal.ofBits .f32 b :=
  (broadcastInDim_apply ![] h (constant (F := Ideal) (⟨0, ![]⟩ : Shape) .f32 b) j (fun a => a.elim0) (fun a => a.elim0)).trans rfl

/-- One entry of the body's result from its loaded blocks. -/
theorem pay1_apply (x0 : Vec Ideal S5000x128 .f32) (x1 : Vec Ideal S128x128 .f32) (x2 : Vec Ideal S1x128 .f32)
    (q : Fin 5000) (o : Fin 128) :
    k1_pay1 x0 x1 x2 (ix2 q o) = ((∑ c : Fin 128, x0 (ix2 q c) * x1 (ix2 c o)) + x2 (ix2 (0 : Fin 1) o)) := by
  unfold k1_pay1
  simp only [shapeCast_self]
  exact Cert.DenseLayer.blockAffine_apply (R := 5000) (n := 128) (k := 128)
    dot_S5000x128_S128x128_S5000x128_1_0_0_1_n_n_wf none x0 x1 x2 broadcasts_S1x128_S5000x128 q o

/-- The printed index maps over the grid: the row blocks move with the point, the other operands stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `q` of the block of the first operand at point `t` is row `5000 t + q` of the array. -/
theorem read1_0 (c : Dev nD) (t : Fin cfg1.N) (q : Fin 5000) (k : Fin 128) (i : Fin 100000) (hi : i.val = t.val * 5000 + q.val) :
    iblk1 V c 0 t (ix2 q k) = V c main_v31 (ix2 i k) := by
  obtain ⟨e0, e1, -, -, -, -, -, -⟩ := idx_facts1 t
  show V c main_v31 (((cfg1.win 0).blk t).view.emb (ix2 q k)) = V c main_v31 (ix2 i k)
  refine congrArg (V c main_v31) ?_
  funext a; apply Fin.ext
  match a with
  | ⟨0, _⟩ => show win1_0.index t (0 : Fin 2) * 5000 + 1 * q.val = i.val; omega
  | ⟨1, _⟩ => show win1_0.index t (1 : Fin 2) * 128 + 1 * k.val = k.val; omega

/-- The weights' block is the whole matrix. -/
theorem read1_1 (c : Dev nD) (t : Fin cfg1.N) (k : Fin 128) (o : Fin 128) :
    iblk1 V c 1 t (ix2 k o) = V c main_arg4 (ix2 k o) := by
  obtain ⟨-, -, e0, e1, -, -, -, -⟩ := idx_facts1 t
  show V c main_arg4 (((cfg1.win 1).blk t).view.emb (ix2 k o)) = V c main_arg4 (ix2 k o)
  refine congrArg (V c main_arg4) ?_
  funext a; apply Fin.ext
  match a with
  | ⟨0, _⟩ => show win1_1.index t (0 : Fin 2) * 128 + 1 * k.val = k.val; omega
  | ⟨1, _⟩ => show win1_1.index t (1 : Fin 2) * 128 + 1 * o.val = o.val; omega

/-- The bias row's block is the whole row. -/
theorem read1_2 (c : Dev nD) (t : Fin cfg1.N) (z : Fin 1) (o : Fin 128) :
    iblk1 V c 2 t (ix2 z o) = V c main_v33 (ix2 z o) := by
  obtain ⟨-, -, -, -, e0, e1, -, -⟩ := idx_facts1 t
  show V c main_v33 (((cfg1.win 2).blk t).view.emb (ix2 z o)) = V c main_v33 (ix2 z o)
  refine congrArg (V c main_v33) ?_
  funext a; apply Fin.ext
  match a with
  | ⟨0, _⟩ => show win1_2.index t (0 : Fin 2) * 1 + 1 * z.val = z.val; omega
  | ⟨1, _⟩ => show win1_2.index t (1 : Fin 2) * 128 + 1 * o.val = o.val; omega

/-- The all-zero bias row: a zero constant copied to a vector and laid out as one row. -/
abbrev zeroRow1 : FVec Ideal S1x128 .f32 := (shapeCast S1x128 (broadcastInDim S128 ![] bcast_S_S128 (constant (F := Ideal) S_ .f32 0x00000000#32)) shapeCasts_S128_S1x128)

theorem zeroRow1_apply (z : Fin 1) (o : Fin 128) : zeroRow1 (ix2 z o) = Ideal.ofBits .f32 0x00000000#32 :=
  (shapeCast_a_1a_apply _ shapeCasts_S128_S1x128 z o).trans
    ((broadcastInDim_apply ![] bcast_S_S128 (constant (F := Ideal) S_ .f32 0x00000000#32) (ix1 o) (fun a => a.elim0) (fun a => a.elim0)).trans rfl)

/-- The layer as the host writes it on whole arrays. -/
abbrev layer1 (X : FVec Ideal Cert.ReferenceIdeal.S100000x128 .f32) (W : FVec Ideal Cert.ReferenceIdeal.S128x128 .f32) :
    FVec Ideal Cert.ReferenceIdeal.S100000x128 .f32 :=
  (Host.dotGeneral Cert.ReferenceIdeal.dot_S100000x128_S128x128_S100000x128_1_0_0_1_n_n none X W)

theorem layer1_apply (X : FVec Ideal Cert.ReferenceIdeal.S100000x128 .f32) (W : FVec Ideal Cert.ReferenceIdeal.S128x128 .f32)
    (i : Fin 100000) (o : Fin 128) :
    layer1 X W (ix2 i o) = (∑ c : Fin 128, X (ix2 i c) * W (ix2 c o)) :=
  Cert.DenseLayer.hostProduct_apply (N := 100000) (n := 128) (k := 128) Cert.ReferenceIdeal.Facts₀.dot_S100000x128_S128x128_S100000x128_1_0_0_1_n_n_wf none X W i o

/-- What point `t` writes back is block `t` of the layer of the arrays the region finds. -/
theorem flushed1 (c : Dev nD) (hB : V c main_v33 = zeroRow1) (t : Fin cfg1.N) :
    (dat1 V c).flushed 3 t = ((cfg1.win 3).blk t).view.read (Elt Ideal)
      (layer1 (V c main_v31) (V c main_arg4)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  funext j
  obtain ⟨q, o, rfl⟩ : ∃ (q : Fin 5000) (o : Fin 128), j = ix2 q o := ⟨j 0, j 1, eq_ix2 j⟩
  have ht : t.val < 20 := by have := t.isLt; have hN : cfg1.N = 20 := N_1; omega
  obtain ⟨-, -, -, -, -, -, e0, e1⟩ := idx_facts1 t
  have hemb : ((cfg1.win 3).blk t).view.emb (ix2 q o) = ix2 (⟨t.val * 5000 + q.val, by omega⟩ : Fin 100000) o := by
    funext a; apply Fin.ext
    match a with
    | ⟨0, _⟩ => show win1_3.index t (0 : Fin 2) * 5000 + 1 * q.val = t.val * 5000 + q.val; omega
    | ⟨1, _⟩ => show win1_3.index t (1 : Fin 2) * 128 + 1 * o.val = o.val; omega
  show k1_pay1 (iblk1 V c 0 t) (iblk1 V c 1 t) (iblk1 V c 2 t) (ix2 q o)
      = layer1 (V c main_v31) (V c main_arg4) (((cfg1.win 3).blk t).view.emb (ix2 q o))
  rw [hemb, layer1_apply]
  refine (pay1_apply (iblk1 V c 0 t) (iblk1 V c 1 t) (iblk1 V c 2 t) q o).trans ?_
  rw [read1_2 V c t 0 o, hB, zeroRow1_apply, Cert.DenseLayer.add_zero_word]
  refine Finset.sum_congr rfl fun k _ => ?_
  rw [read1_0 V c t q k (⟨t.val * 5000 + q.val, by omega⟩ : Fin 100000) rfl, read1_1 V c t k o]

/-- Every row of the array is in the block of the point `row / 5000`. -/
theorem cover1 (i : S100000x128.Idx) :
    ∃ t : Fin cfg1.N, (cfg1.win 3).flush t = true ∧ i ∈ ((cfg1.win 3).blk t).view.set := by
  have hN : cfg1.N = 20 := N_1
  have hi0 : (i 0).val < 100000 := (i 0).isLt
  have hi1 : (i 1).val < 128 := (i 1).isLt
  let t : Fin cfg1.N := ⟨(i 0).val / 5000, by rw [hN]; omega⟩
  obtain ⟨-, -, -, -, -, -, e0, e1⟩ := idx_facts1 t
  have e0' : win1_3.index t (0 : Fin 2) = (i 0).val / 5000 := e0
  refine ⟨t, flush1_3 t, ?_⟩
  show i ∈ ((View.whole main_v34).slice (win1_3.rect t)).set
  rw [View.set_slice_whole, Rect.mem_set_unit]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The array the region leaves: the layer of the arrays it finds. -/
theorem out1 (c : Dev nD) (hB : V c main_v33 = zeroRow1) :
    (dat1 V c).arrAt 3 cfg1.N = layer1 (V c main_v31) (V c main_arg4) :=
  (dat1 V c).arrAt_eq_of_cover 3 _ (fun t _ => flushed1 V c hB t) cover1

end Cert.KernelIdeal.Layers

end
-- ==== Proof.Region2.lean ====
/-
  Kernel launch 2 as the whole array it leaves.

  The rows of `[100000, 128]` are visited in 20 blocks of 5000 rows. At block `t` the body adds the bias row to rows
  `5000 t … 5000 t + 4999`, takes the maximum with zero, and writes the block back to the same rows; entry
  `(5000 t + q, o)` is `max (A (5000 t + q, o) + b (0, o)) 0`, the entry of the host's whole-array form. Every row lies in the
  block `t = row / 5000`, so the blocks fill the array.
-/
import proofs.«113295_j44487271252562_1_alg».proof.Proof.Gen.KernelIdeal.Frame
import proofs.«113295_j44487271252562_1_alg».proof.Proof.Gen.ReferenceIdeal
import proofs.«113295_j44487271252562_1_alg».proof.Proof.LibDenseLayer
import Idealize.ShloMosaic.Lib.Pipeline.Value
import Idealize.ShloMosaic.Lib.ValueIdx
import Idealize.ShloMosaic.Lib.ValueLayout

set_option maxRecDepth 16384

noncomputable section

namespace Cert.KernelIdeal.Layers

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

private theorem hz : (![0, 0] : Fin 2 → Nat) = fun _ => 0 := funext fun a => by fin_cases a <;> rfl

/-- A constant copied to every entry reads that constant. -/
private theorem splat_apply {s : Shape} (h : (⟨0, ![]⟩ : Shape).BroadcastsInDim s ![]) (b : BitVec 32) (j : s.Idx) :
    broadcastInDim s ![] h (constant (F := Ideal) (⟨0, ![]⟩ : Shape) .f32 b) j = Ideal.ofBits .f32 b :=
  (broadcastInDim_apply ![] h (constant (F := Ideal) (⟨0, ![]⟩ : Shape) .f32 b) j (fun a => a.elim0) (fun a => a.elim0)).trans rfl

/-- One entry of the body's result from its loaded blocks. -/
theorem pay2_apply (x0 : Vec Ideal S5000x128 .f32) (x2 : Vec Ideal S1x128 .f32)
    (q : Fin 5000) (o : Fin 128) :
    k2_pay1 x0 x2 (ix2 q o) = max (x0 (ix2 q o) + x2 (ix2 (0 : Fin 1) o)) (Ideal.ofBits .f32 0x00000000#32) := by
  unfold k2_pay1
  simp only [shapeCast_self]
  exact congrArg (fun y : EReal => max y (Ideal.ofBits .f32 0x00000000#32)) (congrArg (x0 (ix2 q o) + ·) (Idealize.ShloMosaic.RowLayout.rowBroadcast_apply (R := 5000) (n := 128) x2 broadcasts_S1x128_S5000x128 q o))

/-- The printed index maps over the grid: the row blocks move with the point, the other operands stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `q` of the block of the first operand at point `t` is row `5000 t + q` of the array. -/
theorem read2_0 (c : Dev nD) (t : Fin cfg2.N) (q : Fin 5000) (k : Fin 128) (i : Fin 100000) (hi : i.val = t.val * 5000 + q.val) :
    iblk2 V c 0 t (ix2 q k) = V c main_v47 (ix2 i k) := by
  obtain ⟨e0, e1, -, -, -, -⟩ := idx_facts2 t
  show V c main_v47 (((cfg2.win 0).blk t).view.emb (ix2 q k)) = V c main_v47 (ix2 i k)
  refine congrArg (V c main_v47) ?_
  funext a; apply Fin.ext
  match a with
  | ⟨0, _⟩ => show win2_0.index t (0 : Fin 2) * 5000 + 1 * q.val = i.val; omega
  | ⟨1, _⟩ => show win2_0.index t (1 : Fin 2) * 128 + 1 * k.val = k.val; omega

/-- The bias row's block is the whole row. -/
theorem read2_1 (c : Dev nD) (t : Fin cfg2.N) (z : Fin 1) (o : Fin 128) :
    iblk2 V c 1 t (ix2 z o) = V c main_v48 (ix2 z o) := by
  obtain ⟨-, -, e0, e1, -, -⟩ := idx_facts2 t
  show V c main_v48 (((cfg2.win 1).blk t).view.emb (ix2 z o)) = V c main_v48 (ix2 z o)
  refine congrArg (V c main_v48) ?_
  funext a; apply Fin.ext
  match a with
  | ⟨0, _⟩ => show win2_1.index t (0 : Fin 2) * 1 + 1 * z.val = z.val; omega
  | ⟨1, _⟩ => show win2_1.index t (1 : Fin 2) * 128 + 1 * o.val = o.val; omega

/-- The layer as the host writes it on whole arrays. -/
abbrev layer2 (X : FVec Ideal Cert.ReferenceIdeal.S100000x128 .f32) (B2 : FVec Ideal Cert.ReferenceIdeal.S1x128 .f32) :
    FVec Ideal Cert.ReferenceIdeal.S100000x128 .f32 :=
  maximumf (addf X (broadcastInDim Cert.ReferenceIdeal.S100000x128 ![0, 1] Cert.ReferenceIdeal.Facts₀.bcast_S1x128_S100000x128_0_1 B2)) (broadcastInDim Cert.ReferenceIdeal.S100000x128 ![] Cert.ReferenceIdeal.Facts₀.bcast_S_S100000x128 (constant (F := Ideal) Cert.ReferenceIdeal.S_ .f32 0x00000000#32))

theorem layer2_apply (X : FVec Ideal Cert.ReferenceIdeal.S100000x128 .f32) (B2 : FVec Ideal Cert.ReferenceIdeal.S1x128 .f32)
    (i : Fin 100000) (o : Fin 128) :
    layer2 X B2 (ix2 i o) = max (X (ix2 i o) + B2 (ix2 (0 : Fin 1) o)) (Ideal.ofBits .f32 0x00000000#32) :=
  by
  have hY : (addf X (broadcastInDim Cert.ReferenceIdeal.S100000x128 ![0, 1] Cert.ReferenceIdeal.Facts₀.bcast_S1x128_S100000x128_0_1 B2)) (ix2 i o) = (X (ix2 i o) + B2 (ix2 (0 : Fin 1) o)) :=
    congrArg (X (ix2 i o) + ·) (Cert.DenseLayer.hostRow_apply (N := 100000) (k := 128) B2 Cert.ReferenceIdeal.Facts₀.bcast_S1x128_S100000x128_0_1 i o)
  have hZ : (broadcastInDim Cert.ReferenceIdeal.S100000x128 ![] Cert.ReferenceIdeal.Facts₀.bcast_S_S100000x128 (constant (F := Ideal) Cert.ReferenceIdeal.S_ .f32 0x00000000#32)) (ix2 i o) = Ideal.ofBits .f32 0x00000000#32 := splat_apply _ _ _
  show max ((addf X (broadcastInDim Cert.ReferenceIdeal.S100000x128 ![0, 1] Cert.ReferenceIdeal.Facts₀.bcast_S1x128_S100000x128_0_1 B2)) (ix2 i o)) ((broadcastInDim Cert.ReferenceIdeal.S100000x128 ![] Cert.ReferenceIdeal.Facts₀.bcast_S_S100000x128 (constant (F := Ideal) Cert.ReferenceIdeal.S_ .f32 0x00000000#32)) (ix2 i o)) = _
  rw [hY, hZ]

/-- What point `t` writes back is block `t` of the layer of the arrays the region finds. -/
theorem flushed2 (c : Dev nD) (t : Fin cfg2.N) :
    (dat2 V c).flushed 2 t = ((cfg2.win 2).blk t).view.read (Elt Ideal)
      (layer2 (V c main_v47) (V c main_v48)) := by
  show (cfg2.win 2).cut (grid2.coords t) ((dat2 V c).after 2 t) = _
  rw [after2_2]
  unfold out2_2
  rw [View.canon_unit_zero hz]
  simp only [View.ld_unit_zero (S := S5000x128) hz, View.ld_unit_zero (S := S1x128) hz]
  funext j
  obtain ⟨q, o, rfl⟩ : ∃ (q : Fin 5000) (o : Fin 128), j = ix2 q o := ⟨j 0, j 1, eq_ix2 j⟩
  have ht : t.val < 20 := by have := t.isLt; have hN : cfg2.N = 20 := N_2; omega
  obtain ⟨-, -, -, -, e0, e1⟩ := idx_facts2 t
  have hemb : ((cfg2.win 2).blk t).view.emb (ix2 q o) = ix2 (⟨t.val * 5000 + q.val, by omega⟩ : Fin 100000) o := by
    funext a; apply Fin.ext
    match a with
    | ⟨0, _⟩ => show win2_2.index t (0 : Fin 2) * 5000 + 1 * q.val = t.val * 5000 + q.val; omega
    | ⟨1, _⟩ => show win2_2.index t (1 : Fin 2) * 128 + 1 * o.val = o.val; omega
  show k2_pay1 (iblk2 V c 0 t) (iblk2 V c 1 t) (ix2 q o)
      = layer2 (V c main_v47) (V c main_v48) (((cfg2.win 2).blk t).view.emb (ix2 q o))
  rw [hemb, layer2_apply]
  refine (pay2_apply (iblk2 V c 0 t) (iblk2 V c 1 t) q o).trans ?_
  rw [read2_0 V c t q o (⟨t.val * 5000 + q.val, by omega⟩ : Fin 100000) rfl, read2_1 V c t 0 o]

/-- Every row of the array is in the block of the point `row / 5000`. -/
theorem cover2 (i : S100000x128.Idx) :
    ∃ t : Fin cfg2.N, (cfg2.win 2).flush t = true ∧ i ∈ ((cfg2.win 2).blk t).view.set := by
  have hN : cfg2.N = 20 := N_2
  have hi0 : (i 0).val < 100000 := (i 0).isLt
  have hi1 : (i 1).val < 128 := (i 1).isLt
  let t : Fin cfg2.N := ⟨(i 0).val / 5000, by rw [hN]; omega⟩
  obtain ⟨-, -, -, -, e0, e1⟩ := idx_facts2 t
  have e0' : win2_2.index t (0 : Fin 2) = (i 0).val / 5000 := e0
  refine ⟨t, flush2_2 t, ?_⟩
  show i ∈ ((View.whole main_v49).slice (win2_2.rect t)).set
  rw [View.set_slice_whole, Rect.mem_set_unit]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The array the region leaves: the layer of the arrays it finds. -/
theorem out2 (c : Dev nD) :
    (dat2 V c).arrAt 2 cfg2.N = layer2 (V c main_v47) (V c main_v48) :=
  (dat2 V c).arrAt_eq_of_cover 2 _ (fun t _ => flushed2 V c t) cover2

end Cert.KernelIdeal.Layers

end
-- ==== Proof.Region3.lean ====
/-
  Kernel launch 3 as the whole array it leaves.

  The rows of the first operand `[100000, 256]` are visited in 20 blocks of 5000 rows. At block `t` the body multiplies
  rows `5000 t … 5000 t + 4999` by the whole `[256, 128]` weight matrix, adds the bias row, and writes the block
  back to the same rows of the result; entry `(5000 t + q, o)` is `(∑ c, X (5000 t + q, c) * W (c, o)) + b (0, o)` with `b` all zeros, so the sum alone:
  the entry of the host's whole-matrix form. Every row lies in the block `t = row / 5000`, so the blocks fill the array.
-/
import proofs.«113295_j44487271252562_1_alg».proof.Proof.Gen.KernelIdeal.Frame
import proofs.«113295_j44487271252562_1_alg».proof.Proof.Gen.ReferenceIdeal
import proofs.«113295_j44487271252562_1_alg».proof.Proof.LibDenseLayer
import Idealize.ShloMosaic.Lib.Pipeline.Value
import Idealize.ShloMosaic.Lib.ValueIdx
import Idealize.ShloMosaic.Lib.ValueLayout

set_option maxRecDepth 16384

noncomputable section

namespace Cert.KernelIdeal.Layers

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

private theorem hz : (![0, 0] : Fin 2 → Nat) = fun _ => 0 := funext fun a => by fin_cases a <;> rfl

/-- A constant copied to every entry reads that constant. -/
private theorem splat_apply {s : Shape} (h : (⟨0, ![]⟩ : Shape).BroadcastsInDim s ![]) (b : BitVec 32) (j : s.Idx) :
    broadcastInDim s ![] h (constant (F := Ideal) (⟨0, ![]⟩ : Shape) .f32 b) j = Ideal.ofBits .f32 b :=
  (broadcastInDim_apply ![] h (constant (F := Ideal) (⟨0, ![]⟩ : Shape) .f32 b) j (fun a => a.elim0) (fun a => a.elim0)).trans rfl

/-- One entry of the body's result from its loaded blocks. -/
theorem pay3_apply (x0 : Vec Ideal S5000x256 .f32) (x1 : Vec Ideal S256x128 .f32) (x2 : Vec Ideal S1x128 .f32)
    (q : Fin 5000) (o : Fin 128) :
    k3_pay1 x0 x1 x2 (ix2 q o) = ((∑ c : Fin 256, x0 (ix2 q c) * x1 (ix2 c o)) + x2 (ix2 (0 : Fin 1) o)) := by
  unfold k3_pay1
  simp only [shapeCast_self]
  exact Cert.DenseLayer.blockAffine_apply (R := 5000) (n := 256) (k := 128)
    dot_S5000x256_S256x128_S5000x128_1_0_0_1_n_n_wf none x0 x1 x2 broadcasts_S1x128_S5000x128 q o

/-- The printed index maps over the grid: the row blocks move with the point, the other operands stay. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row `q` of the block of the first operand at point `t` is row `5000 t + q` of the array. -/
theorem read3_0 (c : Dev nD) (t : Fin cfg3.N) (q : Fin 5000) (k : Fin 256) (i : Fin 100000) (hi : i.val = t.val * 5000 + q.val) :
    iblk3 V c 0 t (ix2 q k) = V c main_v50 (ix2 i k) := by
  obtain ⟨e0, e1, -, -, -, -, -, -⟩ := idx_facts3 t
  show V c main_v50 (((cfg3.win 0).blk t).view.emb (ix2 q k)) = V c main_v50 (ix2 i k)
  refine congrArg (V c main_v50) ?_
  funext a; apply Fin.ext
  match a with
  | ⟨0, _⟩ => show win3_0.index t (0 : Fin 2) * 5000 + 1 * q.val = i.val; omega
  | ⟨1, _⟩ => show win3_0.index t (1 : Fin 2) * 256 + 1 * k.val = k.val; omega

/-- The weights' block is the whole matrix. -/
theorem read3_1 (c : Dev nD) (t : Fin cfg3.N) (k : Fin 256) (o : Fin 128) :
    iblk3 V c 1 t (ix2 k o) = V c main_arg6 (ix2 k o) := by
  obtain ⟨-, -, e0, e1, -, -, -, -⟩ := idx_facts3 t
  show V c main_arg6 (((cfg3.win 1).blk t).view.emb (ix2 k o)) = V c main_arg6 (ix2 k o)
  refine congrArg (V c main_arg6) ?_
  funext a; apply Fin.ext
  match a with
  | ⟨0, _⟩ => show win3_1.index t (0 : Fin 2) * 256 + 1 * k.val = k.val; omega
  | ⟨1, _⟩ => show win3_1.index t (1 : Fin 2) * 128 + 1 * o.val = o.val; omega

/-- The bias row's block is the whole row. -/
theorem read3_2 (c : Dev nD) (t : Fin cfg3.N) (z : Fin 1) (o : Fin 128) :
    iblk3 V c 2 t (ix2 z o) = V c main_v51 (ix2 z o) := by
  obtain ⟨-, -, -, -, e0, e1, -, -⟩ := idx_facts3 t
  show V c main_v51 (((cfg3.win 2).blk t).view.emb (ix2 z o)) = V c main_v51 (ix2 z o)
  refine congrArg (V c main_v51) ?_
  funext a; apply Fin.ext
  match a with
  | ⟨0, _⟩ => show win3_2.index t (0 : Fin 2) * 1 + 1 * z.val = z.val; omega
  | ⟨1, _⟩ => show win3_2.index t (1 : Fin 2) * 128 + 1 * o.val = o.val; omega

/-- The all-zero bias row: a zero constant copied to a vector and laid out as one row. -/
abbrev zeroRow3 : FVec Ideal S1x128 .f32 := (shapeCast S1x128 (broadcastInDim S128 ![] bcast_S_S128 (constant (F := Ideal) S_ .f32 0x00000000#32)) shapeCasts_S128_S1x128)

theorem zeroRow3_apply (z : Fin 1) (o : Fin 128) : zeroRow3 (ix2 z o) = Ideal.ofBits .f32 0x00000000#32 :=
  (shapeCast_a_1a_apply _ shapeCasts_S128_S1x128 z o).trans
    ((broadcastInDim_apply ![] bcast_S_S128 (constant (F := Ideal) S_ .f32 0x00000000#32) (ix1 o) (fun a => a.elim0) (fun a => a.elim0)).trans rfl)

/-- The layer as the host writes it on whole arrays. -/
abbrev layer3 (X : FVec Ideal Cert.ReferenceIdeal.S100000x256 .f32) (W : FVec Ideal Cert.ReferenceIdeal.S256x128 .f32) :
    FVec Ideal Cert.ReferenceIdeal.S100000x128 .f32 :=
  (Host.dotGeneral Cert.ReferenceIdeal.dot_S100000x256_S256x128_S100000x128_1_0_0_1_n_n none X W)

theorem layer3_apply (X : FVec Ideal Cert.ReferenceIdeal.S100000x256 .f32) (W : FVec Ideal Cert.ReferenceIdeal.S256x128 .f32)
    (i : Fin 100000) (o : Fin 128) :
    layer3 X W (ix2 i o) = (∑ c : Fin 256, X (ix2 i c) * W (ix2 c o)) :=
  Cert.DenseLayer.hostProduct_apply (N := 100000) (n := 256) (k := 128) Cert.ReferenceIdeal.Facts₀.dot_S100000x256_S256x128_S100000x128_1_0_0_1_n_n_wf none X W i o

/-- What point `t` writes back is block `t` of the layer of the arrays the region finds. -/
theorem flushed3 (c : Dev nD) (hB : V c main_v51 = zeroRow3) (t : Fin cfg3.N) :
    (dat3 V c).flushed 3 t = ((cfg3.win 3).blk t).view.read (Elt Ideal)
      (layer3 (V c main_v50) (V c main_arg6)) := by
  show (cfg3.win 3).cut (grid3.coords t) ((dat3 V c).after 3 t) = _
  rw [after3_3]
  unfold out3_3
  rw [View.canon_unit_zero hz]
  simp only [View.ld_unit_zero (S := S5000x256) hz, View.ld_unit_zero (S := S256x128) hz, View.ld_unit_zero (S := S1x128) hz]
  funext j
  obtain ⟨q, o, rfl⟩ : ∃ (q : Fin 5000) (o : Fin 128), j = ix2 q o := ⟨j 0, j 1, eq_ix2 j⟩
  have ht : t.val < 20 := by have := t.isLt; have hN : cfg3.N = 20 := N_3; omega
  obtain ⟨-, -, -, -, -, -, e0, e1⟩ := idx_facts3 t
  have hemb : ((cfg3.win 3).blk t).view.emb (ix2 q o) = ix2 (⟨t.val * 5000 + q.val, by omega⟩ : Fin 100000) o := by
    funext a; apply Fin.ext
    match a with
    | ⟨0, _⟩ => show win3_3.index t (0 : Fin 2) * 5000 + 1 * q.val = t.val * 5000 + q.val; omega
    | ⟨1, _⟩ => show win3_3.index t (1 : Fin 2) * 128 + 1 * o.val = o.val; omega
  show k3_pay1 (iblk3 V c 0 t) (iblk3 V c 1 t) (iblk3 V c 2 t) (ix2 q o)
      = layer3 (V c main_v50) (V c main_arg6) (((cfg3.win 3).blk t).view.emb (ix2 q o))
  rw [hemb, layer3_apply]
  refine (pay3_apply (iblk3 V c 0 t) (iblk3 V c 1 t) (iblk3 V c 2 t) q o).trans ?_
  rw [read3_2 V c t 0 o, hB, zeroRow3_apply, Cert.DenseLayer.add_zero_word]
  refine Finset.sum_congr rfl fun k _ => ?_
  rw [read3_0 V c t q k (⟨t.val * 5000 + q.val, by omega⟩ : Fin 100000) rfl, read3_1 V c t k o]

/-- Every row of the array is in the block of the point `row / 5000`. -/
theorem cover3 (i : S100000x128.Idx) :
    ∃ t : Fin cfg3.N, (cfg3.win 3).flush t = true ∧ i ∈ ((cfg3.win 3).blk t).view.set := by
  have hN : cfg3.N = 20 := N_3
  have hi0 : (i 0).val < 100000 := (i 0).isLt
  have hi1 : (i 1).val < 128 := (i 1).isLt
  let t : Fin cfg3.N := ⟨(i 0).val / 5000, by rw [hN]; omega⟩
  obtain ⟨-, -, -, -, -, -, e0, e1⟩ := idx_facts3 t
  have e0' : win3_3.index t (0 : Fin 2) = (i 0).val / 5000 := e0
  refine ⟨t, flush3_3 t, ?_⟩
  show i ∈ ((View.whole main_v52).slice (win3_3.rect t)).set
  rw [View.set_slice_whole, Rect.mem_set_unit]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The array the region leaves: the layer of the arrays it finds. -/
theorem out3 (c : Dev nD) (hB : V c main_v51 = zeroRow3) :
    (dat3 V c).arrAt 3 cfg3.N = layer3 (V c main_v50) (V c main_arg6) :=
  (dat3 V c).arrAt_eq_of_cover 3 _ (fun t _ => flushed3 V c hB t) cover3

end Cert.KernelIdeal.Layers

end
-- ==== Proof.Region4.lean ====
/-
  Kernel launch 4 as the whole array it leaves.

  The rows of `[100000, 128]` are visited in 20 blocks of 5000 rows. At block `t` the body adds the bias row to rows
  `5000 t … 5000 t + 4999`, takes the maximum with zero, and writes the block back to the same rows; entry
  `(5000 t + q, o)` is `max (A (5000 t + q, o) + b (0, o)) 0`, the entry of the host's whole-array form. Every row lies in the
  block `t = row / 5000`, so the blocks fill the array.
-/
import proofs.«113295_j44487271252562_1_alg».proof.Proof.Gen.KernelIdeal.Frame
import proofs.«113295_j44487271252562_1_alg».proof.Proof.Gen.ReferenceIdeal
import proofs.«113295_j44487271252562_1_alg».proof.Proof.LibDenseLayer
import Idealize.ShloMosaic.Lib.Pipeline.Value
import Idealize.ShloMosaic.Lib.ValueIdx
import Idealize.ShloMosaic.Lib.ValueLayout

set_option maxRecDepth 16384

noncomputable section

namespace Cert.KernelIdeal.Layers

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

private theorem hz : (![0, 0] : Fin 2 → Nat) = fun _ => 0 := funext fun a => by fin_cases a <;> rfl

/-- A constant copied to every entry reads that constant. -/
private theorem splat_apply {s : Shape} (h : (⟨0, ![]⟩ : Shape).BroadcastsInDim s ![]) (b : BitVec 32) (j : s.Idx) :
    broadcastInDim s ![] h (constant (F := Ideal) (⟨0, ![]⟩ : Shape) .f32 b) j = Ideal.ofBits .f32 b :=
  (broadcastInDim_apply ![] h (constant (F := Ideal) (⟨0, ![]⟩ : Shape) .f32 b) j (fun a => a.elim0) (fun a => a.elim0)).trans rfl

/-- One entry of the body's result from its loaded blocks. -/
theorem pay4_apply (x0 : Vec Ideal S5000x128 .f32) (x2 : Vec Ideal S1x128 .f32)
    (q : Fin 5000) (o : Fin 128) :
    k4_pay1 x0 x2 (ix2 q o) = max (x0 (ix2 q o) + x2 (ix2 (0 : Fin 1) o)) (Ideal.ofBits .f32 0x00000000#32) := by
  unfold k4_pay1
  simp only [shapeCast_self]
  exact congrArg (fun y : EReal => max y (Ideal.ofBits .f32 0x00000000#32)) (congrArg (x0 (ix2 q o) + ·) (Idealize.ShloMosaic.RowLayout.rowBroadcast_apply (R := 5000) (n := 128) x2 broadcasts_S1x128_S5000x128 q o))

/-- The printed index maps over the grid: the row blocks move with the point, the other operands stay. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row `q` of the block of the first operand at point `t` is row `5000 t + q` of the array. -/
theorem read4_0 (c : Dev nD) (t : Fin cfg4.N) (q : Fin 5000) (k : Fin 128) (i : Fin 100000) (hi : i.val = t.val * 5000 + q.val) :
    iblk4 V c 0 t (ix2 q k) = V c main_v65 (ix2 i k) := by
  obtain ⟨e0, e1, -, -, -, -⟩ := idx_facts4 t
  show V c main_v65 (((cfg4.win 0).blk t).view.emb (ix2 q k)) = V c main_v65 (ix2 i k)
  refine congrArg (V c main_v65) ?_
  funext a; apply Fin.ext
  match a with
  | ⟨0, _⟩ => show win4_0.index t (0 : Fin 2) * 5000 + 1 * q.val = i.val; omega
  | ⟨1, _⟩ => show win4_0.index t (1 : Fin 2) * 128 + 1 * k.val = k.val; omega

/-- The bias row's block is the whole row. -/
theorem read4_1 (c : Dev nD) (t : Fin cfg4.N) (z : Fin 1) (o : Fin 128) :
    iblk4 V c 1 t (ix2 z o) = V c main_v66 (ix2 z o) := by
  obtain ⟨-, -, e0, e1, -, -⟩ := idx_facts4 t
  show V c main_v66 (((cfg4.win 1).blk t).view.emb (ix2 z o)) = V c main_v66 (ix2 z o)
  refine congrArg (V c main_v66) ?_
  funext a; apply Fin.ext
  match a with
  | ⟨0, _⟩ => show win4_1.index t (0 : Fin 2) * 1 + 1 * z.val = z.val; omega
  | ⟨1, _⟩ => show win4_1.index t (1 : Fin 2) * 128 + 1 * o.val = o.val; omega

/-- The layer as the host writes it on whole arrays. -/
abbrev layer4 (X : FVec Ideal Cert.ReferenceIdeal.S100000x128 .f32) (B2 : FVec Ideal Cert.ReferenceIdeal.S1x128 .f32) :
    FVec Ideal Cert.ReferenceIdeal.S100000x128 .f32 :=
  maximumf (addf X (broadcastInDim Cert.ReferenceIdeal.S100000x128 ![0, 1] Cert.ReferenceIdeal.Facts₀.bcast_S1x128_S100000x128_0_1 B2)) (broadcastInDim Cert.ReferenceIdeal.S100000x128 ![] Cert.ReferenceIdeal.Facts₀.bcast_S_S100000x128 (constant (F := Ideal) Cert.ReferenceIdeal.S_ .f32 0x00000000#32))

theorem layer4_apply (X : FVec Ideal Cert.ReferenceIdeal.S100000x128 .f32) (B2 : FVec Ideal Cert.ReferenceIdeal.S1x128 .f32)
    (i : Fin 100000) (o : Fin 128) :
    layer4 X B2 (ix2 i o) = max (X (ix2 i o) + B2 (ix2 (0 : Fin 1) o)) (Ideal.ofBits .f32 0x00000000#32) :=
  by
  have hY : (addf X (broadcastInDim Cert.ReferenceIdeal.S100000x128 ![0, 1] Cert.ReferenceIdeal.Facts₀.bcast_S1x128_S100000x128_0_1 B2)) (ix2 i o) = (X (ix2 i o) + B2 (ix2 (0 : Fin 1) o)) :=
    congrArg (X (ix2 i o) + ·) (Cert.DenseLayer.hostRow_apply (N := 100000) (k := 128) B2 Cert.ReferenceIdeal.Facts₀.bcast_S1x128_S100000x128_0_1 i o)
  have hZ : (broadcastInDim Cert.ReferenceIdeal.S100000x128 ![] Cert.ReferenceIdeal.Facts₀.bcast_S_S100000x128 (constant (F := Ideal) Cert.ReferenceIdeal.S_ .f32 0x00000000#32)) (ix2 i o) = Ideal.ofBits .f32 0x00000000#32 := splat_apply _ _ _
  show max ((addf X (broadcastInDim Cert.ReferenceIdeal.S100000x128 ![0, 1] Cert.ReferenceIdeal.Facts₀.bcast_S1x128_S100000x128_0_1 B2)) (ix2 i o)) ((broadcastInDim Cert.ReferenceIdeal.S100000x128 ![] Cert.ReferenceIdeal.Facts₀.bcast_S_S100000x128 (constant (F := Ideal) Cert.ReferenceIdeal.S_ .f32 0x00000000#32)) (ix2 i o)) = _
  rw [hY, hZ]

/-- What point `t` writes back is block `t` of the layer of the arrays the region finds. -/
theorem flushed4 (c : Dev nD) (t : Fin cfg4.N) :
    (dat4 V c).flushed 2 t = ((cfg4.win 2).blk t).view.read (Elt Ideal)
      (layer4 (V c main_v65) (V c main_v66)) := by
  show (cfg4.win 2).cut (grid4.coords t) ((dat4 V c).after 2 t) = _
  rw [after4_2]
  unfold out4_2
  rw [View.canon_unit_zero hz]
  simp only [View.ld_unit_zero (S := S5000x128) hz, View.ld_unit_zero (S := S1x128) hz]
  funext j
  obtain ⟨q, o, rfl⟩ : ∃ (q : Fin 5000) (o : Fin 128), j = ix2 q o := ⟨j 0, j 1, eq_ix2 j⟩
  have ht : t.val < 20 := by have := t.isLt; have hN : cfg4.N = 20 := N_4; omega
  obtain ⟨-, -, -, -, e0, e1⟩ := idx_facts4 t
  have hemb : ((cfg4.win 2).blk t).view.emb (ix2 q o) = ix2 (⟨t.val * 5000 + q.val, by omega⟩ : Fin 100000) o := by
    funext a; apply Fin.ext
    match a with
    | ⟨0, _⟩ => show win4_2.index t (0 : Fin 2) * 5000 + 1 * q.val = t.val * 5000 + q.val; omega
    | ⟨1, _⟩ => show win4_2.index t (1 : Fin 2) * 128 + 1 * o.val = o.val; omega
  show k4_pay1 (iblk4 V c 0 t) (iblk4 V c 1 t) (ix2 q o)
      = layer4 (V c main_v65) (V c main_v66) (((cfg4.win 2).blk t).view.emb (ix2 q o))
  rw [hemb, layer4_apply]
  refine (pay4_apply (iblk4 V c 0 t) (iblk4 V c 1 t) q o).trans ?_
  rw [read4_0 V c t q o (⟨t.val * 5000 + q.val, by omega⟩ : Fin 100000) rfl, read4_1 V c t 0 o]

/-- Every row of the array is in the block of the point `row / 5000`. -/
theorem cover4 (i : S100000x128.Idx) :
    ∃ t : Fin cfg4.N, (cfg4.win 2).flush t = true ∧ i ∈ ((cfg4.win 2).blk t).view.set := by
  have hN : cfg4.N = 20 := N_4
  have hi0 : (i 0).val < 100000 := (i 0).isLt
  have hi1 : (i 1).val < 128 := (i 1).isLt
  let t : Fin cfg4.N := ⟨(i 0).val / 5000, by rw [hN]; omega⟩
  obtain ⟨-, -, -, -, e0, e1⟩ := idx_facts4 t
  have e0' : win4_2.index t (0 : Fin 2) = (i 0).val / 5000 := e0
  refine ⟨t, flush4_2 t, ?_⟩
  show i ∈ ((View.whole main_v67).slice (win4_2.rect t)).set
  rw [View.set_slice_whole, Rect.mem_set_unit]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The array the region leaves: the layer of the arrays it finds. -/
theorem out4 (c : Dev nD) :
    (dat4 V c).arrAt 2 cfg4.N = layer4 (V c main_v65) (V c main_v66) :=
  (dat4 V c).arrAt_eq_of_cover 2 _ (fun t _ => flushed4 V c t) cover4

end Cert.KernelIdeal.Layers

end
-- ==== Proof.Region5.lean ====
/-
  Kernel launch 5 as the whole array it leaves.

  The rows of the first operand `[100000, 384]` are visited in 20 blocks of 5000 rows. At block `t` the body multiplies
  rows `5000 t … 5000 t + 4999` by the whole `[384, 128]` weight matrix, adds the bias row, and writes the block
  back to the same rows of the result; entry `(5000 t + q, o)` is `(∑ c, X (5000 t + q, c) * W (c, o)) + b (0, o)` with `b` all zeros, so the sum alone:
  the entry of the host's whole-matrix form. Every row lies in the block `t = row / 5000`, so the blocks fill the array.
-/
import proofs.«113295_j44487271252562_1_alg».proof.Proof.Gen.KernelIdeal.Frame
import proofs.«113295_j44487271252562_1_alg».proof.Proof.Gen.ReferenceIdeal
import proofs.«113295_j44487271252562_1_alg».proof.Proof.LibDenseLayer
import Idealize.ShloMosaic.Lib.Pipeline.Value
import Idealize.ShloMosaic.Lib.ValueIdx
import Idealize.ShloMosaic.Lib.ValueLayout

set_option maxRecDepth 16384

noncomputable section

namespace Cert.KernelIdeal.Layers

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

private theorem hz : (![0, 0] : Fin 2 → Nat) = fun _ => 0 := funext fun a => by fin_cases a <;> rfl

/-- A constant copied to every entry reads that constant. -/
private theorem splat_apply {s : Shape} (h : (⟨0, ![]⟩ : Shape).BroadcastsInDim s ![]) (b : BitVec 32) (j : s.Idx) :
    broadcastInDim s ![] h (constant (F := Ideal) (⟨0, ![]⟩ : Shape) .f32 b) j = Ideal.ofBits .f32 b :=
  (broadcastInDim_apply ![] h (constant (F := Ideal) (⟨0, ![]⟩ : Shape) .f32 b) j (fun a => a.elim0) (fun a => a.elim0)).trans rfl

/-- One entry of the body's result from its loaded blocks. -/
theorem pay5_apply (x0 : Vec Ideal S5000x384 .f32) (x1 : Vec Ideal S384x128 .f32) (x2 : Vec Ideal S1x128 .f32)
    (q : Fin 5000) (o : Fin 128) :
    k5_pay1 x0 x1 x2 (ix2 q o) = ((∑ c : Fin 384, x0 (ix2 q c) * x1 (ix2 c o)) + x2 (ix2 (0 : Fin 1) o)) := by
  unfold k5_pay1
  simp only [shapeCast_self]
  exact Cert.DenseLayer.blockAffine_apply (R := 5000) (n := 384) (k := 128)
    dot_S5000x384_S384x128_S5000x128_1_0_0_1_n_n_wf none x0 x1 x2 broadcasts_S1x128_S5000x128 q o

/-- The printed index maps over the grid: the row blocks move with the point, the other operands stay. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Row `q` of the block of the first operand at point `t` is row `5000 t + q` of the array. -/
theorem read5_0 (c : Dev nD) (t : Fin cfg5.N) (q : Fin 5000) (k : Fin 384) (i : Fin 100000) (hi : i.val = t.val * 5000 + q.val) :
    iblk5 V c 0 t (ix2 q k) = V c main_v68 (ix2 i k) := by
  obtain ⟨e0, e1, -, -, -, -, -, -⟩ := idx_facts5 t
  show V c main_v68 (((cfg5.win 0).blk t).view.emb (ix2 q k)) = V c main_v68 (ix2 i k)
  refine congrArg (V c main_v68) ?_
  funext a; apply Fin.ext
  match a with
  | ⟨0, _⟩ => show win5_0.index t (0 : Fin 2) * 5000 + 1 * q.val = i.val; omega
  | ⟨1, _⟩ => show win5_0.index t (1 : Fin 2) * 384 + 1 * k.val = k.val; omega

/-- The weights' block is the whole matrix. -/
theorem read5_1 (c : Dev nD) (t : Fin cfg5.N) (k : Fin 384) (o : Fin 128) :
    iblk5 V c 1 t (ix2 k o) = V c main_arg8 (ix2 k o) := by
  obtain ⟨-, -, e0, e1, -, -, -, -⟩ := idx_facts5 t
  show V c main_arg8 (((cfg5.win 1).blk t).view.emb (ix2 k o)) = V c main_arg8 (ix2 k o)
  refine congrArg (V c main_arg8) ?_
  funext a; apply Fin.ext
  match a with
  | ⟨0, _⟩ => show win5_1.index t (0 : Fin 2) * 384 + 1 * k.val = k.val; omega
  | ⟨1, _⟩ => show win5_1.index t (1 : Fin 2) * 128 + 1 * o.val = o.val; omega

/-- The bias row's block is the whole row. -/
theorem read5_2 (c : Dev nD) (t : Fin cfg5.N) (z : Fin 1) (o : Fin 128) :
    iblk5 V c 2 t (ix2 z o) = V c main_v69 (ix2 z o) := by
  obtain ⟨-, -, -, -, e0, e1, -, -⟩ := idx_facts5 t
  show V c main_v69 (((cfg5.win 2).blk t).view.emb (ix2 z o)) = V c main_v69 (ix2 z o)
  refine congrArg (V c main_v69) ?_
  funext a; apply Fin.ext
  match a with
  | ⟨0, _⟩ => show win5_2.index t (0 : Fin 2) * 1 + 1 * z.val = z.val; omega
  | ⟨1, _⟩ => show win5_2.index t (1 : Fin 2) * 128 + 1 * o.val = o.val; omega

/-- The all-zero bias row: a zero constant copied to a vector and laid out as one row. -/
abbrev zeroRow5 : FVec Ideal S1x128 .f32 := (shapeCast S1x128 (broadcastInDim S128 ![] bcast_S_S128 (constant (F := Ideal) S_ .f32 0x00000000#32)) shapeCasts_S128_S1x128)

theorem zeroRow5_apply (z : Fin 1) (o : Fin 128) : zeroRow5 (ix2 z o) = Ideal.ofBits .f32 0x00000000#32 :=
  (shapeCast_a_1a_apply _ shapeCasts_S128_S1x128 z o).trans
    ((broadcastInDim_apply ![] bcast_S_S128 (constant (F := Ideal) S_ .f32 0x00000000#32) (ix1 o) (fun a => a.elim0) (fun a => a.elim0)).trans rfl)

/-- The layer as the host writes it on whole arrays. -/
abbrev layer5 (X : FVec Ideal Cert.ReferenceIdeal.S100000x384 .f32) (W : FVec Ideal Cert.ReferenceIdeal.S384x128 .f32) :
    FVec Ideal Cert.ReferenceIdeal.S100000x128 .f32 :=
  (Host.dotGeneral Cert.ReferenceIdeal.dot_S100000x384_S384x128_S100000x128_1_0_0_1_n_n none X W)

theorem layer5_apply (X : FVec Ideal Cert.ReferenceIdeal.S100000x384 .f32) (W : FVec Ideal Cert.ReferenceIdeal.S384x128 .f32)
    (i : Fin 100000) (o : Fin 128) :
    layer5 X W (ix2 i o) = (∑ c : Fin 384, X (ix2 i c) * W (ix2 c o)) :=
  Cert.DenseLayer.hostProduct_apply (N := 100000) (n := 384) (k := 128) Cert.ReferenceIdeal.Facts₀.dot_S100000x384_S384x128_S100000x128_1_0_0_1_n_n_wf none X W i o

/-- What point `t` writes back is block `t` of the layer of the arrays the region finds. -/
theorem flushed5 (c : Dev nD) (hB : V c main_v69 = zeroRow5) (t : Fin cfg5.N) :
    (dat5 V c).flushed 3 t = ((cfg5.win 3).blk t).view.read (Elt Ideal)
      (layer5 (V c main_v68) (V c main_arg8)) := by
  show (cfg5.win 3).cut (grid5.coords t) ((dat5 V c).after 3 t) = _
  rw [after5_3]
  unfold out5_3
  rw [View.canon_unit_zero hz]
  simp only [View.ld_unit_zero (S := S5000x384) hz, View.ld_unit_zero (S := S384x128) hz, View.ld_unit_zero (S := S1x128) hz]
  funext j
  obtain ⟨q, o, rfl⟩ : ∃ (q : Fin 5000) (o : Fin 128), j = ix2 q o := ⟨j 0, j 1, eq_ix2 j⟩
  have ht : t.val < 20 := by have := t.isLt; have hN : cfg5.N = 20 := N_5; omega
  obtain ⟨-, -, -, -, -, -, e0, e1⟩ := idx_facts5 t
  have hemb : ((cfg5.win 3).blk t).view.emb (ix2 q o) = ix2 (⟨t.val * 5000 + q.val, by omega⟩ : Fin 100000) o := by
    funext a; apply Fin.ext
    match a with
    | ⟨0, _⟩ => show win5_3.index t (0 : Fin 2) * 5000 + 1 * q.val = t.val * 5000 + q.val; omega
    | ⟨1, _⟩ => show win5_3.index t (1 : Fin 2) * 128 + 1 * o.val = o.val; omega
  show k5_pay1 (iblk5 V c 0 t) (iblk5 V c 1 t) (iblk5 V c 2 t) (ix2 q o)
      = layer5 (V c main_v68) (V c main_arg8) (((cfg5.win 3).blk t).view.emb (ix2 q o))
  rw [hemb, layer5_apply]
  refine (pay5_apply (iblk5 V c 0 t) (iblk5 V c 1 t) (iblk5 V c 2 t) q o).trans ?_
  rw [read5_2 V c t 0 o, hB, zeroRow5_apply, Cert.DenseLayer.add_zero_word]
  refine Finset.sum_congr rfl fun k _ => ?_
  rw [read5_0 V c t q k (⟨t.val * 5000 + q.val, by omega⟩ : Fin 100000) rfl, read5_1 V c t k o]

/-- Every row of the array is in the block of the point `row / 5000`. -/
theorem cover5 (i : S100000x128.Idx) :
    ∃ t : Fin cfg5.N, (cfg5.win 3).flush t = true ∧ i ∈ ((cfg5.win 3).blk t).view.set := by
  have hN : cfg5.N = 20 := N_5
  have hi0 : (i 0).val < 100000 := (i 0).isLt
  have hi1 : (i 1).val < 128 := (i 1).isLt
  let t : Fin cfg5.N := ⟨(i 0).val / 5000, by rw [hN]; omega⟩
  obtain ⟨-, -, -, -, -, -, e0, e1⟩ := idx_facts5 t
  have e0' : win5_3.index t (0 : Fin 2) = (i 0).val / 5000 := e0
  refine ⟨t, flush5_3 t, ?_⟩
  show i ∈ ((View.whole main_v70).slice (win5_3.rect t)).set
  rw [View.set_slice_whole, Rect.mem_set_unit]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- The array the region leaves: the layer of the arrays it finds. -/
theorem out5 (c : Dev nD) (hB : V c main_v69 = zeroRow5) :
    (dat5 V c).arrAt 3 cfg5.N = layer5 (V c main_v68) (V c main_arg8) :=
  (dat5 V c).arrAt_eq_of_cover 3 _ (fun t _ => flushed5 V c hB t) cover5

end Cert.KernelIdeal.Layers

end
-- ==== Proof.Region6.lean ====
/-
  Kernel launch 6 as the whole array it leaves.

  The rows of `[100000, 128]` are visited in 20 blocks of 5000 rows. At block `t` the body adds the bias row to rows
  `5000 t … 5000 t + 4999`, takes the maximum with zero, and writes the block back to the same rows; entry
  `(5000 t + q, o)` is `max (A (5000 t + q, o) + b (0, o)) 0`, the entry of the host's whole-array form. Every row lies in the
  block `t = row / 5000`, so the blocks fill the array.
-/
import proofs.«113295_j44487271252562_1_alg».proof.Proof.Gen.KernelIdeal.Frame
import proofs.«113295_j44487271252562_1_alg».proof.Proof.Gen.ReferenceIdeal
import proofs.«113295_j44487271252562_1_alg».proof.Proof.LibDenseLayer
import Idealize.ShloMosaic.Lib.Pipeline.Value
import Idealize.ShloMosaic.Lib.ValueIdx
import Idealize.ShloMosaic.Lib.ValueLayout

set_option maxRecDepth 16384

noncomputable section

namespace Cert.KernelIdeal.Layers

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

private theorem hz : (![0, 0] : Fin 2 → Nat) = fun _ => 0 := funext fun a => by fin_cases a <;> rfl

/-- A constant copied to every entry reads that constant. -/
private theorem splat_apply {s : Shape} (h : (⟨0, ![]⟩ : Shape).BroadcastsInDim s ![]) (b : BitVec 32) (j : s.Idx) :
    broadcastInDim s ![] h (constant (F := Ideal) (⟨0, ![]⟩ : Shape) .f32 b) j = Ideal.ofBits .f32 b :=
  (broadcastInDim_apply ![] h (constant (F := Ideal) (⟨0, ![]⟩ : Shape) .f32 b) j (fun a => a.elim0) (fun a => a.elim0)).trans rfl

/-- One entry of the body's result from its loaded blocks. -/
theorem pay6_apply (x0 : Vec Ideal S5000x128 .f32) (x2 : Vec Ideal S1x128 .f32)
    (q : Fin 5000) (o : Fin 128) :
    k6_pay1 x0 x2 (ix2 q o) = max (x0 (ix2 q o) + x2 (ix2 (0 : Fin 1) o)) (Ideal.ofBits .f32 0x00000000#32) := by
  unfold k6_pay1
  simp only [shapeCast_self]
  exact congrArg (fun y : EReal => max y (Ideal.ofBits .f32 0x00000000#32)) (congrArg (x0 (ix2 q o) + ·) (Idealize.ShloMosaic.RowLayout.rowBroadcast_apply (R := 5000) (n := 128) x2 broadcasts_S1x128_S5000x128 q o))

/-- The printed index maps over the grid: the row blocks move with the point, the other operands stay. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Row `q` of the block of the first operand at point `t` is row `5000 t + q` of the array. -/
theorem read6_0 (c : Dev nD) (t : Fin cfg6.N) (q : Fin 5000) (k : Fin 128) (i : Fin 100000) (hi : i.val = t.val * 5000 + q.val) :
    iblk6 V c 0 t (ix2 q k) = V c main_v83 (ix2 i k) := by
  obtain ⟨e0, e1, -, -, -, -⟩ := idx_facts6 t
  show V c main_v83 (((cfg6.win 0).blk t).view.emb (ix2 q k)) = V c main_v83 (ix2 i k)
  refine congrArg (V c main_v83) ?_
  funext a; apply Fin.ext
  match a with
  | ⟨0, _⟩ => show win6_0.index t (0 : Fin 2) * 5000 + 1 * q.val = i.val; omega
  | ⟨1, _⟩ => show win6_0.index t (1 : Fin 2) * 128 + 1 * k.val = k.val; omega

/-- The bias row's block is the whole row. -/
theorem read6_1 (c : Dev nD) (t : Fin cfg6.N) (z : Fin 1) (o : Fin 128) :
    iblk6 V c 1 t (ix2 z o) = V c main_v84 (ix2 z o) := by
  obtain ⟨-, -, e0, e1, -, -⟩ := idx_facts6 t
  show V c main_v84 (((cfg6.win 1).blk t).view.emb (ix2 z o)) = V c main_v84 (ix2 z o)
  refine congrArg (V c main_v84) ?_
  funext a; apply Fin.ext
  match a with
  | ⟨0, _⟩ => show win6_1.index t (0 : Fin 2) * 1 + 1 * z.val = z.val; omega
  | ⟨1, _⟩ => show win6_1.index t (1 : Fin 2) * 128 + 1 * o.val = o.val; omega

/-- The layer as the host writes it on whole arrays. -/
abbrev layer6 (X : FVec Ideal Cert.ReferenceIdeal.S100000x128 .f32) (B2 : FVec Ideal Cert.ReferenceIdeal.S1x128 .f32) :
    FVec Ideal Cert.ReferenceIdeal.S100000x128 .f32 :=
  maximumf (addf X (broadcastInDim Cert.ReferenceIdeal.S100000x128 ![0, 1] Cert.ReferenceIdeal.Facts₀.bcast_S1x128_S100000x128_0_1 B2)) (broadcastInDim Cert.ReferenceIdeal.S100000x128 ![] Cert.ReferenceIdeal.Facts₀.bcast_S_S100000x128 (constant (F := Ideal) Cert.ReferenceIdeal.S_ .f32 0x00000000#32))

theorem layer6_apply (X : FVec Ideal Cert.ReferenceIdeal.S100000x128 .f32) (B2 : FVec Ideal Cert.ReferenceIdeal.S1x128 .f32)
    (i : Fin 100000) (o : Fin 128) :
    layer6 X B2 (ix2 i o) = max (X (ix2 i o) + B2 (ix2 (0 : Fin 1) o)) (Ideal.ofBits .f32 0x00000000#32) :=
  by
  have hY : (addf X (broadcastInDim Cert.ReferenceIdeal.S100000x128 ![0, 1] Cert.ReferenceIdeal.Facts₀.bcast_S1x128_S100000x128_0_1 B2)) (ix2 i o) = (X (ix2 i o) + B2 (ix2 (0 : Fin 1) o)) :=
    congrArg (X (ix2 i o) + ·) (Cert.DenseLayer.hostRow_apply (N := 100000) (k := 128) B2 Cert.ReferenceIdeal.Facts₀.bcast_S1x128_S100000x128_0_1 i o)
  have hZ : (broadcastInDim Cert.ReferenceIdeal.S100000x128 ![] Cert.ReferenceIdeal.Facts₀.bcast_S_S100000x128 (constant (F := Ideal) Cert.ReferenceIdeal.S_ .f32 0x00000000#32)) (ix2 i o) = Ideal.ofBits .f32 0x00000000#32 := splat_apply _ _ _
  show max ((addf X (broadcastInDim Cert.ReferenceIdeal.S100000x128 ![0, 1] Cert.ReferenceIdeal.Facts₀.bcast_S1x128_S100000x128_0_1 B2)) (ix2 i o)) ((broadcastInDim Cert.ReferenceIdeal.S100000x128 ![] Cert.ReferenceIdeal.Facts₀.bcast_S_S100000x128 (constant (F := Ideal) Cert.ReferenceIdeal.S_ .f32 0x00000000#32)) (ix2 i o)) = _
  rw [hY, hZ]

/-- What point `t` writes back is block `t` of the layer of the arrays the region finds. -/
theorem flushed6 (c : Dev nD) (t : Fin cfg6.N) :
    (dat6 V c).flushed 2 t = ((cfg6.win 2).blk t).view.read (Elt Ideal)
      (layer6 (V c main_v83) (V c main_v84)) := by
  show (cfg6.win 2).cut (grid6.coords t) ((dat6 V c).after 2 t) = _
  rw [after6_2]
  unfold out6_2
  rw [View.canon_unit_zero hz]
  simp only [View.ld_unit_zero (S := S5000x128) hz, View.ld_unit_zero (S := S1x128) hz]
  funext j
  obtain ⟨q, o, rfl⟩ : ∃ (q : Fin 5000) (o : Fin 128), j = ix2 q o := ⟨j 0, j 1, eq_ix2 j⟩
  have ht : t.val < 20 := by have := t.isLt; have hN : cfg6.N = 20 := N_6; omega
  obtain ⟨-, -, -, -, e0, e1⟩ := idx_facts6 t
  have hemb : ((cfg6.win 2).blk t).view.emb (ix2 q o) = ix2 (⟨t.val * 5000 + q.val, by omega⟩ : Fin 100000) o := by
    funext a; apply Fin.ext
    match a with
    | ⟨0, _⟩ => show win6_2.index t (0 : Fin 2) * 5000 + 1 * q.val = t.val * 5000 + q.val; omega
    | ⟨1, _⟩ => show win6_2.index t (1 : Fin 2) * 128 + 1 * o.val = o.val; omega
  show k6_pay1 (iblk6 V c 0 t) (iblk6 V c 1 t) (ix2 q o)
      = layer6 (V c main_v83) (V c main_v84) (((cfg6.win 2).blk t).view.emb (ix2 q o))
  rw [hemb, layer6_apply]
  refine (pay6_apply (iblk6 V c 0 t) (iblk6 V c 1 t) q o).trans ?_
  rw [read6_0 V c t q o (⟨t.val * 5000 + q.val, by omega⟩ : Fin 100000) rfl, read6_1 V c t 0 o]

/-- Every row of the array is in the block of the point `row / 5000`. -/
theorem cover6 (i : S100000x128.Idx) :
    ∃ t : Fin cfg6.N, (cfg6.win 2).flush t = true ∧ i ∈ ((cfg6.win 2).blk t).view.set := by
  have hN : cfg6.N = 20 := N_6
  have hi0 : (i 0).val < 100000 := (i 0).isLt
  have hi1 : (i 1).val < 128 := (i 1).isLt
  let t : Fin cfg6.N := ⟨(i 0).val / 5000, by rw [hN]; omega⟩
  obtain ⟨-, -, -, -, e0, e1⟩ := idx_facts6 t
  have e0' : win6_2.index t (0 : Fin 2) = (i 0).val / 5000 := e0
  refine ⟨t, flush6_2 t, ?_⟩
  show i ∈ ((View.whole main_v85).slice (win6_2.rect t)).set
  rw [View.set_slice_whole, Rect.mem_set_unit]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- The array the region leaves: the layer of the arrays it finds. -/
theorem out6 (c : Dev nD) :
    (dat6 V c).arrAt 2 cfg6.N = layer6 (V c main_v83) (V c main_v84) :=
  (dat6 V c).arrAt_eq_of_cover 2 _ (fun t _ => flushed6 V c t) cover6

end Cert.KernelIdeal.Layers

end
-- ==== Proof.Region7.lean ====
/-
  Kernel launch 7 as the whole array it leaves.

  The rows of the first operand `[100000, 512]` are visited in 20 blocks of 5000 rows. At block `t` the body multiplies
  rows `5000 t … 5000 t + 4999` by the whole `[512, 128]` weight matrix, adds the bias row, and writes the block
  back to the same rows of the result; entry `(5000 t + q, o)` is `(∑ c, X (5000 t + q, c) * W (c, o)) + b (0, o)` with `b` all zeros, so the sum alone:
  the entry of the host's whole-matrix form. Every row lies in the block `t = row / 5000`, so the blocks fill the array.
-/
import proofs.«113295_j44487271252562_1_alg».proof.Proof.Gen.KernelIdeal.Frame
import proofs.«113295_j44487271252562_1_alg».proof.Proof.Gen.ReferenceIdeal
import proofs.«113295_j44487271252562_1_alg».proof.Proof.LibDenseLayer
import Idealize.ShloMosaic.Lib.Pipeline.Value
import Idealize.ShloMosaic.Lib.ValueIdx
import Idealize.ShloMosaic.Lib.ValueLayout

set_option maxRecDepth 16384

noncomputable section

namespace Cert.KernelIdeal.Layers

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

private theorem hz : (![0, 0] : Fin 2 → Nat) = fun _ => 0 := funext fun a => by fin_cases a <;> rfl

/-- A constant copied to every entry reads that constant. -/
private theorem splat_apply {s : Shape} (h : (⟨0, ![]⟩ : Shape).BroadcastsInDim s ![]) (b : BitVec 32) (j : s.Idx) :
    broadcastInDim s ![] h (constant (F := Ideal) (⟨0, ![]⟩ : Shape) .f32 b) j = Ideal.ofBits .f32 b :=
  (broadcastInDim_apply ![] h (constant (F := Ideal) (⟨0, ![]⟩ : Shape) .f32 b) j (fun a => a.elim0) (fun a => a.elim0)).trans rfl

/-- One entry of the body's result from its loaded blocks. -/
theorem pay7_apply (x0 : Vec Ideal S5000x512 .f32) (x1 : Vec Ideal S512x128 .f32) (x2 : Vec Ideal S1x128 .f32)
    (q : Fin 5000) (o : Fin 128) :
    k7_pay1 x0 x1 x2 (ix2 q o) = ((∑ c : Fin 512, x0 (ix2 q c) * x1 (ix2 c o)) + x2 (ix2 (0 : Fin 1) o)) := by
  unfold k7_pay1
  simp only [shapeCast_self]
  exact Cert.DenseLayer.blockAffine_apply (R := 5000) (n := 512) (k := 128)
    dot_S5000x512_S512x128_S5000x128_1_0_0_1_n_n_wf none x0 x1 x2 broadcasts_S1x128_S5000x128 q o

/-- The printed index maps over the grid: the row blocks move with the point, the other operands stay. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- Row `q` of the block of the first operand at point `t` is row `5000 t + q` of the array. -/
theorem read7_0 (c : Dev nD) (t : Fin cfg7.N) (q : Fin 5000) (k : Fin 512) (i : Fin 100000) (hi : i.val = t.val * 5000 + q.val) :
    iblk7 V c 0 t (ix2 q k) = V c main_v86 (ix2 i k) := by
  obtain ⟨e0, e1, -, -, -, -, -, -⟩ := idx_facts7 t
  show V c main_v86 (((cfg7.win 0).blk t).view.emb (ix2 q k)) = V c main_v86 (ix2 i k)
  refine congrArg (V c main_v86) ?_
  funext a; apply Fin.ext
  match a with
  | ⟨0, _⟩ => show win7_0.index t (0 : Fin 2) * 5000 + 1 * q.val = i.val; omega
  | ⟨1, _⟩ => show win7_0.index t (1 : Fin 2) * 512 + 1 * k.val = k.val; omega

/-- The weights' block is the whole matrix. -/
theorem read7_1 (c : Dev nD) (t : Fin cfg7.N) (k : Fin 512) (o : Fin 128) :
    iblk7 V c 1 t (ix2 k o) = V c main_arg10 (ix2 k o) := by
  obtain ⟨-, -, e0, e1, -, -, -, -⟩ := idx_facts7 t
  show V c main_arg10 (((cfg7.win 1).blk t).view.emb (ix2 k o)) = V c main_arg10 (ix2 k o)
  refine congrArg (V c main_arg10) ?_
  funext a; apply Fin.ext
  match a with
  | ⟨0, _⟩ => show win7_1.index t (0 : Fin 2) * 512 + 1 * k.val = k.val; omega
  | ⟨1, _⟩ => show win7_1.index t (1 : Fin 2) * 128 + 1 * o.val = o.val; omega

/-- The bias row's block is the whole row. -/
theorem read7_2 (c : Dev nD) (t : Fin cfg7.N) (z : Fin 1) (o : Fin 128) :
    iblk7 V c 2 t (ix2 z o) = V c main_v87 (ix2 z o) := by
  obtain ⟨-, -, -, -, e0, e1, -, -⟩ := idx_facts7 t
  show V c main_v87 (((cfg7.win 2).blk t).view.emb (ix2 z o)) = V c main_v87 (ix2 z o)
  refine congrArg (V c main_v87) ?_
  funext a; apply Fin.ext
  match a with
  | ⟨0, _⟩ => show win7_2.index t (0 : Fin 2) * 1 + 1 * z.val = z.val; omega
  | ⟨1, _⟩ => show win7_2.index t (1 : Fin 2) * 128 + 1 * o.val = o.val; omega

/-- The all-zero bias row: a zero constant copied to a vector and laid out as one row. -/
abbrev zeroRow7 : FVec Ideal S1x128 .f32 := (shapeCast S1x128 (broadcastInDim S128 ![] bcast_S_S128 (constant (F := Ideal) S_ .f32 0x00000000#32)) shapeCasts_S128_S1x128)

theorem zeroRow7_apply (z : Fin 1) (o : Fin 128) : zeroRow7 (ix2 z o) = Ideal.ofBits .f32 0x00000000#32 :=
  (shapeCast_a_1a_apply _ shapeCasts_S128_S1x128 z o).trans
    ((broadcastInDim_apply ![] bcast_S_S128 (constant (F := Ideal) S_ .f32 0x00000000#32) (ix1 o) (fun a => a.elim0) (fun a => a.elim0)).trans rfl)

/-- The layer as the host writes it on whole arrays. -/
abbrev layer7 (X : FVec Ideal Cert.ReferenceIdeal.S100000x512 .f32) (W : FVec Ideal Cert.ReferenceIdeal.S512x128 .f32) :
    FVec Ideal Cert.ReferenceIdeal.S100000x128 .f32 :=
  (Host.dotGeneral Cert.ReferenceIdeal.dot_S100000x512_S512x128_S100000x128_1_0_0_1_n_n none X W)

theorem layer7_apply (X : FVec Ideal Cert.ReferenceIdeal.S100000x512 .f32) (W : FVec Ideal Cert.ReferenceIdeal.S512x128 .f32)
    (i : Fin 100000) (o : Fin 128) :
    layer7 X W (ix2 i o) = (∑ c : Fin 512, X (ix2 i c) * W (ix2 c o)) :=
  Cert.DenseLayer.hostProduct_apply (N := 100000) (n := 512) (k := 128) Cert.ReferenceIdeal.Facts₀.dot_S100000x512_S512x128_S100000x128_1_0_0_1_n_n_wf none X W i o

/-- What point `t` writes back is block `t` of the layer of the arrays the region finds. -/
theorem flushed7 (c : Dev nD) (hB : V c main_v87 = zeroRow7) (t : Fin cfg7.N) :
    (dat7 V c).flushed 3 t = ((cfg7.win 3).blk t).view.read (Elt Ideal)
      (layer7 (V c main_v86) (V c main_arg10)) := by
  show (cfg7.win 3).cut (grid7.coords t) ((dat7 V c).after 3 t) = _
  rw [after7_3]
  unfold out7_3
  rw [View.canon_unit_zero hz]
  simp only [View.ld_unit_zero (S := S5000x512) hz, View.ld_unit_zero (S := S512x128) hz, View.ld_unit_zero (S := S1x128) hz]
  funext j
  obtain ⟨q, o, rfl⟩ : ∃ (q : Fin 5000) (o : Fin 128), j = ix2 q o := ⟨j 0, j 1, eq_ix2 j⟩
  have ht : t.val < 20 := by have := t.isLt; have hN : cfg7.N = 20 := N_7; omega
  obtain ⟨-, -, -, -, -, -, e0, e1⟩ := idx_facts7 t
  have hemb : ((cfg7.win 3).blk t).view.emb (ix2 q o) = ix2 (⟨t.val * 5000 + q.val, by omega⟩ : Fin 100000) o := by
    funext a; apply Fin.ext
    match a with
    | ⟨0, _⟩ => show win7_3.index t (0 : Fin 2) * 5000 + 1 * q.val = t.val * 5000 + q.val; omega
    | ⟨1, _⟩ => show win7_3.index t (1 : Fin 2) * 128 + 1 * o.val = o.val; omega
  show k7_pay1 (iblk7 V c 0 t) (iblk7 V c 1 t) (iblk7 V c 2 t) (ix2 q o)
      = layer7 (V c main_v86) (V c main_arg10) (((cfg7.win 3).blk t).view.emb (ix2 q o))
  rw [hemb, layer7_apply]
  refine (pay7_apply (iblk7 V c 0 t) (iblk7 V c 1 t) (iblk7 V c 2 t) q o).trans ?_
  rw [read7_2 V c t 0 o, hB, zeroRow7_apply, Cert.DenseLayer.add_zero_word]
  refine Finset.sum_congr rfl fun k _ => ?_
  rw [read7_0 V c t q k (⟨t.val * 5000 + q.val, by omega⟩ : Fin 100000) rfl, read7_1 V c t k o]

/-- Every row of the array is in the block of the point `row / 5000`. -/
theorem cover7 (i : S100000x128.Idx) :
    ∃ t : Fin cfg7.N, (cfg7.win 3).flush t = true ∧ i ∈ ((cfg7.win 3).blk t).view.set := by
  have hN : cfg7.N = 20 := N_7
  have hi0 : (i 0).val < 100000 := (i 0).isLt
  have hi1 : (i 1).val < 128 := (i 1).isLt
  let t : Fin cfg7.N := ⟨(i 0).val / 5000, by rw [hN]; omega⟩
  obtain ⟨-, -, -, -, -, -, e0, e1⟩ := idx_facts7 t
  have e0' : win7_3.index t (0 : Fin 2) = (i 0).val / 5000 := e0
  refine ⟨t, flush7_3 t, ?_⟩
  show i ∈ ((View.whole main_v88).slice (win7_3.rect t)).set
  rw [View.set_slice_whole, Rect.mem_set_unit]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 128 ≤ (i 1).val ∧ (i 1).val < win7_3.index t (1 : Fin 2) * 128 + 128; omega

/-- The array the region leaves: the layer of the arrays it finds. -/
theorem out7 (c : Dev nD) (hB : V c main_v87 = zeroRow7) :
    (dat7 V c).arrAt 3 cfg7.N = layer7 (V c main_v86) (V c main_arg10) :=
  (dat7 V c).arrAt_eq_of_cover 3 _ (fun t _ => flushed7 V c hB t) cover7

end Cert.KernelIdeal.Layers

end
-- ==== Proof.Region8.lean ====
/-
  Kernel launch 8 as the whole array it leaves.

  The rows of `[100000, 128]` are visited in 20 blocks of 5000 rows. At block `t` the body adds the bias row to rows
  `5000 t … 5000 t + 4999`, takes the maximum with zero, and writes the block back to the same rows; entry
  `(5000 t + q, o)` is `max (A (5000 t + q, o) + b (0, o)) 0`, the entry of the host's whole-array form. Every row lies in the
  block `t = row / 5000`, so the blocks fill the array.
-/
import proofs.«113295_j44487271252562_1_alg».proof.Proof.Gen.KernelIdeal.Frame
import proofs.«113295_j44487271252562_1_alg».proof.Proof.Gen.ReferenceIdeal
import proofs.«113295_j44487271252562_1_alg».proof.Proof.LibDenseLayer
import Idealize.ShloMosaic.Lib.Pipeline.Value
import Idealize.ShloMosaic.Lib.ValueIdx
import Idealize.ShloMosaic.Lib.ValueLayout

set_option maxRecDepth 16384

noncomputable section

namespace Cert.KernelIdeal.Layers

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

private theorem hz : (![0, 0] : Fin 2 → Nat) = fun _ => 0 := funext fun a => by fin_cases a <;> rfl

/-- A constant copied to every entry reads that constant. -/
private theorem splat_apply {s : Shape} (h : (⟨0, ![]⟩ : Shape).BroadcastsInDim s ![]) (b : BitVec 32) (j : s.Idx) :
    broadcastInDim s ![] h (constant (F := Ideal) (⟨0, ![]⟩ : Shape) .f32 b) j = Ideal.ofBits .f32 b :=
  (broadcastInDim_apply ![] h (constant (F := Ideal) (⟨0, ![]⟩ : Shape) .f32 b) j (fun a => a.elim0) (fun a => a.elim0)).trans rfl

/-- One entry of the body's result from its loaded blocks. -/
theorem pay8_apply (x0 : Vec Ideal S5000x128 .f32) (x2 : Vec Ideal S1x128 .f32)
    (q : Fin 5000) (o : Fin 128) :
    k8_pay1 x0 x2 (ix2 q o) = max (x0 (ix2 q o) + x2 (ix2 (0 : Fin 1) o)) (Ideal.ofBits .f32 0x00000000#32) := by
  unfold k8_pay1
  simp only [shapeCast_self]
  exact congrArg (fun y : EReal => max y (Ideal.ofBits .f32 0x00000000#32)) (congrArg (x0 (ix2 q o) + ·) (Idealize.ShloMosaic.RowLayout.rowBroadcast_apply (R := 5000) (n := 128) x2 broadcasts_S1x128_S5000x128 q o))

/-- The printed index maps over the grid: the row blocks move with the point, the other operands stay. -/
theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- Row `q` of the block of the first operand at point `t` is row `5000 t + q` of the array. -/
theorem read8_0 (c : Dev nD) (t : Fin cfg8.N) (q : Fin 5000) (k : Fin 128) (i : Fin 100000) (hi : i.val = t.val * 5000 + q.val) :
    iblk8 V c 0 t (ix2 q k) = V c main_v101 (ix2 i k) := by
  obtain ⟨e0, e1, -, -, -, -⟩ := idx_facts8 t
  show V c main_v101 (((cfg8.win 0).blk t).view.emb (ix2 q k)) = V c main_v101 (ix2 i k)
  refine congrArg (V c main_v101) ?_
  funext a; apply Fin.ext
  match a with
  | ⟨0, _⟩ => show win8_0.index t (0 : Fin 2) * 5000 + 1 * q.val = i.val; omega
  | ⟨1, _⟩ => show win8_0.index t (1 : Fin 2) * 128 + 1 * k.val = k.val; omega

/-- The bias row's block is the whole row. -/
theorem read8_1 (c : Dev nD) (t : Fin cfg8.N) (z : Fin 1) (o : Fin 128) :
    iblk8 V c 1 t (ix2 z o) = V c main_v102 (ix2 z o) := by
  obtain ⟨-, -, e0, e1, -, -⟩ := idx_facts8 t
  show V c main_v102 (((cfg8.win 1).blk t).view.emb (ix2 z o)) = V c main_v102 (ix2 z o)
  refine congrArg (V c main_v102) ?_
  funext a; apply Fin.ext
  match a with
  | ⟨0, _⟩ => show win8_1.index t (0 : Fin 2) * 1 + 1 * z.val = z.val; omega
  | ⟨1, _⟩ => show win8_1.index t (1 : Fin 2) * 128 + 1 * o.val = o.val; omega

/-- The layer as the host writes it on whole arrays. -/
abbrev layer8 (X : FVec Ideal Cert.ReferenceIdeal.S100000x128 .f32) (B2 : FVec Ideal Cert.ReferenceIdeal.S1x128 .f32) :
    FVec Ideal Cert.ReferenceIdeal.S100000x128 .f32 :=
  maximumf (addf X (broadcastInDim Cert.ReferenceIdeal.S100000x128 ![0, 1] Cert.ReferenceIdeal.Facts₀.bcast_S1x128_S100000x128_0_1 B2)) (broadcastInDim Cert.ReferenceIdeal.S100000x128 ![] Cert.ReferenceIdeal.Facts₀.bcast_S_S100000x128 (constant (F := Ideal) Cert.ReferenceIdeal.S_ .f32 0x00000000#32))

theorem layer8_apply (X : FVec Ideal Cert.ReferenceIdeal.S100000x128 .f32) (B2 : FVec Ideal Cert.ReferenceIdeal.S1x128 .f32)
    (i : Fin 100000) (o : Fin 128) :
    layer8 X B2 (ix2 i o) = max (X (ix2 i o) + B2 (ix2 (0 : Fin 1) o)) (Ideal.ofBits .f32 0x00000000#32) :=
  by
  have hY : (addf X (broadcastInDim Cert.ReferenceIdeal.S100000x128 ![0, 1] Cert.ReferenceIdeal.Facts₀.bcast_S1x128_S100000x128_0_1 B2)) (ix2 i o) = (X (ix2 i o) + B2 (ix2 (0 : Fin 1) o)) :=
    congrArg (X (ix2 i o) + ·) (Cert.DenseLayer.hostRow_apply (N := 100000) (k := 128) B2 Cert.ReferenceIdeal.Facts₀.bcast_S1x128_S100000x128_0_1 i o)
  have hZ : (broadcastInDim Cert.ReferenceIdeal.S100000x128 ![] Cert.ReferenceIdeal.Facts₀.bcast_S_S100000x128 (constant (F := Ideal) Cert.ReferenceIdeal.S_ .f32 0x00000000#32)) (ix2 i o) = Ideal.ofBits .f32 0x00000000#32 := splat_apply _ _ _
  show max ((addf X (broadcastInDim Cert.ReferenceIdeal.S100000x128 ![0, 1] Cert.ReferenceIdeal.Facts₀.bcast_S1x128_S100000x128_0_1 B2)) (ix2 i o)) ((broadcastInDim Cert.ReferenceIdeal.S100000x128 ![] Cert.ReferenceIdeal.Facts₀.bcast_S_S100000x128 (constant (F := Ideal) Cert.ReferenceIdeal.S_ .f32 0x00000000#32)) (ix2 i o)) = _
  rw [hY, hZ]

/-- What point `t` writes back is block `t` of the layer of the arrays the region finds. -/
theorem flushed8 (c : Dev nD) (t : Fin cfg8.N) :
    (dat8 V c).flushed 2 t = ((cfg8.win 2).blk t).view.read (Elt Ideal)
      (layer8 (V c main_v101) (V c main_v102)) := by
  show (cfg8.win 2).cut (grid8.coords t) ((dat8 V c).after 2 t) = _
  rw [after8_2]
  unfold out8_2
  rw [View.canon_unit_zero hz]
  simp only [View.ld_unit_zero (S := S5000x128) hz, View.ld_unit_zero (S := S1x128) hz]
  funext j
  obtain ⟨q, o, rfl⟩ : ∃ (q : Fin 5000) (o : Fin 128), j = ix2 q o := ⟨j 0, j 1, eq_ix2 j⟩
  have ht : t.val < 20 := by have := t.isLt; have hN : cfg8.N = 20 := N_8; omega
  obtain ⟨-, -, -, -, e0, e1⟩ := idx_facts8 t
  have hemb : ((cfg8.win 2).blk t).view.emb (ix2 q o) = ix2 (⟨t.val * 5000 + q.val, by omega⟩ : Fin 100000) o := by
    funext a; apply Fin.ext
    match a with
    | ⟨0, _⟩ => show win8_2.index t (0 : Fin 2) * 5000 + 1 * q.val = t.val * 5000 + q.val; omega
    | ⟨1, _⟩ => show win8_2.index t (1 : Fin 2) * 128 + 1 * o.val = o.val; omega
  show k8_pay1 (iblk8 V c 0 t) (iblk8 V c 1 t) (ix2 q o)
      = layer8 (V c main_v101) (V c main_v102) (((cfg8.win 2).blk t).view.emb (ix2 q o))
  rw [hemb, layer8_apply]
  refine (pay8_apply (iblk8 V c 0 t) (iblk8 V c 1 t) q o).trans ?_
  rw [read8_0 V c t q o (⟨t.val * 5000 + q.val, by omega⟩ : Fin 100000) rfl, read8_1 V c t 0 o]

/-- Every row of the array is in the block of the point `row / 5000`. -/
theorem cover8 (i : S100000x128.Idx) :
    ∃ t : Fin cfg8.N, (cfg8.win 2).flush t = true ∧ i ∈ ((cfg8.win 2).blk t).view.set := by
  have hN : cfg8.N = 20 := N_8
  have hi0 : (i 0).val < 100000 := (i 0).isLt
  have hi1 : (i 1).val < 128 := (i 1).isLt
  let t : Fin cfg8.N := ⟨(i 0).val / 5000, by rw [hN]; omega⟩
  obtain ⟨-, -, -, -, e0, e1⟩ := idx_facts8 t
  have e0' : win8_2.index t (0 : Fin 2) = (i 0).val / 5000 := e0
  refine ⟨t, flush8_2 t, ?_⟩
  show i ∈ ((View.whole main_v103).slice (win8_2.rect t)).set
  rw [View.set_slice_whole, Rect.mem_set_unit]
  intro a
  match a with
  | ⟨0, _⟩ => show win8_2.index t (0 : Fin 2) * 5000 ≤ (i 0).val ∧ (i 0).val < win8_2.index t (0 : Fin 2) * 5000 + 5000; omega
  | ⟨1, _⟩ => show win8_2.index t (1 : Fin 2) * 128 ≤ (i 1).val ∧ (i 1).val < win8_2.index t (1 : Fin 2) * 128 + 128; omega

/-- The array the region leaves: the layer of the arrays it finds. -/
theorem out8 (c : Dev nD) :
    (dat8 V c).arrAt 2 cfg8.N = layer8 (V c main_v101) (V c main_v102) :=
  (dat8 V c).arrAt_eq_of_cover 2 _ (fun t _ => flushed8 V c t) cover8

end Cert.KernelIdeal.Layers

end
-- ==== Proof.Region9.lean ====
/-
  Kernel launch 9 as the whole array it leaves.

  The rows of the first operand `[100000, 640]` are visited in 20 blocks of 5000 rows. At block `t` the body multiplies
  rows `5000 t … 5000 t + 4999` by the whole `[640, 128]` weight matrix, adds the bias row and applies the activation, and writes the block
  back to the same rows of the result; entry `(5000 t + q, o)` is `(∑ c, X (5000 t + q, c) * W (c, o)) + b (0, o)`, then itself where positive and a tenth of it elsewhere:
  the entry of the host's whole-matrix form. Every row lies in the block `t = row / 5000`, so the blocks fill the array.
-/
import proofs.«113295_j44487271252562_1_alg».proof.Proof.Gen.KernelIdeal.Frame
import proofs.«113295_j44487271252562_1_alg».proof.Proof.Gen.ReferenceIdeal
import proofs.«113295_j44487271252562_1_alg».proof.Proof.LibDenseLayer
import Idealize.ShloMosaic.Lib.Pipeline.Value
import Idealize.ShloMosaic.Lib.ValueIdx
import Idealize.ShloMosaic.Lib.ValueLayout

set_option maxRecDepth 16384

noncomputable section

namespace Cert.KernelIdeal.Layers

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

private theorem hz : (![0, 0] : Fin 2 → Nat) = fun _ => 0 := funext fun a => by fin_cases a <;> rfl

/-- A constant copied to every entry reads that constant. -/
private theorem splat_apply {s : Shape} (h : (⟨0, ![]⟩ : Shape).BroadcastsInDim s ![]) (b : BitVec 32) (j : s.Idx) :
    broadcastInDim s ![] h (constant (F := Ideal) (⟨0, ![]⟩ : Shape) .f32 b) j = Ideal.ofBits .f32 b :=
  (broadcastInDim_apply ![] h (constant (F := Ideal) (⟨0, ![]⟩ : Shape) .f32 b) j (fun a => a.elim0) (fun a => a.elim0)).trans rfl

/-- One entry of the body's result from its loaded blocks. -/
theorem pay9_apply (x0 : Vec Ideal S5000x640 .f32) (x1 : Vec Ideal S640x128 .f32) (x2 : Vec Ideal S1x128 .f32)
    (q : Fin 5000) (o : Fin 128) :
    k9_pay1 x0 x1 x2 (ix2 q o) = Scalar.select (FloatOps.cmpf (F := Ideal) .ogt ((∑ c : Fin 640, x0 (ix2 q c) * x1 (ix2 c o)) + x2 (ix2 (0 : Fin 1) o)) (Ideal.ofBits .f32 0x00000000#32)) ((∑ c : Fin 640, x0 (ix2 q c) * x1 (ix2 c o)) + x2 (ix2 (0 : Fin 1) o)) (FloatOps.mulf (F := Ideal) (Ideal.ofBits .f32 0x3DCCCCCD#32) ((∑ c : Fin 640, x0 (ix2 q c) * x1 (ix2 c o)) + x2 (ix2 (0 : Fin 1) o))) := by
  unfold k9_pay1
  simp only [shapeCast_self]
  exact congrArg (fun y : EReal => Scalar.select (FloatOps.cmpf (F := Ideal) .ogt y (Ideal.ofBits .f32 0x00000000#32)) y (FloatOps.mulf (F := Ideal) (Ideal.ofBits .f32 0x3DCCCCCD#32) y)) (Cert.DenseLayer.blockAffine_apply (R := 5000) (n := 640) (k := 128)
    dot_S5000x640_S640x128_S5000x128_1_0_0_1_n_n_wf none x0 x1 x2 broadcasts_S1x128_S5000x128 q o)

/-- The printed index maps over the grid: the row blocks move with the point, the other operands stay. -/
theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- Row `q` of the block of the first operand at point `t` is row `5000 t + q` of the array. -/
theorem read9_0 (c : Dev nD) (t : Fin cfg9.N) (q : Fin 5000) (k : Fin 640) (i : Fin 100000) (hi : i.val = t.val * 5000 + q.val) :
    iblk9 V c 0 t (ix2 q k) = V c main_v104 (ix2 i k) := by
  obtain ⟨e0, e1, -, -, -, -, -, -⟩ := idx_facts9 t
  show V c main_v104 (((cfg9.win 0).blk t).view.emb (ix2 q k)) = V c main_v104 (ix2 i k)
  refine congrArg (V c main_v104) ?_
  funext a; apply Fin.ext
  match a with
  | ⟨0, _⟩ => show win9_0.index t (0 : Fin 2) * 5000 + 1 * q.val = i.val; omega
  | ⟨1, _⟩ => show win9_0.index t (1 : Fin 2) * 640 + 1 * k.val = k.val; omega

/-- The weights' block is the whole matrix. -/
theorem read9_1 (c : Dev nD) (t : Fin cfg9.N) (k : Fin 640) (o : Fin 128) :
    iblk9 V c 1 t (ix2 k o) = V c main_arg12 (ix2 k o) := by
  obtain ⟨-, -, e0, e1, -, -, -, -⟩ := idx_facts9 t
  show V c main_arg12 (((cfg9.win 1).blk t).view.emb (ix2 k o)) = V c main_arg12 (ix2 k o)
  refine congrArg (V c main_arg12) ?_
  funext a; apply Fin.ext
  match a with
  | ⟨0, _⟩ => show win9_1.index t (0 : Fin 2) * 640 + 1 * k.val = k.val; omega
  | ⟨1, _⟩ => show win9_1.index t (1 : Fin 2) * 128 + 1 * o.val = o.val; omega

/-- The bias row's block is the whole row. -/
theorem read9_2 (c : Dev nD) (t : Fin cfg9.N) (z : Fin 1) (o : Fin 128) :
    iblk9 V c 2 t (ix2 z o) = V c main_v105 (ix2 z o) := by
  obtain ⟨-, -, -, -, e0, e1, -, -⟩ := idx_facts9 t
  show V c main_v105 (((cfg9.win 2).blk t).view.emb (ix2 z o)) = V c main_v105 (ix2 z o)
  refine congrArg (V c main_v105) ?_
  funext a; apply Fin.ext
  match a with
  | ⟨0, _⟩ => show win9_2.index t (0 : Fin 2) * 1 + 1 * z.val = z.val; omega
  | ⟨1, _⟩ => show win9_2.index t (1 : Fin 2) * 128 + 1 * o.val = o.val; omega

/-- The layer as the host writes it on whole arrays. -/
abbrev layer9 (X : FVec Ideal Cert.ReferenceIdeal.S100000x640 .f32) (W : FVec Ideal Cert.ReferenceIdeal.S640x128 .f32) (B2 : FVec Ideal Cert.ReferenceIdeal.S1x128 .f32) :
    FVec Ideal Cert.ReferenceIdeal.S100000x128 .f32 :=
  select (cmpf .ogt (addf (Host.dotGeneral Cert.ReferenceIdeal.dot_S100000x640_S640x128_S100000x128_1_0_0_1_n_n none X W) (broadcastInDim Cert.ReferenceIdeal.S100000x128 ![0, 1] Cert.ReferenceIdeal.Facts₀.bcast_S1x128_S100000x128_0_1 B2)) (broadcastInDim Cert.ReferenceIdeal.S100000x128 ![] Cert.ReferenceIdeal.Facts₀.bcast_S_S100000x128 (constant (F := Ideal) Cert.ReferenceIdeal.S_ .f32 0x00000000#32))) (addf (Host.dotGeneral Cert.ReferenceIdeal.dot_S100000x640_S640x128_S100000x128_1_0_0_1_n_n none X W) (broadcastInDim Cert.ReferenceIdeal.S100000x128 ![0, 1] Cert.ReferenceIdeal.Facts₀.bcast_S1x128_S100000x128_0_1 B2)) (mulf (broadcastInDim Cert.ReferenceIdeal.S100000x128 ![] Cert.ReferenceIdeal.Facts₀.bcast_S_S100000x128 (constant (F := Ideal) Cert.ReferenceIdeal.S_ .f32 0x3DCCCCCD#32)) (addf (Host.dotGeneral Cert.ReferenceIdeal.dot_S100000x640_S640x128_S100000x128_1_0_0_1_n_n none X W) (broadcastInDim Cert.ReferenceIdeal.S100000x128 ![0, 1] Cert.ReferenceIdeal.Facts₀.bcast_S1x128_S100000x128_0_1 B2)))

theorem layer9_apply (X : FVec Ideal Cert.ReferenceIdeal.S100000x640 .f32) (W : FVec Ideal Cert.ReferenceIdeal.S640x128 .f32) (B2 : FVec Ideal Cert.ReferenceIdeal.S1x128 .f32)
    (i : Fin 100000) (o : Fin 128) :
    layer9 X W B2 (ix2 i o) = Scalar.select (FloatOps.cmpf (F := Ideal) .ogt ((∑ c : Fin 640, X (ix2 i c) * W (ix2 c o)) + B2 (ix2 (0 : Fin 1) o)) (Ideal.ofBits .f32 0x00000000#32)) ((∑ c : Fin 640, X (ix2 i c) * W (ix2 c o)) + B2 (ix2 (0 : Fin 1) o)) (FloatOps.mulf (F := Ideal) (Ideal.ofBits .f32 0x3DCCCCCD#32) ((∑ c : Fin 640, X (ix2 i c) * W (ix2 c o)) + B2 (ix2 (0 : Fin 1) o))) :=
  by
  have hY : (addf (Host.dotGeneral Cert.ReferenceIdeal.dot_S100000x640_S640x128_S100000x128_1_0_0_1_n_n none X W) (broadcastInDim Cert.ReferenceIdeal.S100000x128 ![0, 1] Cert.ReferenceIdeal.Facts₀.bcast_S1x128_S100000x128_0_1 B2)) (ix2 i o) = ((∑ c : Fin 640, X (ix2 i c) * W (ix2 c o)) + B2 (ix2 (0 : Fin 1) o)) :=
    Cert.DenseLayer.hostAffine_apply (N := 100000) (n := 640) (k := 128) Cert.ReferenceIdeal.Facts₀.dot_S100000x640_S640x128_S100000x128_1_0_0_1_n_n_wf none X W B2 Cert.ReferenceIdeal.Facts₀.bcast_S1x128_S100000x128_0_1 i o
  have hZ : (broadcastInDim Cert.ReferenceIdeal.S100000x128 ![] Cert.ReferenceIdeal.Facts₀.bcast_S_S100000x128 (constant (F := Ideal) Cert.ReferenceIdeal.S_ .f32 0x00000000#32)) (ix2 i o) = Ideal.ofBits .f32 0x00000000#32 := splat_apply _ _ _
  have hC : (broadcastInDim Cert.ReferenceIdeal.S100000x128 ![] Cert.ReferenceIdeal.Facts₀.bcast_S_S100000x128 (constant (F := Ideal) Cert.ReferenceIdeal.S_ .f32 0x3DCCCCCD#32)) (ix2 i o) = Ideal.ofBits .f32 0x3DCCCCCD#32 := splat_apply _ _ _
  show Scalar.select (FloatOps.cmpf (F := Ideal) .ogt ((addf (Host.dotGeneral Cert.ReferenceIdeal.dot_S100000x640_S640x128_S100000x128_1_0_0_1_n_n none X W) (broadcastInDim Cert.ReferenceIdeal.S100000x128 ![0, 1] Cert.ReferenceIdeal.Facts₀.bcast_S1x128_S100000x128_0_1 B2)) (ix2 i o)) ((broadcastInDim Cert.ReferenceIdeal.S100000x128 ![] Cert.ReferenceIdeal.Facts₀.bcast_S_S100000x128 (constant (F := Ideal) Cert.ReferenceIdeal.S_ .f32 0x00000000#32)) (ix2 i o))) ((addf (Host.dotGeneral Cert.ReferenceIdeal.dot_S100000x640_S640x128_S100000x128_1_0_0_1_n_n none X W) (broadcastInDim Cert.ReferenceIdeal.S100000x128 ![0, 1] Cert.ReferenceIdeal.Facts₀.bcast_S1x128_S100000x128_0_1 B2)) (ix2 i o)) (FloatOps.mulf (F := Ideal) ((broadcastInDim Cert.ReferenceIdeal.S100000x128 ![] Cert.ReferenceIdeal.Facts₀.bcast_S_S100000x128 (constant (F := Ideal) Cert.ReferenceIdeal.S_ .f32 0x3DCCCCCD#32)) (ix2 i o)) ((addf (Host.dotGeneral Cert.ReferenceIdeal.dot_S100000x640_S640x128_S100000x128_1_0_0_1_n_n none X W) (broadcastInDim Cert.ReferenceIdeal.S100000x128 ![0, 1] Cert.ReferenceIdeal.Facts₀.bcast_S1x128_S100000x128_0_1 B2)) (ix2 i o))) = _
  rw [hY, hZ, hC]

/-- What point `t` writes back is block `t` of the layer of the arrays the region finds. -/
theorem flushed9 (c : Dev nD) (t : Fin cfg9.N) :
    (dat9 V c).flushed 3 t = ((cfg9.win 3).blk t).view.read (Elt Ideal)
      (layer9 (V c main_v104) (V c main_arg12) (V c main_v105)) := by
  show (cfg9.win 3).cut (grid9.coords t) ((dat9 V c).after 3 t) = _
  rw [after9_3]
  unfold out9_3
  rw [View.canon_unit_zero hz]
  simp only [View.ld_unit_zero (S := S5000x640) hz, View.ld_unit_zero (S := S640x128) hz, View.ld_unit_zero (S := S1x128) hz]
  funext j
  obtain ⟨q, o, rfl⟩ : ∃ (q : Fin 5000) (o : Fin 128), j = ix2 q o := ⟨j 0, j 1, eq_ix2 j⟩
  have ht : t.val < 20 := by have := t.isLt; have hN : cfg9.N = 20 := N_9; omega
  obtain ⟨-, -, -, -, -, -, e0, e1⟩ := idx_facts9 t
  have hemb : ((cfg9.win 3).blk t).view.emb (ix2 q o) = ix2 (⟨t.val * 5000 + q.val, by omega⟩ : Fin 100000) o := by
    funext a; apply Fin.ext
    match a with
    | ⟨0, _⟩ => show win9_3.index t (0 : Fin 2) * 5000 + 1 * q.val = t.val * 5000 + q.val; omega
    | ⟨1, _⟩ => show win9_3.index t (1 : Fin 2) * 128 + 1 * o.val = o.val; omega
  show k9_pay1 (iblk9 V c 0 t) (iblk9 V c 1 t) (iblk9 V c 2 t) (ix2 q o)
      = layer9 (V c main_v104) (V c main_arg12) (V c main_v105) (((cfg9.win 3).blk t).view.emb (ix2 q o))
  rw [hemb, layer9_apply]
  refine (pay9_apply (iblk9 V c 0 t) (iblk9 V c 1 t) (iblk9 V c 2 t) q o).trans ?_
  refine congrArg (fun y : EReal => Scalar.select (FloatOps.cmpf (F := Ideal) .ogt y (Ideal.ofBits .f32 0x00000000#32)) y (FloatOps.mulf (F := Ideal) (Ideal.ofBits .f32 0x3DCCCCCD#32) y)) ?_
  rw [read9_2 V c t 0 o]
  refine congrArg (· + V c main_v105 (ix2 (0 : Fin 1) o)) (Finset.sum_congr rfl fun k _ => ?_)
  rw [read9_0 V c t q k (⟨t.val * 5000 + q.val, by omega⟩ : Fin 100000) rfl, read9_1 V c t k o]

/-- Every row of the array is in the block of the point `row / 5000`. -/
theorem cover9 (i : S100000x128.Idx) :
    ∃ t : Fin cfg9.N, (cfg9.win 3).flush t = true ∧ i ∈ ((cfg9.win 3).blk t).view.set := by
  have hN : cfg9.N = 20 := N_9
  have hi0 : (i 0).val < 100000 := (i 0).isLt
  have hi1 : (i 1).val < 128 := (i 1).isLt
  let t : Fin cfg9.N := ⟨(i 0).val / 5000, by rw [hN]; omega⟩
  obtain ⟨-, -, -, -, -, -, e0, e1⟩ := idx_facts9 t
  have e0' : win9_3.index t (0 : Fin 2) = (i 0).val / 5000 := e0
  refine ⟨t, flush9_3 t, ?_⟩
  show i ∈ ((View.whole main_v106).slice (win9_3.rect t)).set
  rw [View.set_slice_whole, Rect.mem_set_unit]
  intro a
  match a with
  | ⟨0, _⟩ => show win9_3.index t (0 : Fin 2) * 5000 ≤ (i 0).val ∧ (i 0).val < win9_3.index t (0 : Fin 2) * 5000 + 5000; omega
  | ⟨1, _⟩ => show win9_3.index t (1 : Fin 2) * 128 ≤ (i 1).val ∧ (i 1).val < win9_3.index t (1 : Fin 2) * 128 + 128; omega

/-- The array the region leaves: the layer of the arrays it finds. -/
theorem out9 (c : Dev nD) :
    (dat9 V c).arrAt 3 cfg9.N = layer9 (V c main_v104) (V c main_arg12) (V c main_v105) :=
  (dat9 V c).arrAt_eq_of_cover 3 _ (fun t _ => flushed9 V c t) cover9

end Cert.KernelIdeal.Layers

end
-- ==== Proof.Region10.lean ====
/-
  Kernel launch 10 as the whole array it leaves.

  The rows of the first operand `[100000, 128]` are visited in 20 blocks of 5000 rows. At block `t` the body multiplies
  rows `5000 t … 5000 t + 4999` by the whole `[128, 128]` weight matrix, adds the bias row and applies the activation, and writes the block
  back to the same rows of the result; entry `(5000 t + q, o)` is `(∑ c, X (5000 t + q, c) * W (c, o)) + b (0, o)`, then its maximum with zero:
  the entry of the host's whole-matrix form. Every row lies in the block `t = row / 5000`, so the blocks fill the array.
-/
import proofs.«113295_j44487271252562_1_alg».proof.Proof.Gen.KernelIdeal.Frame
import proofs.«113295_j44487271252562_1_alg».proof.Proof.Gen.ReferenceIdeal
import proofs.«113295_j44487271252562_1_alg».proof.Proof.LibDenseLayer
import Idealize.ShloMosaic.Lib.Pipeline.Value
import Idealize.ShloMosaic.Lib.ValueIdx
import Idealize.ShloMosaic.Lib.ValueLayout

set_option maxRecDepth 16384

noncomputable section

namespace Cert.KernelIdeal.Layers

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

private theorem hz : (![0, 0] : Fin 2 → Nat) = fun _ => 0 := funext fun a => by fin_cases a <;> rfl

/-- A constant copied to every entry reads that constant. -/
private theorem splat_apply {s : Shape} (h : (⟨0, ![]⟩ : Shape).BroadcastsInDim s ![]) (b : BitVec 32) (j : s.Idx) :
    broadcastInDim s ![] h (constant (F := Ideal) (⟨0, ![]⟩ : Shape) .f32 b) j = Ideal.ofBits .f32 b :=
  (broadcastInDim_apply ![] h (constant (F := Ideal) (⟨0, ![]⟩ : Shape) .f32 b) j (fun a => a.elim0) (fun a => a.elim0)).trans rfl

/-- One entry of the body's result from its loaded blocks. -/
theorem pay10_apply (x0 : Vec Ideal S5000x128 .f32) (x1 : Vec Ideal S128x128 .f32) (x2 : Vec Ideal S1x128 .f32)
    (q : Fin 5000) (o : Fin 128) :
    k10_pay1 x0 x1 x2 (ix2 q o) = max ((∑ c : Fin 128, x0 (ix2 q c) * x1 (ix2 c o)) + x2 (ix2 (0 : Fin 1) o)) (Ideal.ofBits .f32 0x00000000#32) := by
  unfold k10_pay1
  simp only [shapeCast_self]
  exact congrArg (fun y : EReal => max y (Ideal.ofBits .f32 0x00000000#32)) (Cert.DenseLayer.blockAffine_apply (R := 5000) (n := 128) (k := 128)
    dot_S5000x128_S128x128_S5000x128_1_0_0_1_n_n_wf none x0 x1 x2 broadcasts_S1x128_S5000x128 q o)

/-- The printed index maps over the grid: the row blocks move with the point, the other operands stay. -/
theorem idx_facts10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-- Row `q` of the block of the first operand at point `t` is row `5000 t + q` of the array. -/
theorem read10_0 (c : Dev nD) (t : Fin cfg10.N) (q : Fin 5000) (k : Fin 128) (i : Fin 100000) (hi : i.val = t.val * 5000 + q.val) :
    iblk10 V c 0 t (ix2 q k) = V c main_v106 (ix2 i k) := by
  obtain ⟨e0, e1, -, -, -, -, -, -⟩ := idx_facts10 t
  show V c main_v106 (((cfg10.win 0).blk t).view.emb (ix2 q k)) = V c main_v106 (ix2 i k)
  refine congrArg (V c main_v106) ?_
  funext a; apply Fin.ext
  match a with
  | ⟨0, _⟩ => show win10_0.index t (0 : Fin 2) * 5000 + 1 * q.val = i.val; omega
  | ⟨1, _⟩ => show win10_0.index t (1 : Fin 2) * 128 + 1 * k.val = k.val; omega

/-- The weights' block is the whole matrix. -/
theorem read10_1 (c : Dev nD) (t : Fin cfg10.N) (k : Fin 128) (o : Fin 128) :
    iblk10 V c 1 t (ix2 k o) = V c main_arg14 (ix2 k o) := by
  obtain ⟨-, -, e0, e1, -, -, -, -⟩ := idx_facts10 t
  show V c main_arg14 (((cfg10.win 1).blk t).view.emb (ix2 k o)) = V c main_arg14 (ix2 k o)
  refine congrArg (V c main_arg14) ?_
  funext a; apply Fin.ext
  match a with
  | ⟨0, _⟩ => show win10_1.index t (0 : Fin 2) * 128 + 1 * k.val = k.val; omega
  | ⟨1, _⟩ => show win10_1.index t (1 : Fin 2) * 128 + 1 * o.val = o.val; omega

/-- The bias row's block is the whole row. -/
theorem read10_2 (c : Dev nD) (t : Fin cfg10.N) (z : Fin 1) (o : Fin 128) :
    iblk10 V c 2 t (ix2 z o) = V c main_v107 (ix2 z o) := by
  obtain ⟨-, -, -, -, e0, e1, -, -⟩ := idx_facts10 t
  show V c main_v107 (((cfg10.win 2).blk t).view.emb (ix2 z o)) = V c main_v107 (ix2 z o)
  refine congrArg (V c main_v107) ?_
  funext a; apply Fin.ext
  match a with
  | ⟨0, _⟩ => show win10_2.index t (0 : Fin 2) * 1 + 1 * z.val = z.val; omega
  | ⟨1, _⟩ => show win10_2.index t (1 : Fin 2) * 128 + 1 * o.val = o.val; omega

/-- The layer as the host writes it on whole arrays. -/
abbrev layer10 (X : FVec Ideal Cert.ReferenceIdeal.S100000x128 .f32) (W : FVec Ideal Cert.ReferenceIdeal.S128x128 .f32) (B2 : FVec Ideal Cert.ReferenceIdeal.S1x128 .f32) :
    FVec Ideal Cert.ReferenceIdeal.S100000x128 .f32 :=
  maximumf (addf (Host.dotGeneral Cert.ReferenceIdeal.dot_S100000x128_S128x128_S100000x128_1_0_0_1_n_n none X W) (broadcastInDim Cert.ReferenceIdeal.S100000x128 ![0, 1] Cert.ReferenceIdeal.Facts₀.bcast_S1x128_S100000x128_0_1 B2)) (broadcastInDim Cert.ReferenceIdeal.S100000x128 ![] Cert.ReferenceIdeal.Facts₀.bcast_S_S100000x128 (constant (F := Ideal) Cert.ReferenceIdeal.S_ .f32 0x00000000#32))

theorem layer10_apply (X : FVec Ideal Cert.ReferenceIdeal.S100000x128 .f32) (W : FVec Ideal Cert.ReferenceIdeal.S128x128 .f32) (B2 : FVec Ideal Cert.ReferenceIdeal.S1x128 .f32)
    (i : Fin 100000) (o : Fin 128) :
    layer10 X W B2 (ix2 i o) = max ((∑ c : Fin 128, X (ix2 i c) * W (ix2 c o)) + B2 (ix2 (0 : Fin 1) o)) (Ideal.ofBits .f32 0x00000000#32) :=
  by
  have hY : (addf (Host.dotGeneral Cert.ReferenceIdeal.dot_S100000x128_S128x128_S100000x128_1_0_0_1_n_n none X W) (broadcastInDim Cert.ReferenceIdeal.S100000x128 ![0, 1] Cert.ReferenceIdeal.Facts₀.bcast_S1x128_S100000x128_0_1 B2)) (ix2 i o) = ((∑ c : Fin 128, X (ix2 i c) * W (ix2 c o)) + B2 (ix2 (0 : Fin 1) o)) :=
    Cert.DenseLayer.hostAffine_apply (N := 100000) (n := 128) (k := 128) Cert.ReferenceIdeal.Facts₀.dot_S100000x128_S128x128_S100000x128_1_0_0_1_n_n_wf none X W B2 Cert.ReferenceIdeal.Facts₀.bcast_S1x128_S100000x128_0_1 i o
  have hZ : (broadcastInDim Cert.ReferenceIdeal.S100000x128 ![] Cert.ReferenceIdeal.Facts₀.bcast_S_S100000x128 (constant (F := Ideal) Cert.ReferenceIdeal.S_ .f32 0x00000000#32)) (ix2 i o) = Ideal.ofBits .f32 0x00000000#32 := splat_apply _ _ _
  show max ((addf (Host.dotGeneral Cert.ReferenceIdeal.dot_S100000x128_S128x128_S100000x128_1_0_0_1_n_n none X W) (broadcastInDim Cert.ReferenceIdeal.S100000x128 ![0, 1] Cert.ReferenceIdeal.Facts₀.bcast_S1x128_S100000x128_0_1 B2)) (ix2 i o)) ((broadcastInDim Cert.ReferenceIdeal.S100000x128 ![] Cert.ReferenceIdeal.Facts₀.bcast_S_S100000x128 (constant (F := Ideal) Cert.ReferenceIdeal.S_ .f32 0x00000000#32)) (ix2 i o)) = _
  rw [hY, hZ]

/-- What point `t` writes back is block `t` of the layer of the arrays the region finds. -/
theorem flushed10 (c : Dev nD) (t : Fin cfg10.N) :
    (dat10 V c).flushed 3 t = ((cfg10.win 3).blk t).view.read (Elt Ideal)
      (layer10 (V c main_v106) (V c main_arg14) (V c main_v107)) := by
  show (cfg10.win 3).cut (grid10.coords t) ((dat10 V c).after 3 t) = _
  rw [after10_3]
  unfold out10_3
  rw [View.canon_unit_zero hz]
  simp only [View.ld_unit_zero (S := S5000x128) hz, View.ld_unit_zero (S := S128x128) hz, View.ld_unit_zero (S := S1x128) hz]
  funext j
  obtain ⟨q, o, rfl⟩ : ∃ (q : Fin 5000) (o : Fin 128), j = ix2 q o := ⟨j 0, j 1, eq_ix2 j⟩
  have ht : t.val < 20 := by have := t.isLt; have hN : cfg10.N = 20 := N_10; omega
  obtain ⟨-, -, -, -, -, -, e0, e1⟩ := idx_facts10 t
  have hemb : ((cfg10.win 3).blk t).view.emb (ix2 q o) = ix2 (⟨t.val * 5000 + q.val, by omega⟩ : Fin 100000) o := by
    funext a; apply Fin.ext
    match a with
    | ⟨0, _⟩ => show win10_3.index t (0 : Fin 2) * 5000 + 1 * q.val = t.val * 5000 + q.val; omega
    | ⟨1, _⟩ => show win10_3.index t (1 : Fin 2) * 128 + 1 * o.val = o.val; omega
  show k10_pay1 (iblk10 V c 0 t) (iblk10 V c 1 t) (iblk10 V c 2 t) (ix2 q o)
      = layer10 (V c main_v106) (V c main_arg14) (V c main_v107) (((cfg10.win 3).blk t).view.emb (ix2 q o))
  rw [hemb, layer10_apply]
  refine (pay10_apply (iblk10 V c 0 t) (iblk10 V c 1 t) (iblk10 V c 2 t) q o).trans ?_
  refine congrArg (fun y : EReal => max y (Ideal.ofBits .f32 0x00000000#32)) ?_
  rw [read10_2 V c t 0 o]
  refine congrArg (· + V c main_v107 (ix2 (0 : Fin 1) o)) (Finset.sum_congr rfl fun k _ => ?_)
  rw [read10_0 V c t q k (⟨t.val * 5000 + q.val, by omega⟩ : Fin 100000) rfl, read10_1 V c t k o]

/-- Every row of the array is in the block of the point `row / 5000`. -/
theorem cover10 (i : S100000x128.Idx) :
    ∃ t : Fin cfg10.N, (cfg10.win 3).flush t = true ∧ i ∈ ((cfg10.win 3).blk t).view.set := by
  have hN : cfg10.N = 20 := N_10
  have hi0 : (i 0).val < 100000 := (i 0).isLt
  have hi1 : (i 1).val < 128 := (i 1).isLt
  let t : Fin cfg10.N := ⟨(i 0).val / 5000, by rw [hN]; omega⟩
  obtain ⟨-, -, -, -, -, -, e0, e1⟩ := idx_facts10 t
  have e0' : win10_3.index t (0 : Fin 2) = (i 0).val / 5000 := e0
  refine ⟨t, flush10_3 t, ?_⟩
  show i ∈ ((View.whole main_v108).slice (win10_3.rect t)).set
  rw [View.set_slice_whole, Rect.mem_set_unit]
  intro a
  match a with
  | ⟨0, _⟩ => show win10_3.index t (0 : Fin 2) * 5000 ≤ (i 0).val ∧ (i 0).val < win10_3.index t (0 : Fin 2) * 5000 + 5000; omega
  | ⟨1, _⟩ => show win10_3.index t (1 : Fin 2) * 128 ≤ (i 1).val ∧ (i 1).val < win10_3.index t (1 : Fin 2) * 128 + 128; omega

/-- The array the region leaves: the layer of the arrays it finds. -/
theorem out10 (c : Dev nD) :
    (dat10 V c).arrAt 3 cfg10.N = layer10 (V c main_v106) (V c main_arg14) (V c main_v107) :=
  (dat10 V c).arrAt_eq_of_cover 3 _ (fun t _ => flushed10 V c t) cover10

end Cert.KernelIdeal.Layers

end
-- ==== Proof.Region11.lean ====
/-
  Kernel launch 11 as the whole array it leaves.

  The rows of the first operand `[100000, 128]` are visited in 20 blocks of 5000 rows. At block `t` the body multiplies
  rows `5000 t … 5000 t + 4999` by the whole `[128, 256]` weight matrix, adds the bias row and applies the activation, and writes the block
  back to the same rows of the result; entry `(5000 t + q, o)` is `(∑ c, X (5000 t + q, c) * W (c, o)) + b (0, o)`, then its maximum with zero:
  the entry of the host's whole-matrix form. Every row lies in the block `t = row / 5000`, so the blocks fill the array.
-/
import proofs.«113295_j44487271252562_1_alg».proof.Proof.Gen.KernelIdeal.Frame
import proofs.«113295_j44487271252562_1_alg».proof.Proof.Gen.ReferenceIdeal
import proofs.«113295_j44487271252562_1_alg».proof.Proof.LibDenseLayer
import Idealize.ShloMosaic.Lib.Pipeline.Value
import Idealize.ShloMosaic.Lib.ValueIdx
import Idealize.ShloMosaic.Lib.ValueLayout

set_option maxRecDepth 16384

noncomputable section

namespace Cert.KernelIdeal.Layers

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

private theorem hz : (![0, 0] : Fin 2 → Nat) = fun _ => 0 := funext fun a => by fin_cases a <;> rfl

/-- A constant copied to every entry reads that constant. -/
private theorem splat_apply {s : Shape} (h : (⟨0, ![]⟩ : Shape).BroadcastsInDim s ![]) (b : BitVec 32) (j : s.Idx) :
    broadcastInDim s ![] h (constant (F := Ideal) (⟨0, ![]⟩ : Shape) .f32 b) j = Ideal.ofBits .f32 b :=
  (broadcastInDim_apply ![] h (constant (F := Ideal) (⟨0, ![]⟩ : Shape) .f32 b) j (fun a => a.elim0) (fun a => a.elim0)).trans rfl

/-- One entry of the body's result from its loaded blocks. -/
theorem pay11_apply (x0 : Vec Ideal S5000x128 .f32) (x1 : Vec Ideal S128x256 .f32) (x2 : Vec Ideal S1x256 .f32)
    (q : Fin 5000) (o : Fin 256) :
    k11_pay1 x0 x1 x2 (ix2 q o) = max ((∑ c : Fin 128, x0 (ix2 q c) * x1 (ix2 c o)) + x2 (ix2 (0 : Fin 1) o)) (Ideal.ofBits .f32 0x00000000#32) := by
  unfold k11_pay1
  simp only [shapeCast_self]
  exact congrArg (fun y : EReal => max y (Ideal.ofBits .f32 0x00000000#32)) (Cert.DenseLayer.blockAffine_apply (R := 5000) (n := 128) (k := 256)
    dot_S5000x128_S128x256_S5000x256_1_0_0_1_n_n_wf none x0 x1 x2 broadcasts_S1x256_S5000x256 q o)

/-- The printed index maps over the grid: the row blocks move with the point, the other operands stay. -/
theorem idx_facts11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

/-- Row `q` of the block of the first operand at point `t` is row `5000 t + q` of the array. -/
theorem read11_0 (c : Dev nD) (t : Fin cfg11.N) (q : Fin 5000) (k : Fin 128) (i : Fin 100000) (hi : i.val = t.val * 5000 + q.val) :
    iblk11 V c 0 t (ix2 q k) = V c main_v108 (ix2 i k) := by
  obtain ⟨e0, e1, -, -, -, -, -, -⟩ := idx_facts11 t
  show V c main_v108 (((cfg11.win 0).blk t).view.emb (ix2 q k)) = V c main_v108 (ix2 i k)
  refine congrArg (V c main_v108) ?_
  funext a; apply Fin.ext
  match a with
  | ⟨0, _⟩ => show win11_0.index t (0 : Fin 2) * 5000 + 1 * q.val = i.val; omega
  | ⟨1, _⟩ => show win11_0.index t (1 : Fin 2) * 128 + 1 * k.val = k.val; omega

/-- The weights' block is the whole matrix. -/
theorem read11_1 (c : Dev nD) (t : Fin cfg11.N) (k : Fin 128) (o : Fin 256) :
    iblk11 V c 1 t (ix2 k o) = V c main_arg16 (ix2 k o) := by
  obtain ⟨-, -, e0, e1, -, -, -, -⟩ := idx_facts11 t
  show V c main_arg16 (((cfg11.win 1).blk t).view.emb (ix2 k o)) = V c main_arg16 (ix2 k o)
  refine congrArg (V c main_arg16) ?_
  funext a; apply Fin.ext
  match a with
  | ⟨0, _⟩ => show win11_1.index t (0 : Fin 2) * 128 + 1 * k.val = k.val; omega
  | ⟨1, _⟩ => show win11_1.index t (1 : Fin 2) * 256 + 1 * o.val = o.val; omega

/-- The bias row's block is the whole row. -/
theorem read11_2 (c : Dev nD) (t : Fin cfg11.N) (z : Fin 1) (o : Fin 256) :
    iblk11 V c 2 t (ix2 z o) = V c main_v109 (ix2 z o) := by
  obtain ⟨-, -, -, -, e0, e1, -, -⟩ := idx_facts11 t
  show V c main_v109 (((cfg11.win 2).blk t).view.emb (ix2 z o)) = V c main_v109 (ix2 z o)
  refine congrArg (V c main_v109) ?_
  funext a; apply Fin.ext
  match a with
  | ⟨0, _⟩ => show win11_2.index t (0 : Fin 2) * 1 + 1 * z.val = z.val; omega
  | ⟨1, _⟩ => show win11_2.index t (1 : Fin 2) * 256 + 1 * o.val = o.val; omega

/-- The layer as the host writes it on whole arrays. -/
abbrev layer11 (X : FVec Ideal Cert.ReferenceIdeal.S100000x128 .f32) (W : FVec Ideal Cert.ReferenceIdeal.S128x256 .f32) (B2 : FVec Ideal Cert.ReferenceIdeal.S1x256 .f32) :
    FVec Ideal Cert.ReferenceIdeal.S100000x256 .f32 :=
  maximumf (addf (Host.dotGeneral Cert.ReferenceIdeal.dot_S100000x128_S128x256_S100000x256_1_0_0_1_n_n none X W) (broadcastInDim Cert.ReferenceIdeal.S100000x256 ![0, 1] Cert.ReferenceIdeal.Facts₀.bcast_S1x256_S100000x256_0_1 B2)) (broadcastInDim Cert.ReferenceIdeal.S100000x256 ![] Cert.ReferenceIdeal.Facts₀.bcast_S_S100000x256 (constant (F := Ideal) Cert.ReferenceIdeal.S_ .f32 0x00000000#32))

theorem layer11_apply (X : FVec Ideal Cert.ReferenceIdeal.S100000x128 .f32) (W : FVec Ideal Cert.ReferenceIdeal.S128x256 .f32) (B2 : FVec Ideal Cert.ReferenceIdeal.S1x256 .f32)
    (i : Fin 100000) (o : Fin 256) :
    layer11 X W B2 (ix2 i o) = max ((∑ c : Fin 128, X (ix2 i c) * W (ix2 c o)) + B2 (ix2 (0 : Fin 1) o)) (Ideal.ofBits .f32 0x00000000#32) :=
  by
  have hY : (addf (Host.dotGeneral Cert.ReferenceIdeal.dot_S100000x128_S128x256_S100000x256_1_0_0_1_n_n none X W) (broadcastInDim Cert.ReferenceIdeal.S100000x256 ![0, 1] Cert.ReferenceIdeal.Facts₀.bcast_S1x256_S100000x256_0_1 B2)) (ix2 i o) = ((∑ c : Fin 128, X (ix2 i c) * W (ix2 c o)) + B2 (ix2 (0 : Fin 1) o)) :=
    Cert.DenseLayer.hostAffine_apply (N := 100000) (n := 128) (k := 256) Cert.ReferenceIdeal.Facts₀.dot_S100000x128_S128x256_S100000x256_1_0_0_1_n_n_wf none X W B2 Cert.ReferenceIdeal.Facts₀.bcast_S1x256_S100000x256_0_1 i o
  have hZ : (broadcastInDim Cert.ReferenceIdeal.S100000x256 ![] Cert.ReferenceIdeal.Facts₀.bcast_S_S100000x256 (constant (F := Ideal) Cert.ReferenceIdeal.S_ .f32 0x00000000#32)) (ix2 i o) = Ideal.ofBits .f32 0x00000000#32 := splat_apply _ _ _
  show max ((addf (Host.dotGeneral Cert.ReferenceIdeal.dot_S100000x128_S128x256_S100000x256_1_0_0_1_n_n none X W) (broadcastInDim Cert.ReferenceIdeal.S100000x256 ![0, 1] Cert.ReferenceIdeal.Facts₀.bcast_S1x256_S100000x256_0_1 B2)) (ix2 i o)) ((broadcastInDim Cert.ReferenceIdeal.S100000x256 ![] Cert.ReferenceIdeal.Facts₀.bcast_S_S100000x256 (constant (F := Ideal) Cert.ReferenceIdeal.S_ .f32 0x00000000#32)) (ix2 i o)) = _
  rw [hY, hZ]

/-- What point `t` writes back is block `t` of the layer of the arrays the region finds. -/
theorem flushed11 (c : Dev nD) (t : Fin cfg11.N) :
    (dat11 V c).flushed 3 t = ((cfg11.win 3).blk t).view.read (Elt Ideal)
      (layer11 (V c main_v108) (V c main_arg16) (V c main_v109)) := by
  show (cfg11.win 3).cut (grid11.coords t) ((dat11 V c).after 3 t) = _
  rw [after11_3]
  unfold out11_3
  rw [View.canon_unit_zero hz]
  simp only [View.ld_unit_zero (S := S5000x128) hz, View.ld_unit_zero (S := S128x256) hz, View.ld_unit_zero (S := S1x256) hz]
  funext j
  obtain ⟨q, o, rfl⟩ : ∃ (q : Fin 5000) (o : Fin 256), j = ix2 q o := ⟨j 0, j 1, eq_ix2 j⟩
  have ht : t.val < 20 := by have := t.isLt; have hN : cfg11.N = 20 := N_11; omega
  obtain ⟨-, -, -, -, -, -, e0, e1⟩ := idx_facts11 t
  have hemb : ((cfg11.win 3).blk t).view.emb (ix2 q o) = ix2 (⟨t.val * 5000 + q.val, by omega⟩ : Fin 100000) o := by
    funext a; apply Fin.ext
    match a with
    | ⟨0, _⟩ => show win11_3.index t (0 : Fin 2) * 5000 + 1 * q.val = t.val * 5000 + q.val; omega
    | ⟨1, _⟩ => show win11_3.index t (1 : Fin 2) * 256 + 1 * o.val = o.val; omega
  show k11_pay1 (iblk11 V c 0 t) (iblk11 V c 1 t) (iblk11 V c 2 t) (ix2 q o)
      = layer11 (V c main_v108) (V c main_arg16) (V c main_v109) (((cfg11.win 3).blk t).view.emb (ix2 q o))
  rw [hemb, layer11_apply]
  refine (pay11_apply (iblk11 V c 0 t) (iblk11 V c 1 t) (iblk11 V c 2 t) q o).trans ?_
  refine congrArg (fun y : EReal => max y (Ideal.ofBits .f32 0x00000000#32)) ?_
  rw [read11_2 V c t 0 o]
  refine congrArg (· + V c main_v109 (ix2 (0 : Fin 1) o)) (Finset.sum_congr rfl fun k _ => ?_)
  rw [read11_0 V c t q k (⟨t.val * 5000 + q.val, by omega⟩ : Fin 100000) rfl, read11_1 V c t k o]

/-- Every row of the array is in the block of the point `row / 5000`. -/
theorem cover11 (i : S100000x256.Idx) :
    ∃ t : Fin cfg11.N, (cfg11.win 3).flush t = true ∧ i ∈ ((cfg11.win 3).blk t).view.set := by
  have hN : cfg11.N = 20 := N_11
  have hi0 : (i 0).val < 100000 := (i 0).isLt
  have hi1 : (i 1).val < 256 := (i 1).isLt
  let t : Fin cfg11.N := ⟨(i 0).val / 5000, by rw [hN]; omega⟩
  obtain ⟨-, -, -, -, -, -, e0, e1⟩ := idx_facts11 t
  have e0' : win11_3.index t (0 : Fin 2) = (i 0).val / 5000 := e0
  refine ⟨t, flush11_3 t, ?_⟩
  show i ∈ ((View.whole main_v110).slice (win11_3.rect t)).set
  rw [View.set_slice_whole, Rect.mem_set_unit]
  intro a
  match a with
  | ⟨0, _⟩ => show win11_3.index t (0 : Fin 2) * 5000 ≤ (i 0).val ∧ (i 0).val < win11_3.index t (0 : Fin 2) * 5000 + 5000; omega
  | ⟨1, _⟩ => show win11_3.index t (1 : Fin 2) * 256 ≤ (i 1).val ∧ (i 1).val < win11_3.index t (1 : Fin 2) * 256 + 256; omega

/-- The array the region leaves: the layer of the arrays it finds. -/
theorem out11 (c : Dev nD) :
    (dat11 V c).arrAt 3 cfg11.N = layer11 (V c main_v108) (V c main_arg16) (V c main_v109) :=
  (dat11 V c).arrAt_eq_of_cover 3 _ (fun t _ => flushed11 V c t) cover11

end Cert.KernelIdeal.Layers

end
-- ==== Proof.Region12.lean ====
/-
  Kernel launch 12 as the whole array it leaves.

  The rows of the first operand `[100000, 256]` are visited in 20 blocks of 5000 rows. At block `t` the body multiplies
  rows `5000 t … 5000 t + 4999` by the whole `[256, 128]` weight matrix, adds the bias row, and writes the block
  back to the same rows of the result; entry `(5000 t + q, o)` is `(∑ c, X (5000 t + q, c) * W (c, o)) + b (0, o)`:
  the entry of the host's whole-matrix form. Every row lies in the block `t = row / 5000`, so the blocks fill the array.
-/
import proofs.«113295_j44487271252562_1_alg».proof.Proof.Gen.KernelIdeal.Frame
import proofs.«113295_j44487271252562_1_alg».proof.Proof.Gen.ReferenceIdeal
import proofs.«113295_j44487271252562_1_alg».proof.Proof.LibDenseLayer
import Idealize.ShloMosaic.Lib.Pipeline.Value
import Idealize.ShloMosaic.Lib.ValueIdx
import Idealize.ShloMosaic.Lib.ValueLayout

set_option maxRecDepth 16384

noncomputable section

namespace Cert.KernelIdeal.Layers

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

private theorem hz : (![0, 0] : Fin 2 → Nat) = fun _ => 0 := funext fun a => by fin_cases a <;> rfl

/-- A constant copied to every entry reads that constant. -/
private theorem splat_apply {s : Shape} (h : (⟨0, ![]⟩ : Shape).BroadcastsInDim s ![]) (b : BitVec 32) (j : s.Idx) :
    broadcastInDim s ![] h (constant (F := Ideal) (⟨0, ![]⟩ : Shape) .f32 b) j = Ideal.ofBits .f32 b :=
  (broadcastInDim_apply ![] h (constant (F := Ideal) (⟨0, ![]⟩ : Shape) .f32 b) j (fun a => a.elim0) (fun a => a.elim0)).trans rfl

/-- One entry of the body's result from its loaded blocks. -/
theorem pay12_apply (x0 : Vec Ideal S5000x256 .f32) (x1 : Vec Ideal S256x128 .f32) (x2 : Vec Ideal S1x128 .f32)
    (q : Fin 5000) (o : Fin 128) :
    k12_pay1 x0 x1 x2 (ix2 q o) = ((∑ c : Fin 256, x0 (ix2 q c) * x1 (ix2 c o)) + x2 (ix2 (0 : Fin 1) o)) := by
  unfold k12_pay1
  simp only [shapeCast_self]
  exact Cert.DenseLayer.blockAffine_apply (R := 5000) (n := 256) (k := 128)
    dot_S5000x256_S256x128_S5000x128_1_0_0_1_n_n_wf none x0 x1 x2 broadcasts_S1x128_S5000x128 q o

/-- The printed index maps over the grid: the row blocks move with the point, the other operands stay. -/
theorem idx_facts12 : ∀ t : Fin cfg12.N, win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0 :=
  (by decide +kernel : ∀ t : Fin grid12.N, _)

/-- Row `q` of the block of the first operand at point `t` is row `5000 t + q` of the array. -/
theorem read12_0 (c : Dev nD) (t : Fin cfg12.N) (q : Fin 5000) (k : Fin 256) (i : Fin 100000) (hi : i.val = t.val * 5000 + q.val) :
    iblk12 V c 0 t (ix2 q k) = V c main_v110 (ix2 i k) := by
  obtain ⟨e0, e1, -, -, -, -, -, -⟩ := idx_facts12 t
  show V c main_v110 (((cfg12.win 0).blk t).view.emb (ix2 q k)) = V c main_v110 (ix2 i k)
  refine congrArg (V c main_v110) ?_
  funext a; apply Fin.ext
  match a with
  | ⟨0, _⟩ => show win12_0.index t (0 : Fin 2) * 5000 + 1 * q.val = i.val; omega
  | ⟨1, _⟩ => show win12_0.index t (1 : Fin 2) * 256 + 1 * k.val = k.val; omega

/-- The weights' block is the whole matrix. -/
theorem read12_1 (c : Dev nD) (t : Fin cfg12.N) (k : Fin 256) (o : Fin 128) :
    iblk12 V c 1 t (ix2 k o) = V c main_arg18 (ix2 k o) := by
  obtain ⟨-, -, e0, e1, -, -, -, -⟩ := idx_facts12 t
  show V c main_arg18 (((cfg12.win 1).blk t).view.emb (ix2 k o)) = V c main_arg18 (ix2 k o)
  refine congrArg (V c main_arg18) ?_
  funext a; apply Fin.ext
  match a with
  | ⟨0, _⟩ => show win12_1.index t (0 : Fin 2) * 256 + 1 * k.val = k.val; omega
  | ⟨1, _⟩ => show win12_1.index t (1 : Fin 2) * 128 + 1 * o.val = o.val; omega

/-- The bias row's block is the whole row. -/
theorem read12_2 (c : Dev nD) (t : Fin cfg12.N) (z : Fin 1) (o : Fin 128) :
    iblk12 V c 2 t (ix2 z o) = V c main_v111 (ix2 z o) := by
  obtain ⟨-, -, -, -, e0, e1, -, -⟩ := idx_facts12 t
  show V c main_v111 (((cfg12.win 2).blk t).view.emb (ix2 z o)) = V c main_v111 (ix2 z o)
  refine congrArg (V c main_v111) ?_
  funext a; apply Fin.ext
  match a with
  | ⟨0, _⟩ => show win12_2.index t (0 : Fin 2) * 1 + 1 * z.val = z.val; omega
  | ⟨1, _⟩ => show win12_2.index t (1 : Fin 2) * 128 + 1 * o.val = o.val; omega

/-- The layer as the host writes it on whole arrays. -/
abbrev layer12 (X : FVec Ideal Cert.ReferenceIdeal.S100000x256 .f32) (W : FVec Ideal Cert.ReferenceIdeal.S256x128 .f32) (B2 : FVec Ideal Cert.ReferenceIdeal.S1x128 .f32) :
    FVec Ideal Cert.ReferenceIdeal.S100000x128 .f32 :=
  (addf (Host.dotGeneral Cert.ReferenceIdeal.dot_S100000x256_S256x128_S100000x128_1_0_0_1_n_n none X W) (broadcastInDim Cert.ReferenceIdeal.S100000x128 ![0, 1] Cert.ReferenceIdeal.Facts₀.bcast_S1x128_S100000x128_0_1 B2))

theorem layer12_apply (X : FVec Ideal Cert.ReferenceIdeal.S100000x256 .f32) (W : FVec Ideal Cert.ReferenceIdeal.S256x128 .f32) (B2 : FVec Ideal Cert.ReferenceIdeal.S1x128 .f32)
    (i : Fin 100000) (o : Fin 128) :
    layer12 X W B2 (ix2 i o) = ((∑ c : Fin 256, X (ix2 i c) * W (ix2 c o)) + B2 (ix2 (0 : Fin 1) o)) :=
  Cert.DenseLayer.hostAffine_apply (N := 100000) (n := 256) (k := 128) Cert.ReferenceIdeal.Facts₀.dot_S100000x256_S256x128_S100000x128_1_0_0_1_n_n_wf none X W B2 Cert.ReferenceIdeal.Facts₀.bcast_S1x128_S100000x128_0_1 i o

/-- What point `t` writes back is block `t` of the layer of the arrays the region finds. -/
theorem flushed12 (c : Dev nD) (t : Fin cfg12.N) :
    (dat12 V c).flushed 3 t = ((cfg12.win 3).blk t).view.read (Elt Ideal)
      (layer12 (V c main_v110) (V c main_arg18) (V c main_v111)) := by
  show (cfg12.win 3).cut (grid12.coords t) ((dat12 V c).after 3 t) = _
  rw [after12_3]
  unfold out12_3
  rw [View.canon_unit_zero hz]
  simp only [View.ld_unit_zero (S := S5000x256) hz, View.ld_unit_zero (S := S256x128) hz, View.ld_unit_zero (S := S1x128) hz]
  funext j
  obtain ⟨q, o, rfl⟩ : ∃ (q : Fin 5000) (o : Fin 128), j = ix2 q o := ⟨j 0, j 1, eq_ix2 j⟩
  have ht : t.val < 20 := by have := t.isLt; have hN : cfg12.N = 20 := N_12; omega
  obtain ⟨-, -, -, -, -, -, e0, e1⟩ := idx_facts12 t
  have hemb : ((cfg12.win 3).blk t).view.emb (ix2 q o) = ix2 (⟨t.val * 5000 + q.val, by omega⟩ : Fin 100000) o := by
    funext a; apply Fin.ext
    match a with
    | ⟨0, _⟩ => show win12_3.index t (0 : Fin 2) * 5000 + 1 * q.val = t.val * 5000 + q.val; omega
    | ⟨1, _⟩ => show win12_3.index t (1 : Fin 2) * 128 + 1 * o.val = o.val; omega
  show k12_pay1 (iblk12 V c 0 t) (iblk12 V c 1 t) (iblk12 V c 2 t) (ix2 q o)
      = layer12 (V c main_v110) (V c main_arg18) (V c main_v111) (((cfg12.win 3).blk t).view.emb (ix2 q o))
  rw [hemb, layer12_apply]
  refine (pay12_apply (iblk12 V c 0 t) (iblk12 V c 1 t) (iblk12 V c 2 t) q o).trans ?_
  rw [read12_2 V c t 0 o]
  refine congrArg (· + V c main_v111 (ix2 (0 : Fin 1) o)) (Finset.sum_congr rfl fun k _ => ?_)
  rw [read12_0 V c t q k (⟨t.val * 5000 + q.val, by omega⟩ : Fin 100000) rfl, read12_1 V c t k o]

/-- Every row of the array is in the block of the point `row / 5000`. -/
theorem cover12 (i : S100000x128.Idx) :
    ∃ t : Fin cfg12.N, (cfg12.win 3).flush t = true ∧ i ∈ ((cfg12.win 3).blk t).view.set := by
  have hN : cfg12.N = 20 := N_12
  have hi0 : (i 0).val < 100000 := (i 0).isLt
  have hi1 : (i 1).val < 128 := (i 1).isLt
  let t : Fin cfg12.N := ⟨(i 0).val / 5000, by rw [hN]; omega⟩
  obtain ⟨-, -, -, -, -, -, e0, e1⟩ := idx_facts12 t
  have e0' : win12_3.index t (0 : Fin 2) = (i 0).val / 5000 := e0
  refine ⟨t, flush12_3 t, ?_⟩
  show i ∈ ((View.whole main_v112).slice (win12_3.rect t)).set
  rw [View.set_slice_whole, Rect.mem_set_unit]
  intro a
  match a with
  | ⟨0, _⟩ => show win12_3.index t (0 : Fin 2) * 5000 ≤ (i 0).val ∧ (i 0).val < win12_3.index t (0 : Fin 2) * 5000 + 5000; omega
  | ⟨1, _⟩ => show win12_3.index t (1 : Fin 2) * 128 ≤ (i 1).val ∧ (i 1).val < win12_3.index t (1 : Fin 2) * 128 + 128; omega

/-- The array the region leaves: the layer of the arrays it finds. -/
theorem out12 (c : Dev nD) :
    (dat12 V c).arrAt 3 cfg12.N = layer12 (V c main_v110) (V c main_arg18) (V c main_v111) :=
  (dat12 V c).arrAt_eq_of_cover 3 _ (fun t _ => flushed12 V c t) cover12

end Cert.KernelIdeal.Layers

end
-- ==== Proof.LibJoinForms.lean ====
/-
  Two arrays joined along an axis, with the pieces as plain arguments.

  The library's `concatenate` takes its pieces as a list of shape-and-array pairs, and its side condition speaks of that
  list; a rewrite of one piece would have to carry the condition along. `cat2` is the same join of two pieces with the
  condition stated about the two shapes only, so that each piece is an ordinary argument: `concat_cat2` says the two forms are
  one function (by definition).
-/
import Idealize.ShloMosaic.PureOps.Ideal

noncomputable section

namespace Idealize.ShloMosaic.JoinForms

open Idealize.ShloMosaic

/-- Two arrays joined along axis `a` of the result shape `t`. -/
def cat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

/-- The library's join of a two-element list of pieces is `cat2` of the pieces. -/
theorem concat_cat2 {α : Type} (t : Shape) (a : Fin t.rank) (s1 s2 : Shape) (x : s1.Idx → α) (y : s2.Idx → α)
    (h : Shape.Concatenates (([(⟨s1, x⟩ : (s : Shape) × (s.Idx → α)), ⟨s2, y⟩]).map
      (fun p : (s : Shape) × (s.Idx → α) => p.1)) t a) :
    concatenate t a [⟨s1, x⟩, ⟨s2, y⟩] h = cat2 t a s1 s2 (show Shape.Concatenates [s1, s2] t a from h) x y := rfl

end Idealize.ShloMosaic.JoinForms

end
-- ==== Proof.Walk.lean ====
/-
  The kernel program's result buffer as the reference's last stage of the arguments.

  The buffer contents at each boundary of the program are a fold: a stretch of host operations applies them in order, a
  kernel launch replaces its output array by the layer of its input arrays (the whole-array forms proved launch by
  launch) and leaves every other buffer alone. Walking the fold backwards from a launch's output — each operation's
  result at its own buffer is its function of its operands' contents, at any other buffer what was there — expresses
  every launch's output by the reference's stage functions of the argument arrays: the host operations between the
  launches are, operation for operation, the reference's own (the edge lists, the degree normalisation, each layer's
  gather, scaling and scatter-add, the concatenations); a bias vector laid out as a row `[1, k]` is its broadcast into
  the second axis; and the all-zero bias row of the four projection launches adds nothing.
-/
import proofs.«113295_j44487271252562_1_alg».proof.Proof.Gen.KernelIdeal.Frame
import proofs.«113295_j44487271252562_1_alg».proof.Proof.RefStages
import proofs.«113295_j44487271252562_1_alg».proof.Proof.Region0
import proofs.«113295_j44487271252562_1_alg».proof.Proof.Region1
import proofs.«113295_j44487271252562_1_alg».proof.Proof.Region2
import proofs.«113295_j44487271252562_1_alg».proof.Proof.Region3
import proofs.«113295_j44487271252562_1_alg».proof.Proof.Region4
import proofs.«113295_j44487271252562_1_alg».proof.Proof.Region5
import proofs.«113295_j44487271252562_1_alg».proof.Proof.Region6
import proofs.«113295_j44487271252562_1_alg».proof.Proof.Region7
import proofs.«113295_j44487271252562_1_alg».proof.Proof.Region8
import proofs.«113295_j44487271252562_1_alg».proof.Proof.Region9
import proofs.«113295_j44487271252562_1_alg».proof.Proof.Region10
import proofs.«113295_j44487271252562_1_alg».proof.Proof.Region11
import proofs.«113295_j44487271252562_1_alg».proof.Proof.Region12
import proofs.«113295_j44487271252562_1_alg».proof.Proof.LibJoinForms
import Idealize.ShloMosaic.Lib.StableHlo.Run

set_option maxRecDepth 16384
set_option maxHeartbeats 4000000

noncomputable section

namespace Cert.KernelIdeal.Gen

open Idealize.ShloMosaic Idealize.ShloMosaic.TcCoe Idealize.SL.Sem
open Idealize.ShloMosaic.Pipeline (Dat)
open Cert.KernelIdeal Idealize.ShloMosaic.JoinForms

variable (m : (ℓ : Loc nD τ sig) → Buf (Elt Ideal) ℓ) (ρ : Dev nD → PrngReg)

/-! ### Launch 0: what its exit holds, buffer by buffer -/

theorem W4_skip (c : Dev nD) (b : Ref sig .tc) (hb : ∀ w, Pipeline.arrRef spec0 w ≠ b) :
    W4 m ρ c (no_index (Proc.devRef .tc b)) = W3 m ρ c (Proc.devRef .tc b) := W4_of_ne m ρ c b hb
theorem W4_in0 (c : Dev nD) : W4 m ρ c (no_index (Proc.devRef .tc main_arg0)) = W3 m ρ c (Proc.devRef .tc main_arg0) :=
  (W4_arr m ρ c 0).trans (((dat0 (V3 m ρ) c).arrAt_in 0 rfl _).trans (A_eq0 (V3 m ρ) c 0))
theorem W4_in1 (c : Dev nD) : W4 m ρ c (no_index (Proc.devRef .tc main_arg2)) = W3 m ρ c (Proc.devRef .tc main_arg2) :=
  (W4_arr m ρ c 1).trans (((dat0 (V3 m ρ) c).arrAt_in 1 rfl _).trans (A_eq0 (V3 m ρ) c 1))
theorem W4_in2 (c : Dev nD) : W4 m ρ c (no_index (Proc.devRef .tc main_v30)) = W3 m ρ c (Proc.devRef .tc main_v30) :=
  (W4_arr m ρ c 2).trans (((dat0 (V3 m ρ) c).arrAt_in 2 rfl _).trans (A_eq0 (V3 m ρ) c 2))
theorem W4_out (c : Dev nD) (B : FVec Ideal Cert.ReferenceIdeal.S1x128 .f32) (hB : W3 m ρ c (Proc.devRef .tc main_v30) = B) :
    W4 m ρ c (Proc.devRef .tc main_v31) = Layers.layer0 (W3 m ρ c (Proc.devRef .tc main_arg0)) (W3 m ρ c (Proc.devRef .tc main_arg2)) B := by
  subst hB; exact (W4_arr m ρ c 3).trans (Layers.out0 (V3 m ρ) c)

/-! ### Launch 1: what its exit holds, buffer by buffer -/

theorem W6_skip (c : Dev nD) (b : Ref sig .tc) (hb : ∀ w, Pipeline.arrRef spec1 w ≠ b) :
    W6 m ρ c (no_index (Proc.devRef .tc b)) = W5 m ρ c (Proc.devRef .tc b) := W6_of_ne m ρ c b hb
theorem W6_in0 (c : Dev nD) : W6 m ρ c (no_index (Proc.devRef .tc main_v31)) = W5 m ρ c (Proc.devRef .tc main_v31) :=
  (W6_arr m ρ c 0).trans (((dat1 (V5 m ρ) c).arrAt_in 0 rfl _).trans (A_eq1 (V5 m ρ) c 0))
theorem W6_in1 (c : Dev nD) : W6 m ρ c (no_index (Proc.devRef .tc main_arg4)) = W5 m ρ c (Proc.devRef .tc main_arg4) :=
  (W6_arr m ρ c 1).trans (((dat1 (V5 m ρ) c).arrAt_in 1 rfl _).trans (A_eq1 (V5 m ρ) c 1))
theorem W6_in2 (c : Dev nD) : W6 m ρ c (no_index (Proc.devRef .tc main_v33)) = W5 m ρ c (Proc.devRef .tc main_v33) :=
  (W6_arr m ρ c 2).trans (((dat1 (V5 m ρ) c).arrAt_in 2 rfl _).trans (A_eq1 (V5 m ρ) c 2))
theorem W6_out (c : Dev nD) (hB : W5 m ρ c (Proc.devRef .tc main_v33) = Layers.zeroRow1) :
    W6 m ρ c (Proc.devRef .tc main_v34) = Layers.layer1 (W5 m ρ c (Proc.devRef .tc main_v31)) (W5 m ρ c (Proc.devRef .tc main_arg4)) :=
  (W6_arr m ρ c 3).trans (Layers.out1 (V5 m ρ) c hB)

/-! ### Launch 2: what its exit holds, buffer by buffer -/

theorem W8_skip (c : Dev nD) (b : Ref sig .tc) (hb : ∀ w, Pipeline.arrRef spec2 w ≠ b) :
    W8 m ρ c (no_index (Proc.devRef .tc b)) = W7 m ρ c (Proc.devRef .tc b) := W8_of_ne m ρ c b hb
theorem W8_in0 (c : Dev nD) : W8 m ρ c (no_index (Proc.devRef .tc main_v47)) = W7 m ρ c (Proc.devRef .tc main_v47) :=
  (W8_arr m ρ c 0).trans (((dat2 (V7 m ρ) c).arrAt_in 0 rfl _).trans (A_eq2 (V7 m ρ) c 0))
theorem W8_in1 (c : Dev nD) : W8 m ρ c (no_index (Proc.devRef .tc main_v48)) = W7 m ρ c (Proc.devRef .tc main_v48) :=
  (W8_arr m ρ c 1).trans (((dat2 (V7 m ρ) c).arrAt_in 1 rfl _).trans (A_eq2 (V7 m ρ) c 1))
theorem W8_out (c : Dev nD) (B : FVec Ideal Cert.ReferenceIdeal.S1x128 .f32) (hB : W7 m ρ c (Proc.devRef .tc main_v48) = B) :
    W8 m ρ c (Proc.devRef .tc main_v49) = Layers.layer2 (W7 m ρ c (Proc.devRef .tc main_v47)) B := by
  subst hB; exact (W8_arr m ρ c 2).trans (Layers.out2 (V7 m ρ) c)

/-! ### Launch 3: what its exit holds, buffer by buffer -/

theorem W10_skip (c : Dev nD) (b : Ref sig .tc) (hb : ∀ w, Pipeline.arrRef spec3 w ≠ b) :
    W10 m ρ c (no_index (Proc.devRef .tc b)) = W9 m ρ c (Proc.devRef .tc b) := W10_of_ne m ρ c b hb
theorem W10_in0 (c : Dev nD) : W10 m ρ c (no_index (Proc.devRef .tc main_v50)) = W9 m ρ c (Proc.devRef .tc main_v50) :=
  (W10_arr m ρ c 0).trans (((dat3 (V9 m ρ) c).arrAt_in 0 rfl _).trans (A_eq3 (V9 m ρ) c 0))
theorem W10_in1 (c : Dev nD) : W10 m ρ c (no_index (Proc.devRef .tc main_arg6)) = W9 m ρ c (Proc.devRef .tc main_arg6) :=
  (W10_arr m ρ c 1).trans (((dat3 (V9 m ρ) c).arrAt_in 1 rfl _).trans (A_eq3 (V9 m ρ) c 1))
theorem W10_in2 (c : Dev nD) : W10 m ρ c (no_index (Proc.devRef .tc main_v51)) = W9 m ρ c (Proc.devRef .tc main_v51) :=
  (W10_arr m ρ c 2).trans (((dat3 (V9 m ρ) c).arrAt_in 2 rfl _).trans (A_eq3 (V9 m ρ) c 2))
theorem W10_out (c : Dev nD) (hB : W9 m ρ c (Proc.devRef .tc main_v51) = Layers.zeroRow3) :
    W10 m ρ c (Proc.devRef .tc main_v52) = Layers.layer3 (W9 m ρ c (Proc.devRef .tc main_v50)) (W9 m ρ c (Proc.devRef .tc main_arg6)) :=
  (W10_arr m ρ c 3).trans (Layers.out3 (V9 m ρ) c hB)

/-! ### Launch 4: what its exit holds, buffer by buffer -/

theorem W12_skip (c : Dev nD) (b : Ref sig .tc) (hb : ∀ w, Pipeline.arrRef spec4 w ≠ b) :
    W12 m ρ c (no_index (Proc.devRef .tc b)) = W11 m ρ c (Proc.devRef .tc b) := W12_of_ne m ρ c b hb
theorem W12_in0 (c : Dev nD) : W12 m ρ c (no_index (Proc.devRef .tc main_v65)) = W11 m ρ c (Proc.devRef .tc main_v65) :=
  (W12_arr m ρ c 0).trans (((dat4 (V11 m ρ) c).arrAt_in 0 rfl _).trans (A_eq4 (V11 m ρ) c 0))
theorem W12_in1 (c : Dev nD) : W12 m ρ c (no_index (Proc.devRef .tc main_v66)) = W11 m ρ c (Proc.devRef .tc main_v66) :=
  (W12_arr m ρ c 1).trans (((dat4 (V11 m ρ) c).arrAt_in 1 rfl _).trans (A_eq4 (V11 m ρ) c 1))
theorem W12_out (c : Dev nD) (B : FVec Ideal Cert.ReferenceIdeal.S1x128 .f32) (hB : W11 m ρ c (Proc.devRef .tc main_v66) = B) :
    W12 m ρ c (Proc.devRef .tc main_v67) = Layers.layer4 (W11 m ρ c (Proc.devRef .tc main_v65)) B := by
  subst hB; exact (W12_arr m ρ c 2).trans (Layers.out4 (V11 m ρ) c)

/-! ### Launch 5: what its exit holds, buffer by buffer -/

theorem W14_skip (c : Dev nD) (b : Ref sig .tc) (hb : ∀ w, Pipeline.arrRef spec5 w ≠ b) :
    W14 m ρ c (no_index (Proc.devRef .tc b)) = W13 m ρ c (Proc.devRef .tc b) := W14_of_ne m ρ c b hb
theorem W14_in0 (c : Dev nD) : W14 m ρ c (no_index (Proc.devRef .tc main_v68)) = W13 m ρ c (Proc.devRef .tc main_v68) :=
  (W14_arr m ρ c 0).trans (((dat5 (V13 m ρ) c).arrAt_in 0 rfl _).trans (A_eq5 (V13 m ρ) c 0))
theorem W14_in1 (c : Dev nD) : W14 m ρ c (no_index (Proc.devRef .tc main_arg8)) = W13 m ρ c (Proc.devRef .tc main_arg8) :=
  (W14_arr m ρ c 1).trans (((dat5 (V13 m ρ) c).arrAt_in 1 rfl _).trans (A_eq5 (V13 m ρ) c 1))
theorem W14_in2 (c : Dev nD) : W14 m ρ c (no_index (Proc.devRef .tc main_v69)) = W13 m ρ c (Proc.devRef .tc main_v69) :=
  (W14_arr m ρ c 2).trans (((dat5 (V13 m ρ) c).arrAt_in 2 rfl _).trans (A_eq5 (V13 m ρ) c 2))
theorem W14_out (c : Dev nD) (hB : W13 m ρ c (Proc.devRef .tc main_v69) = Layers.zeroRow5) :
    W14 m ρ c (Proc.devRef .tc main_v70) = Layers.layer5 (W13 m ρ c (Proc.devRef .tc main_v68)) (W13 m ρ c (Proc.devRef .tc main_arg8)) :=
  (W14_arr m ρ c 3).trans (Layers.out5 (V13 m ρ) c hB)

/-! ### Launch 6: what its exit holds, buffer by buffer -/

theorem W16_skip (c : Dev nD) (b : Ref sig .tc) (hb : ∀ w, Pipeline.arrRef spec6 w ≠ b) :
    W16 m ρ c (no_index (Proc.devRef .tc b)) = W15 m ρ c (Proc.devRef .tc b) := W16_of_ne m ρ c b hb
theorem W16_in0 (c : Dev nD) : W16 m ρ c (no_index (Proc.devRef .tc main_v83)) = W15 m ρ c (Proc.devRef .tc main_v83) :=
  (W16_arr m ρ c 0).trans (((dat6 (V15 m ρ) c).arrAt_in 0 rfl _).trans (A_eq6 (V15 m ρ) c 0))
theorem W16_in1 (c : Dev nD) : W16 m ρ c (no_index (Proc.devRef .tc main_v84)) = W15 m ρ c (Proc.devRef .tc main_v84) :=
  (W16_arr m ρ c 1).trans (((dat6 (V15 m ρ) c).arrAt_in 1 rfl _).trans (A_eq6 (V15 m ρ) c 1))
theorem W16_out (c : Dev nD) (B : FVec Ideal Cert.ReferenceIdeal.S1x128 .f32) (hB : W15 m ρ c (Proc.devRef .tc main_v84) = B) :
    W16 m ρ c (Proc.devRef .tc main_v85) = Layers.layer6 (W15 m ρ c (Proc.devRef .tc main_v83)) B := by
  subst hB; exact (W16_arr m ρ c 2).trans (Layers.out6 (V15 m ρ) c)

/-! ### Launch 7: what its exit holds, buffer by buffer -/

theorem W18_skip (c : Dev nD) (b : Ref sig .tc) (hb : ∀ w, Pipeline.arrRef spec7 w ≠ b) :
    W18 m ρ c (no_index (Proc.devRef .tc b)) = W17 m ρ c (Proc.devRef .tc b) := W18_of_ne m ρ c b hb
theorem W18_in0 (c : Dev nD) : W18 m ρ c (no_index (Proc.devRef .tc main_v86)) = W17 m ρ c (Proc.devRef .tc main_v86) :=
  (W18_arr m ρ c 0).trans (((dat7 (V17 m ρ) c).arrAt_in 0 rfl _).trans (A_eq7 (V17 m ρ) c 0))
theorem W18_in1 (c : Dev nD) : W18 m ρ c (no_index (Proc.devRef .tc main_arg10)) = W17 m ρ c (Proc.devRef .tc main_arg10) :=
  (W18_arr m ρ c 1).trans (((dat7 (V17 m ρ) c).arrAt_in 1 rfl _).trans (A_eq7 (V17 m ρ) c 1))
theorem W18_in2 (c : Dev nD) : W18 m ρ c (no_index (Proc.devRef .tc main_v87)) = W17 m ρ c (Proc.devRef .tc main_v87) :=
  (W18_arr m ρ c 2).trans (((dat7 (V17 m ρ) c).arrAt_in 2 rfl _).trans (A_eq7 (V17 m ρ) c 2))
theorem W18_out (c : Dev nD) (hB : W17 m ρ c (Proc.devRef .tc main_v87) = Layers.zeroRow7) :
    W18 m ρ c (Proc.devRef .tc main_v88) = Layers.layer7 (W17 m ρ c (Proc.devRef .tc main_v86)) (W17 m ρ c (Proc.devRef .tc main_arg10)) :=
  (W18_arr m ρ c 3).trans (Layers.out7 (V17 m ρ) c hB)

/-! ### Launch 8: what its exit holds, buffer by buffer -/

theorem W20_skip (c : Dev nD) (b : Ref sig .tc) (hb : ∀ w, Pipeline.arrRef spec8 w ≠ b) :
    W20 m ρ c (no_index (Proc.devRef .tc b)) = W19 m ρ c (Proc.devRef .tc b) := W20_of_ne m ρ c b hb
theorem W20_in0 (c : Dev nD) : W20 m ρ c (no_index (Proc.devRef .tc main_v101)) = W19 m ρ c (Proc.devRef .tc main_v101) :=
  (W20_arr m ρ c 0).trans (((dat8 (V19 m ρ) c).arrAt_in 0 rfl _).trans (A_eq8 (V19 m ρ) c 0))
theorem W20_in1 (c : Dev nD) : W20 m ρ c (no_index (Proc.devRef .tc main_v102)) = W19 m ρ c (Proc.devRef .tc main_v102) :=
  (W20_arr m ρ c 1).trans (((dat8 (V19 m ρ) c).arrAt_in 1 rfl _).trans (A_eq8 (V19 m ρ) c 1))
theorem W20_out (c : Dev nD) (B : FVec Ideal Cert.ReferenceIdeal.S1x128 .f32) (hB : W19 m ρ c (Proc.devRef .tc main_v102) = B) :
    W20 m ρ c (Proc.devRef .tc main_v103) = Layers.layer8 (W19 m ρ c (Proc.devRef .tc main_v101)) B := by
  subst hB; exact (W20_arr m ρ c 2).trans (Layers.out8 (V19 m ρ) c)

/-! ### Launch 9: what its exit holds, buffer by buffer -/

theorem W22_skip (c : Dev nD) (b : Ref sig .tc) (hb : ∀ w, Pipeline.arrRef spec9 w ≠ b) :
    W22 m ρ c (no_index (Proc.devRef .tc b)) = W21 m ρ c (Proc.devRef .tc b) := W22_of_ne m ρ c b hb
theorem W22_in0 (c : Dev nD) : W22 m ρ c (no_index (Proc.devRef .tc main_v104)) = W21 m ρ c (Proc.devRef .tc main_v104) :=
  (W22_arr m ρ c 0).trans (((dat9 (V21 m ρ) c).arrAt_in 0 rfl _).trans (A_eq9 (V21 m ρ) c 0))
theorem W22_in1 (c : Dev nD) : W22 m ρ c (no_index (Proc.devRef .tc main_arg12)) = W21 m ρ c (Proc.devRef .tc main_arg12) :=
  (W22_arr m ρ c 1).trans (((dat9 (V21 m ρ) c).arrAt_in 1 rfl _).trans (A_eq9 (V21 m ρ) c 1))
theorem W22_in2 (c : Dev nD) : W22 m ρ c (no_index (Proc.devRef .tc main_v105)) = W21 m ρ c (Proc.devRef .tc main_v105) :=
  (W22_arr m ρ c 2).trans (((dat9 (V21 m ρ) c).arrAt_in 2 rfl _).trans (A_eq9 (V21 m ρ) c 2))
theorem W22_out (c : Dev nD) (B : FVec Ideal Cert.ReferenceIdeal.S1x128 .f32) (hB : W21 m ρ c (Proc.devRef .tc main_v105) = B) :
    W22 m ρ c (Proc.devRef .tc main_v106) = Layers.layer9 (W21 m ρ c (Proc.devRef .tc main_v104)) (W21 m ρ c (Proc.devRef .tc main_arg12)) B := by
  subst hB; exact (W22_arr m ρ c 3).trans (Layers.out9 (V21 m ρ) c)

/-! ### Launch 10: what its exit holds, buffer by buffer -/

theorem W24_skip (c : Dev nD) (b : Ref sig .tc) (hb : ∀ w, Pipeline.arrRef spec10 w ≠ b) :
    W24 m ρ c (no_index (Proc.devRef .tc b)) = W23 m ρ c (Proc.devRef .tc b) := W24_of_ne m ρ c b hb
theorem W24_in0 (c : Dev nD) : W24 m ρ c (no_index (Proc.devRef .tc main_v106)) = W23 m ρ c (Proc.devRef .tc main_v106) :=
  (W24_arr m ρ c 0).trans (((dat10 (V23 m ρ) c).arrAt_in 0 rfl _).trans (A_eq10 (V23 m ρ) c 0))
theorem W24_in1 (c : Dev nD) : W24 m ρ c (no_index (Proc.devRef .tc main_arg14)) = W23 m ρ c (Proc.devRef .tc main_arg14) :=
  (W24_arr m ρ c 1).trans (((dat10 (V23 m ρ) c).arrAt_in 1 rfl _).trans (A_eq10 (V23 m ρ) c 1))
theorem W24_in2 (c : Dev nD) : W24 m ρ c (no_index (Proc.devRef .tc main_v107)) = W23 m ρ c (Proc.devRef .tc main_v107) :=
  (W24_arr m ρ c 2).trans (((dat10 (V23 m ρ) c).arrAt_in 2 rfl _).trans (A_eq10 (V23 m ρ) c 2))
theorem W24_out (c : Dev nD) (B : FVec Ideal Cert.ReferenceIdeal.S1x128 .f32) (hB : W23 m ρ c (Proc.devRef .tc main_v107) = B) :
    W24 m ρ c (Proc.devRef .tc main_v108) = Layers.layer10 (W23 m ρ c (Proc.devRef .tc main_v106)) (W23 m ρ c (Proc.devRef .tc main_arg14)) B := by
  subst hB; exact (W24_arr m ρ c 3).trans (Layers.out10 (V23 m ρ) c)

/-! ### Launch 11: what its exit holds, buffer by buffer -/

theorem W26_skip (c : Dev nD) (b : Ref sig .tc) (hb : ∀ w, Pipeline.arrRef spec11 w ≠ b) :
    W26 m ρ c (no_index (Proc.devRef .tc b)) = W25 m ρ c (Proc.devRef .tc b) := W26_of_ne m ρ c b hb
theorem W26_in0 (c : Dev nD) : W26 m ρ c (no_index (Proc.devRef .tc main_v108)) = W25 m ρ c (Proc.devRef .tc main_v108) :=
  (W26_arr m ρ c 0).trans (((dat11 (V25 m ρ) c).arrAt_in 0 rfl _).trans (A_eq11 (V25 m ρ) c 0))
theorem W26_in1 (c : Dev nD) : W26 m ρ c (no_index (Proc.devRef .tc main_arg16)) = W25 m ρ c (Proc.devRef .tc main_arg16) :=
  (W26_arr m ρ c 1).trans (((dat11 (V25 m ρ) c).arrAt_in 1 rfl _).trans (A_eq11 (V25 m ρ) c 1))
theorem W26_in2 (c : Dev nD) : W26 m ρ c (no_index (Proc.devRef .tc main_v109)) = W25 m ρ c (Proc.devRef .tc main_v109) :=
  (W26_arr m ρ c 2).trans (((dat11 (V25 m ρ) c).arrAt_in 2 rfl _).trans (A_eq11 (V25 m ρ) c 2))
theorem W26_out (c : Dev nD) (B : FVec Ideal Cert.ReferenceIdeal.S1x256 .f32) (hB : W25 m ρ c (Proc.devRef .tc main_v109) = B) :
    W26 m ρ c (Proc.devRef .tc main_v110) = Layers.layer11 (W25 m ρ c (Proc.devRef .tc main_v108)) (W25 m ρ c (Proc.devRef .tc main_arg16)) B := by
  subst hB; exact (W26_arr m ρ c 3).trans (Layers.out11 (V25 m ρ) c)

/-! ### Launch 12: what its exit holds, buffer by buffer -/

theorem W28_skip (c : Dev nD) (b : Ref sig .tc) (hb : ∀ w, Pipeline.arrRef spec12 w ≠ b) :
    W28 m ρ c (no_index (Proc.devRef .tc b)) = W27 m ρ c (Proc.devRef .tc b) := W28_of_ne m ρ c b hb
theorem W28_in0 (c : Dev nD) : W28 m ρ c (no_index (Proc.devRef .tc main_v110)) = W27 m ρ c (Proc.devRef .tc main_v110) :=
  (W28_arr m ρ c 0).trans (((dat12 (V27 m ρ) c).arrAt_in 0 rfl _).trans (A_eq12 (V27 m ρ) c 0))
theorem W28_in1 (c : Dev nD) : W28 m ρ c (no_index (Proc.devRef .tc main_arg18)) = W27 m ρ c (Proc.devRef .tc main_arg18) :=
  (W28_arr m ρ c 1).trans (((dat12 (V27 m ρ) c).arrAt_in 1 rfl _).trans (A_eq12 (V27 m ρ) c 1))
theorem W28_in2 (c : Dev nD) : W28 m ρ c (no_index (Proc.devRef .tc main_v111)) = W27 m ρ c (Proc.devRef .tc main_v111) :=
  (W28_arr m ρ c 2).trans (((dat12 (V27 m ρ) c).arrAt_in 2 rfl _).trans (A_eq12 (V27 m ρ) c 2))
theorem W28_out (c : Dev nD) (B : FVec Ideal Cert.ReferenceIdeal.S1x128 .f32) (hB : W27 m ρ c (Proc.devRef .tc main_v111) = B) :
    W28 m ρ c (Proc.devRef .tc main_v112) = Layers.layer12 (W27 m ρ c (Proc.devRef .tc main_v110)) (W27 m ρ c (Proc.devRef .tc main_arg18)) B := by
  subst hB; exact (W28_arr m ρ c 3).trans (Layers.out12 (V27 m ρ) c)

/-! ## The bias rows -/

/-- The bias row of launch 0: the bias vector laid out as one row, which is its broadcast into the second axis. -/
theorem bias0 (c : Dev nD) : W3 m ρ c (Proc.devRef .tc main_v30)
    = broadcastInDim Cert.ReferenceIdeal.S1x128 ![1] Cert.ReferenceIdeal.Facts₀.bcast_S128_S1x128_1 (m ((c.tc : Thread nD τ).loc main_arg3)) := by
  simp (disch := decide) only [W0, W2, W1, W3, W5, W7, W9, W11, W13, W15, W17, W19, W21, W23, W25, W27, hostOps0, hostOps0_1, hostOps0_2, hostOps1, hostOps2, hostOps3, hostOps4, hostOps5, hostOps6, hostOps7, hostOps8, hostOps9, hostOps10, hostOps11, hostOps12, List.flatten_cons, List.flatten_nil, List.append_nil, List.cons_append, List.nil_append, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', W4_skip, W6_skip, W8_skip, W10_skip, W12_skip, W14_skip, W16_skip, W18_skip, W20_skip, W22_skip, W24_skip, W26_skip, W28_skip, W4_in0, W4_in1, W4_in2, W6_in0, W6_in1, W6_in2, W8_in0, W8_in1, W10_in0, W10_in1, W10_in2, W12_in0, W12_in1, W14_in0, W14_in1, W14_in2, W16_in0, W16_in1, W18_in0, W18_in1, W18_in2, W20_in0, W20_in1, W22_in0, W22_in1, W22_in2, W24_in0, W24_in1, W24_in2, W26_in0, W26_in1, W26_in2, W28_in0, W28_in1, W28_in2, concat_cat2, cast_eq]
  exact Idealize.ShloMosaic.RowLayout.rowLayout (n := 128) _ _ _

/-- The bias row of launch 2: the bias vector laid out as one row, which is its broadcast into the second axis. -/
theorem bias2 (c : Dev nD) : W7 m ρ c (Proc.devRef .tc main_v48)
    = broadcastInDim Cert.ReferenceIdeal.S1x128 ![1] Cert.ReferenceIdeal.Facts₀.bcast_S128_S1x128_1 (m ((c.tc : Thread nD τ).loc main_arg5)) := by
  simp (disch := decide) only [W0, W2, W1, W3, W5, W7, W9, W11, W13, W15, W17, W19, W21, W23, W25, W27, hostOps0, hostOps0_1, hostOps0_2, hostOps1, hostOps2, hostOps3, hostOps4, hostOps5, hostOps6, hostOps7, hostOps8, hostOps9, hostOps10, hostOps11, hostOps12, List.flatten_cons, List.flatten_nil, List.append_nil, List.cons_append, List.nil_append, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', W4_skip, W6_skip, W8_skip, W10_skip, W12_skip, W14_skip, W16_skip, W18_skip, W20_skip, W22_skip, W24_skip, W26_skip, W28_skip, W4_in0, W4_in1, W4_in2, W6_in0, W6_in1, W6_in2, W8_in0, W8_in1, W10_in0, W10_in1, W10_in2, W12_in0, W12_in1, W14_in0, W14_in1, W14_in2, W16_in0, W16_in1, W18_in0, W18_in1, W18_in2, W20_in0, W20_in1, W22_in0, W22_in1, W22_in2, W24_in0, W24_in1, W24_in2, W26_in0, W26_in1, W26_in2, W28_in0, W28_in1, W28_in2, concat_cat2, cast_eq]
  exact Idealize.ShloMosaic.RowLayout.rowLayout (n := 128) _ _ _

/-- The bias row of launch 4: the bias vector laid out as one row, which is its broadcast into the second axis. -/
theorem bias4 (c : Dev nD) : W11 m ρ c (Proc.devRef .tc main_v66)
    = broadcastInDim Cert.ReferenceIdeal.S1x128 ![1] Cert.ReferenceIdeal.Facts₀.bcast_S128_S1x128_1 (m ((c.tc : Thread nD τ).loc main_arg7)) := by
  simp (disch := decide) only [W0, W2, W1, W3, W5, W7, W9, W11, W13, W15, W17, W19, W21, W23, W25, W27, hostOps0, hostOps0_1, hostOps0_2, hostOps1, hostOps2, hostOps3, hostOps4, hostOps5, hostOps6, hostOps7, hostOps8, hostOps9, hostOps10, hostOps11, hostOps12, List.flatten_cons, List.flatten_nil, List.append_nil, List.cons_append, List.nil_append, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', W4_skip, W6_skip, W8_skip, W10_skip, W12_skip, W14_skip, W16_skip, W18_skip, W20_skip, W22_skip, W24_skip, W26_skip, W28_skip, W4_in0, W4_in1, W4_in2, W6_in0, W6_in1, W6_in2, W8_in0, W8_in1, W10_in0, W10_in1, W10_in2, W12_in0, W12_in1, W14_in0, W14_in1, W14_in2, W16_in0, W16_in1, W18_in0, W18_in1, W18_in2, W20_in0, W20_in1, W22_in0, W22_in1, W22_in2, W24_in0, W24_in1, W24_in2, W26_in0, W26_in1, W26_in2, W28_in0, W28_in1, W28_in2, concat_cat2, cast_eq]
  exact Idealize.ShloMosaic.RowLayout.rowLayout (n := 128) _ _ _

/-- The bias row of launch 6: the bias vector laid out as one row, which is its broadcast into the second axis. -/
theorem bias6 (c : Dev nD) : W15 m ρ c (Proc.devRef .tc main_v84)
    = broadcastInDim Cert.ReferenceIdeal.S1x128 ![1] Cert.ReferenceIdeal.Facts₀.bcast_S128_S1x128_1 (m ((c.tc : Thread nD τ).loc main_arg9)) := by
  simp (disch := decide) only [W0, W2, W1, W3, W5, W7, W9, W11, W13, W15, W17, W19, W21, W23, W25, W27, hostOps0, hostOps0_1, hostOps0_2, hostOps1, hostOps2, hostOps3, hostOps4, hostOps5, hostOps6, hostOps7, hostOps8, hostOps9, hostOps10, hostOps11, hostOps12, List.flatten_cons, List.flatten_nil, List.append_nil, List.cons_append, List.nil_append, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', W4_skip, W6_skip, W8_skip, W10_skip, W12_skip, W14_skip, W16_skip, W18_skip, W20_skip, W22_skip, W24_skip, W26_skip, W28_skip, W4_in0, W4_in1, W4_in2, W6_in0, W6_in1, W6_in2, W8_in0, W8_in1, W10_in0, W10_in1, W10_in2, W12_in0, W12_in1, W14_in0, W14_in1, W14_in2, W16_in0, W16_in1, W18_in0, W18_in1, W18_in2, W20_in0, W20_in1, W22_in0, W22_in1, W22_in2, W24_in0, W24_in1, W24_in2, W26_in0, W26_in1, W26_in2, W28_in0, W28_in1, W28_in2, concat_cat2, cast_eq]
  exact Idealize.ShloMosaic.RowLayout.rowLayout (n := 128) _ _ _

/-- The bias row of launch 8: the bias vector laid out as one row, which is its broadcast into the second axis. -/
theorem bias8 (c : Dev nD) : W19 m ρ c (Proc.devRef .tc main_v102)
    = broadcastInDim Cert.ReferenceIdeal.S1x128 ![1] Cert.ReferenceIdeal.Facts₀.bcast_S128_S1x128_1 (m ((c.tc : Thread nD τ).loc main_arg11)) := by
  simp (disch := decide) only [W0, W2, W1, W3, W5, W7, W9, W11, W13, W15, W17, W19, W21, W23, W25, W27, hostOps0, hostOps0_1, hostOps0_2, hostOps1, hostOps2, hostOps3, hostOps4, hostOps5, hostOps6, hostOps7, hostOps8, hostOps9, hostOps10, hostOps11, hostOps12, List.flatten_cons, List.flatten_nil, List.append_nil, List.cons_append, List.nil_append, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', W4_skip, W6_skip, W8_skip, W10_skip, W12_skip, W14_skip, W16_skip, W18_skip, W20_skip, W22_skip, W24_skip, W26_skip, W28_skip, W4_in0, W4_in1, W4_in2, W6_in0, W6_in1, W6_in2, W8_in0, W8_in1, W10_in0, W10_in1, W10_in2, W12_in0, W12_in1, W14_in0, W14_in1, W14_in2, W16_in0, W16_in1, W18_in0, W18_in1, W18_in2, W20_in0, W20_in1, W22_in0, W22_in1, W22_in2, W24_in0, W24_in1, W24_in2, W26_in0, W26_in1, W26_in2, W28_in0, W28_in1, W28_in2, concat_cat2, cast_eq]
  exact Idealize.ShloMosaic.RowLayout.rowLayout (n := 128) _ _ _

/-- The bias row of launch 9: the bias vector laid out as one row, which is its broadcast into the second axis. -/
theorem bias9 (c : Dev nD) : W21 m ρ c (Proc.devRef .tc main_v105)
    = broadcastInDim Cert.ReferenceIdeal.S1x128 ![1] Cert.ReferenceIdeal.Facts₀.bcast_S128_S1x128_1 (m ((c.tc : Thread nD τ).loc main_arg13)) := by
  simp (disch := decide) only [W0, W2, W1, W3, W5, W7, W9, W11, W13, W15, W17, W19, W21, W23, W25, W27, hostOps0, hostOps0_1, hostOps0_2, hostOps1, hostOps2, hostOps3, hostOps4, hostOps5, hostOps6, hostOps7, hostOps8, hostOps9, hostOps10, hostOps11, hostOps12, List.flatten_cons, List.flatten_nil, List.append_nil, List.cons_append, List.nil_append, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', W4_skip, W6_skip, W8_skip, W10_skip, W12_skip, W14_skip, W16_skip, W18_skip, W20_skip, W22_skip, W24_skip, W26_skip, W28_skip, W4_in0, W4_in1, W4_in2, W6_in0, W6_in1, W6_in2, W8_in0, W8_in1, W10_in0, W10_in1, W10_in2, W12_in0, W12_in1, W14_in0, W14_in1, W14_in2, W16_in0, W16_in1, W18_in0, W18_in1, W18_in2, W20_in0, W20_in1, W22_in0, W22_in1, W22_in2, W24_in0, W24_in1, W24_in2, W26_in0, W26_in1, W26_in2, W28_in0, W28_in1, W28_in2, concat_cat2, cast_eq]
  exact Idealize.ShloMosaic.RowLayout.rowLayout (n := 128) _ _ _

/-- The bias row of launch 10: the bias vector laid out as one row, which is its broadcast into the second axis. -/
theorem bias10 (c : Dev nD) : W23 m ρ c (Proc.devRef .tc main_v107)
    = broadcastInDim Cert.ReferenceIdeal.S1x128 ![1] Cert.ReferenceIdeal.Facts₀.bcast_S128_S1x128_1 (m ((c.tc : Thread nD τ).loc main_arg15)) := by
  simp (disch := decide) only [W0, W2, W1, W3, W5, W7, W9, W11, W13, W15, W17, W19, W21, W23, W25, W27, hostOps0, hostOps0_1, hostOps0_2, hostOps1, hostOps2, hostOps3, hostOps4, hostOps5, hostOps6, hostOps7, hostOps8, hostOps9, hostOps10, hostOps11, hostOps12, List.flatten_cons, List.flatten_nil, List.append_nil, List.cons_append, List.nil_append, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', W4_skip, W6_skip, W8_skip, W10_skip, W12_skip, W14_skip, W16_skip, W18_skip, W20_skip, W22_skip, W24_skip, W26_skip, W28_skip, W4_in0, W4_in1, W4_in2, W6_in0, W6_in1, W6_in2, W8_in0, W8_in1, W10_in0, W10_in1, W10_in2, W12_in0, W12_in1, W14_in0, W14_in1, W14_in2, W16_in0, W16_in1, W18_in0, W18_in1, W18_in2, W20_in0, W20_in1, W22_in0, W22_in1, W22_in2, W24_in0, W24_in1, W24_in2, W26_in0, W26_in1, W26_in2, W28_in0, W28_in1, W28_in2, concat_cat2, cast_eq]
  exact Idealize.ShloMosaic.RowLayout.rowLayout (n := 128) _ _ _

/-- The bias row of launch 11: the bias vector laid out as one row, which is its broadcast into the second axis. -/
theorem bias11 (c : Dev nD) : W25 m ρ c (Proc.devRef .tc main_v109)
    = broadcastInDim Cert.ReferenceIdeal.S1x256 ![1] Cert.ReferenceIdeal.Facts₀.bcast_S256_S1x256_1 (m ((c.tc : Thread nD τ).loc main_arg17)) := by
  simp (disch := decide) only [W0, W2, W1, W3, W5, W7, W9, W11, W13, W15, W17, W19, W21, W23, W25, W27, hostOps0, hostOps0_1, hostOps0_2, hostOps1, hostOps2, hostOps3, hostOps4, hostOps5, hostOps6, hostOps7, hostOps8, hostOps9, hostOps10, hostOps11, hostOps12, List.flatten_cons, List.flatten_nil, List.append_nil, List.cons_append, List.nil_append, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', W4_skip, W6_skip, W8_skip, W10_skip, W12_skip, W14_skip, W16_skip, W18_skip, W20_skip, W22_skip, W24_skip, W26_skip, W28_skip, W4_in0, W4_in1, W4_in2, W6_in0, W6_in1, W6_in2, W8_in0, W8_in1, W10_in0, W10_in1, W10_in2, W12_in0, W12_in1, W14_in0, W14_in1, W14_in2, W16_in0, W16_in1, W18_in0, W18_in1, W18_in2, W20_in0, W20_in1, W22_in0, W22_in1, W22_in2, W24_in0, W24_in1, W24_in2, W26_in0, W26_in1, W26_in2, W28_in0, W28_in1, W28_in2, concat_cat2, cast_eq]
  exact Idealize.ShloMosaic.RowLayout.rowLayout (n := 256) _ _ _

/-- The bias row of launch 12: the bias vector laid out as one row, which is its broadcast into the second axis. -/
theorem bias12 (c : Dev nD) : W27 m ρ c (Proc.devRef .tc main_v111)
    = broadcastInDim Cert.ReferenceIdeal.S1x128 ![1] Cert.ReferenceIdeal.Facts₀.bcast_S128_S1x128_1 (m ((c.tc : Thread nD τ).loc main_arg19)) := by
  simp (disch := decide) only [W0, W2, W1, W3, W5, W7, W9, W11, W13, W15, W17, W19, W21, W23, W25, W27, hostOps0, hostOps0_1, hostOps0_2, hostOps1, hostOps2, hostOps3, hostOps4, hostOps5, hostOps6, hostOps7, hostOps8, hostOps9, hostOps10, hostOps11, hostOps12, List.flatten_cons, List.flatten_nil, List.append_nil, List.cons_append, List.nil_append, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', W4_skip, W6_skip, W8_skip, W10_skip, W12_skip, W14_skip, W16_skip, W18_skip, W20_skip, W22_skip, W24_skip, W26_skip, W28_skip, W4_in0, W4_in1, W4_in2, W6_in0, W6_in1, W6_in2, W8_in0, W8_in1, W10_in0, W10_in1, W10_in2, W12_in0, W12_in1, W14_in0, W14_in1, W14_in2, W16_in0, W16_in1, W18_in0, W18_in1, W18_in2, W20_in0, W20_in1, W22_in0, W22_in1, W22_in2, W24_in0, W24_in1, W24_in2, W26_in0, W26_in1, W26_in2, W28_in0, W28_in1, W28_in2, concat_cat2, cast_eq]
  exact Idealize.ShloMosaic.RowLayout.rowLayout (n := 128) _ _ _

/-- The bias row of launch 1 is all zeros. -/
theorem zero1 (c : Dev nD) : W5 m ρ c (Proc.devRef .tc main_v33) = Layers.zeroRow1 := by
  simp (disch := decide) only [W0, W2, W1, W3, W5, W7, W9, W11, W13, W15, W17, W19, W21, W23, W25, W27, hostOps0, hostOps0_1, hostOps0_2, hostOps1, hostOps2, hostOps3, hostOps4, hostOps5, hostOps6, hostOps7, hostOps8, hostOps9, hostOps10, hostOps11, hostOps12, List.flatten_cons, List.flatten_nil, List.append_nil, List.cons_append, List.nil_append, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', W4_skip, W6_skip, W8_skip, W10_skip, W12_skip, W14_skip, W16_skip, W18_skip, W20_skip, W22_skip, W24_skip, W26_skip, W28_skip, W4_in0, W4_in1, W4_in2, W6_in0, W6_in1, W6_in2, W8_in0, W8_in1, W10_in0, W10_in1, W10_in2, W12_in0, W12_in1, W14_in0, W14_in1, W14_in2, W16_in0, W16_in1, W18_in0, W18_in1, W18_in2, W20_in0, W20_in1, W22_in0, W22_in1, W22_in2, W24_in0, W24_in1, W24_in2, W26_in0, W26_in1, W26_in2, W28_in0, W28_in1, W28_in2, concat_cat2, cast_eq]
  rfl

/-- The bias row of launch 3 is all zeros. -/
theorem zero3 (c : Dev nD) : W9 m ρ c (Proc.devRef .tc main_v51) = Layers.zeroRow3 := by
  simp (disch := decide) only [W0, W2, W1, W3, W5, W7, W9, W11, W13, W15, W17, W19, W21, W23, W25, W27, hostOps0, hostOps0_1, hostOps0_2, hostOps1, hostOps2, hostOps3, hostOps4, hostOps5, hostOps6, hostOps7, hostOps8, hostOps9, hostOps10, hostOps11, hostOps12, List.flatten_cons, List.flatten_nil, List.append_nil, List.cons_append, List.nil_append, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', W4_skip, W6_skip, W8_skip, W10_skip, W12_skip, W14_skip, W16_skip, W18_skip, W20_skip, W22_skip, W24_skip, W26_skip, W28_skip, W4_in0, W4_in1, W4_in2, W6_in0, W6_in1, W6_in2, W8_in0, W8_in1, W10_in0, W10_in1, W10_in2, W12_in0, W12_in1, W14_in0, W14_in1, W14_in2, W16_in0, W16_in1, W18_in0, W18_in1, W18_in2, W20_in0, W20_in1, W22_in0, W22_in1, W22_in2, W24_in0, W24_in1, W24_in2, W26_in0, W26_in1, W26_in2, W28_in0, W28_in1, W28_in2, concat_cat2, cast_eq]
  rfl

/-- The bias row of launch 5 is all zeros. -/
theorem zero5 (c : Dev nD) : W13 m ρ c (Proc.devRef .tc main_v69) = Layers.zeroRow5 := by
  simp (disch := decide) only [W0, W2, W1, W3, W5, W7, W9, W11, W13, W15, W17, W19, W21, W23, W25, W27, hostOps0, hostOps0_1, hostOps0_2, hostOps1, hostOps2, hostOps3, hostOps4, hostOps5, hostOps6, hostOps7, hostOps8, hostOps9, hostOps10, hostOps11, hostOps12, List.flatten_cons, List.flatten_nil, List.append_nil, List.cons_append, List.nil_append, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', W4_skip, W6_skip, W8_skip, W10_skip, W12_skip, W14_skip, W16_skip, W18_skip, W20_skip, W22_skip, W24_skip, W26_skip, W28_skip, W4_in0, W4_in1, W4_in2, W6_in0, W6_in1, W6_in2, W8_in0, W8_in1, W10_in0, W10_in1, W10_in2, W12_in0, W12_in1, W14_in0, W14_in1, W14_in2, W16_in0, W16_in1, W18_in0, W18_in1, W18_in2, W20_in0, W20_in1, W22_in0, W22_in1, W22_in2, W24_in0, W24_in1, W24_in2, W26_in0, W26_in1, W26_in2, W28_in0, W28_in1, W28_in2, concat_cat2, cast_eq]
  rfl

/-- The bias row of launch 7 is all zeros. -/
theorem zero7 (c : Dev nD) : W17 m ρ c (Proc.devRef .tc main_v87) = Layers.zeroRow7 := by
  simp (disch := decide) only [W0, W2, W1, W3, W5, W7, W9, W11, W13, W15, W17, W19, W21, W23, W25, W27, hostOps0, hostOps0_1, hostOps0_2, hostOps1, hostOps2, hostOps3, hostOps4, hostOps5, hostOps6, hostOps7, hostOps8, hostOps9, hostOps10, hostOps11, hostOps12, List.flatten_cons, List.flatten_nil, List.append_nil, List.cons_append, List.nil_append, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', W4_skip, W6_skip, W8_skip, W10_skip, W12_skip, W14_skip, W16_skip, W18_skip, W20_skip, W22_skip, W24_skip, W26_skip, W28_skip, W4_in0, W4_in1, W4_in2, W6_in0, W6_in1, W6_in2, W8_in0, W8_in1, W10_in0, W10_in1, W10_in2, W12_in0, W12_in1, W14_in0, W14_in1, W14_in2, W16_in0, W16_in1, W18_in0, W18_in1, W18_in2, W20_in0, W20_in1, W22_in0, W22_in1, W22_in2, W24_in0, W24_in1, W24_in2, W26_in0, W26_in1, W26_in2, W28_in0, W28_in1, W28_in2, concat_cat2, cast_eq]
  rfl

/-! ## The launches' results, in order -/

/-- Launch 0's result is the reference's stage 33 of the arguments. -/
theorem stage0 (c : Dev nD) : W4 m ρ c (no_index (Proc.devRef .tc main_v31))
    = Cert.ReferenceIdeal.ReadP.val_main_v33 (F := Ideal) (m ((c.tc : Thread nD τ).loc main_arg0)) (m ((c.tc : Thread nD τ).loc main_arg2)) (m ((c.tc : Thread nD τ).loc main_arg3)) := by
  refine (W4_out m ρ c _ (bias0 m ρ c)).trans ?_
  simp (disch := decide) only [W0, W2, W1, W3, W5, W7, W9, W11, W13, W15, W17, W19, W21, W23, W25, W27, hostOps0, hostOps0_1, hostOps0_2, hostOps1, hostOps2, hostOps3, hostOps4, hostOps5, hostOps6, hostOps7, hostOps8, hostOps9, hostOps10, hostOps11, hostOps12, List.flatten_cons, List.flatten_nil, List.append_nil, List.cons_append, List.nil_append, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', W4_skip, W6_skip, W8_skip, W10_skip, W12_skip, W14_skip, W16_skip, W18_skip, W20_skip, W22_skip, W24_skip, W26_skip, W28_skip, W4_in0, W4_in1, W4_in2, W6_in0, W6_in1, W6_in2, W8_in0, W8_in1, W10_in0, W10_in1, W10_in2, W12_in0, W12_in1, W14_in0, W14_in1, W14_in2, W16_in0, W16_in1, W18_in0, W18_in1, W18_in2, W20_in0, W20_in1, W22_in0, W22_in1, W22_in2, W24_in0, W24_in1, W24_in2, W26_in0, W26_in1, W26_in2, W28_in0, W28_in1, W28_in2, concat_cat2, cast_eq]
  rfl

/-- Launch 1's result is the reference's stage 34 of the arguments. -/
theorem stage1 (c : Dev nD) : W6 m ρ c (no_index (Proc.devRef .tc main_v34))
    = Cert.ReferenceIdeal.ReadP.val_main_v34 (F := Ideal) (m ((c.tc : Thread nD τ).loc main_arg0)) (m ((c.tc : Thread nD τ).loc main_arg2)) (m ((c.tc : Thread nD τ).loc main_arg3)) (m ((c.tc : Thread nD τ).loc main_arg4)) := by
  refine (W6_out m ρ c (zero1 m ρ c)).trans ?_
  simp (disch := decide) only [W0, W2, W1, W3, W5, W7, W9, W11, W13, W15, W17, W19, W21, W23, W25, W27, hostOps0, hostOps0_1, hostOps0_2, hostOps1, hostOps2, hostOps3, hostOps4, hostOps5, hostOps6, hostOps7, hostOps8, hostOps9, hostOps10, hostOps11, hostOps12, List.flatten_cons, List.flatten_nil, List.append_nil, List.cons_append, List.nil_append, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', W4_skip, W6_skip, W8_skip, W10_skip, W12_skip, W14_skip, W16_skip, W18_skip, W20_skip, W22_skip, W24_skip, W26_skip, W28_skip, W4_in0, W4_in1, W4_in2, W6_in0, W6_in1, W6_in2, W8_in0, W8_in1, W10_in0, W10_in1, W10_in2, W12_in0, W12_in1, W14_in0, W14_in1, W14_in2, W16_in0, W16_in1, W18_in0, W18_in1, W18_in2, W20_in0, W20_in1, W22_in0, W22_in1, W22_in2, W24_in0, W24_in1, W24_in2, W26_in0, W26_in1, W26_in2, W28_in0, W28_in1, W28_in2, concat_cat2, cast_eq, stage0]
  rfl

/-- Launch 2's result is the reference's stage 51 of the arguments. -/
theorem stage2 (c : Dev nD) : W8 m ρ c (no_index (Proc.devRef .tc main_v49))
    = Cert.ReferenceIdeal.ReadP.val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W8_out m ρ c _ (bias2 m ρ c)).trans ?_
  simp (disch := decide) only [W0, W2, W1, W3, W5, W7, W9, W11, W13, W15, W17, W19, W21, W23, W25, W27, hostOps0, hostOps0_1, hostOps0_2, hostOps1, hostOps2, hostOps3, hostOps4, hostOps5, hostOps6, hostOps7, hostOps8, hostOps9, hostOps10, hostOps11, hostOps12, List.flatten_cons, List.flatten_nil, List.append_nil, List.cons_append, List.nil_append, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', W4_skip, W6_skip, W8_skip, W10_skip, W12_skip, W14_skip, W16_skip, W18_skip, W20_skip, W22_skip, W24_skip, W26_skip, W28_skip, W4_in0, W4_in1, W4_in2, W6_in0, W6_in1, W6_in2, W8_in0, W8_in1, W10_in0, W10_in1, W10_in2, W12_in0, W12_in1, W14_in0, W14_in1, W14_in2, W16_in0, W16_in1, W18_in0, W18_in1, W18_in2, W20_in0, W20_in1, W22_in0, W22_in1, W22_in2, W24_in0, W24_in1, W24_in2, W26_in0, W26_in1, W26_in2, W28_in0, W28_in1, W28_in2, concat_cat2, cast_eq, stage0, stage1]
  rfl

/-- Launch 3's result is the reference's stage 53 of the arguments. -/
theorem stage3 (c : Dev nD) : W10 m ρ c (no_index (Proc.devRef .tc main_v52))
    = Cert.ReferenceIdeal.ReadP.val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W10_out m ρ c (zero3 m ρ c)).trans ?_
  simp (disch := decide) only [W0, W2, W1, W3, W5, W7, W9, W11, W13, W15, W17, W19, W21, W23, W25, W27, hostOps0, hostOps0_1, hostOps0_2, hostOps1, hostOps2, hostOps3, hostOps4, hostOps5, hostOps6, hostOps7, hostOps8, hostOps9, hostOps10, hostOps11, hostOps12, List.flatten_cons, List.flatten_nil, List.append_nil, List.cons_append, List.nil_append, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', W4_skip, W6_skip, W8_skip, W10_skip, W12_skip, W14_skip, W16_skip, W18_skip, W20_skip, W22_skip, W24_skip, W26_skip, W28_skip, W4_in0, W4_in1, W4_in2, W6_in0, W6_in1, W6_in2, W8_in0, W8_in1, W10_in0, W10_in1, W10_in2, W12_in0, W12_in1, W14_in0, W14_in1, W14_in2, W16_in0, W16_in1, W18_in0, W18_in1, W18_in2, W20_in0, W20_in1, W22_in0, W22_in1, W22_in2, W24_in0, W24_in1, W24_in2, W26_in0, W26_in1, W26_in2, W28_in0, W28_in1, W28_in2, concat_cat2, cast_eq, stage0, stage1, stage2]
  rfl

/-- Launch 4's result is the reference's stage 70 of the arguments. -/
theorem stage4 (c : Dev nD) : W12 m ρ c (no_index (Proc.devRef .tc main_v67))
    = Cert.ReferenceIdeal.ReadP.val_main_v70 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W12_out m ρ c _ (bias4 m ρ c)).trans ?_
  simp (disch := decide) only [W0, W2, W1, W3, W5, W7, W9, W11, W13, W15, W17, W19, W21, W23, W25, W27, hostOps0, hostOps0_1, hostOps0_2, hostOps1, hostOps2, hostOps3, hostOps4, hostOps5, hostOps6, hostOps7, hostOps8, hostOps9, hostOps10, hostOps11, hostOps12, List.flatten_cons, List.flatten_nil, List.append_nil, List.cons_append, List.nil_append, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', W4_skip, W6_skip, W8_skip, W10_skip, W12_skip, W14_skip, W16_skip, W18_skip, W20_skip, W22_skip, W24_skip, W26_skip, W28_skip, W4_in0, W4_in1, W4_in2, W6_in0, W6_in1, W6_in2, W8_in0, W8_in1, W10_in0, W10_in1, W10_in2, W12_in0, W12_in1, W14_in0, W14_in1, W14_in2, W16_in0, W16_in1, W18_in0, W18_in1, W18_in2, W20_in0, W20_in1, W22_in0, W22_in1, W22_in2, W24_in0, W24_in1, W24_in2, W26_in0, W26_in1, W26_in2, W28_in0, W28_in1, W28_in2, concat_cat2, cast_eq, stage0, stage1, stage2, stage3]
  rfl

/-- Launch 5's result is the reference's stage 72 of the arguments. -/
theorem stage5 (c : Dev nD) : W14 m ρ c (no_index (Proc.devRef .tc main_v70))
    = Cert.ReferenceIdeal.ReadP.val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (W14_out m ρ c (zero5 m ρ c)).trans ?_
  simp (disch := decide) only [W0, W2, W1, W3, W5, W7, W9, W11, W13, W15, W17, W19, W21, W23, W25, W27, hostOps0, hostOps0_1, hostOps0_2, hostOps1, hostOps2, hostOps3, hostOps4, hostOps5, hostOps6, hostOps7, hostOps8, hostOps9, hostOps10, hostOps11, hostOps12, List.flatten_cons, List.flatten_nil, List.append_nil, List.cons_append, List.nil_append, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', W4_skip, W6_skip, W8_skip, W10_skip, W12_skip, W14_skip, W16_skip, W18_skip, W20_skip, W22_skip, W24_skip, W26_skip, W28_skip, W4_in0, W4_in1, W4_in2, W6_in0, W6_in1, W6_in2, W8_in0, W8_in1, W10_in0, W10_in1, W10_in2, W12_in0, W12_in1, W14_in0, W14_in1, W14_in2, W16_in0, W16_in1, W18_in0, W18_in1, W18_in2, W20_in0, W20_in1, W22_in0, W22_in1, W22_in2, W24_in0, W24_in1, W24_in2, W26_in0, W26_in1, W26_in2, W28_in0, W28_in1, W28_in2, concat_cat2, cast_eq, stage0, stage1, stage2, stage3, stage4]
  rfl

/-- Launch 6's result is the reference's stage 89 of the arguments. -/
theorem stage6 (c : Dev nD) : W16 m ρ c (no_index (Proc.devRef .tc main_v85))
    = Cert.ReferenceIdeal.ReadP.val_main_v89 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W16_out m ρ c _ (bias6 m ρ c)).trans ?_
  simp (disch := decide) only [W0, W2, W1, W3, W5, W7, W9, W11, W13, W15, W17, W19, W21, W23, W25, W27, hostOps0, hostOps0_1, hostOps0_2, hostOps1, hostOps2, hostOps3, hostOps4, hostOps5, hostOps6, hostOps7, hostOps8, hostOps9, hostOps10, hostOps11, hostOps12, List.flatten_cons, List.flatten_nil, List.append_nil, List.cons_append, List.nil_append, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', W4_skip, W6_skip, W8_skip, W10_skip, W12_skip, W14_skip, W16_skip, W18_skip, W20_skip, W22_skip, W24_skip, W26_skip, W28_skip, W4_in0, W4_in1, W4_in2, W6_in0, W6_in1, W6_in2, W8_in0, W8_in1, W10_in0, W10_in1, W10_in2, W12_in0, W12_in1, W14_in0, W14_in1, W14_in2, W16_in0, W16_in1, W18_in0, W18_in1, W18_in2, W20_in0, W20_in1, W22_in0, W22_in1, W22_in2, W24_in0, W24_in1, W24_in2, W26_in0, W26_in1, W26_in2, W28_in0, W28_in1, W28_in2, concat_cat2, cast_eq, stage0, stage1, stage2, stage3, stage4, stage5]
  rfl

/-- Launch 7's result is the reference's stage 91 of the arguments. -/
theorem stage7 (c : Dev nD) : W18 m ρ c (no_index (Proc.devRef .tc main_v88))
    = Cert.ReferenceIdeal.ReadP.val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W18_out m ρ c (zero7 m ρ c)).trans ?_
  simp (disch := decide) only [W0, W2, W1, W3, W5, W7, W9, W11, W13, W15, W17, W19, W21, W23, W25, W27, hostOps0, hostOps0_1, hostOps0_2, hostOps1, hostOps2, hostOps3, hostOps4, hostOps5, hostOps6, hostOps7, hostOps8, hostOps9, hostOps10, hostOps11, hostOps12, List.flatten_cons, List.flatten_nil, List.append_nil, List.cons_append, List.nil_append, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', W4_skip, W6_skip, W8_skip, W10_skip, W12_skip, W14_skip, W16_skip, W18_skip, W20_skip, W22_skip, W24_skip, W26_skip, W28_skip, W4_in0, W4_in1, W4_in2, W6_in0, W6_in1, W6_in2, W8_in0, W8_in1, W10_in0, W10_in1, W10_in2, W12_in0, W12_in1, W14_in0, W14_in1, W14_in2, W16_in0, W16_in1, W18_in0, W18_in1, W18_in2, W20_in0, W20_in1, W22_in0, W22_in1, W22_in2, W24_in0, W24_in1, W24_in2, W26_in0, W26_in1, W26_in2, W28_in0, W28_in1, W28_in2, concat_cat2, cast_eq, stage0, stage1, stage2, stage3, stage4, stage5, stage6]
  rfl

/-- Launch 8's result is the reference's stage 108 of the arguments. -/
theorem stage8 (c : Dev nD) : W20 m ρ c (no_index (Proc.devRef .tc main_v103))
    = Cert.ReferenceIdeal.ReadP.val_main_v108 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W20_out m ρ c _ (bias8 m ρ c)).trans ?_
  simp (disch := decide) only [W0, W2, W1, W3, W5, W7, W9, W11, W13, W15, W17, W19, W21, W23, W25, W27, hostOps0, hostOps0_1, hostOps0_2, hostOps1, hostOps2, hostOps3, hostOps4, hostOps5, hostOps6, hostOps7, hostOps8, hostOps9, hostOps10, hostOps11, hostOps12, List.flatten_cons, List.flatten_nil, List.append_nil, List.cons_append, List.nil_append, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', W4_skip, W6_skip, W8_skip, W10_skip, W12_skip, W14_skip, W16_skip, W18_skip, W20_skip, W22_skip, W24_skip, W26_skip, W28_skip, W4_in0, W4_in1, W4_in2, W6_in0, W6_in1, W6_in2, W8_in0, W8_in1, W10_in0, W10_in1, W10_in2, W12_in0, W12_in1, W14_in0, W14_in1, W14_in2, W16_in0, W16_in1, W18_in0, W18_in1, W18_in2, W20_in0, W20_in1, W22_in0, W22_in1, W22_in2, W24_in0, W24_in1, W24_in2, W26_in0, W26_in1, W26_in2, W28_in0, W28_in1, W28_in2, concat_cat2, cast_eq, stage0, stage1, stage2, stage3, stage4, stage5, stage6, stage7]
  rfl

/-- Launch 9's result is the reference's stage 118 of the arguments. -/
theorem stage9 (c : Dev nD) : W22 m ρ c (no_index (Proc.devRef .tc main_v106))
    = Cert.ReferenceIdeal.ReadP.val_main_v118 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine (W22_out m ρ c _ (bias9 m ρ c)).trans ?_
  simp (disch := decide) only [W0, W2, W1, W3, W5, W7, W9, W11, W13, W15, W17, W19, W21, W23, W25, W27, hostOps0, hostOps0_1, hostOps0_2, hostOps1, hostOps2, hostOps3, hostOps4, hostOps5, hostOps6, hostOps7, hostOps8, hostOps9, hostOps10, hostOps11, hostOps12, List.flatten_cons, List.flatten_nil, List.append_nil, List.cons_append, List.nil_append, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', W4_skip, W6_skip, W8_skip, W10_skip, W12_skip, W14_skip, W16_skip, W18_skip, W20_skip, W22_skip, W24_skip, W26_skip, W28_skip, W4_in0, W4_in1, W4_in2, W6_in0, W6_in1, W6_in2, W8_in0, W8_in1, W10_in0, W10_in1, W10_in2, W12_in0, W12_in1, W14_in0, W14_in1, W14_in2, W16_in0, W16_in1, W18_in0, W18_in1, W18_in2, W20_in0, W20_in1, W22_in0, W22_in1, W22_in2, W24_in0, W24_in1, W24_in2, W26_in0, W26_in1, W26_in2, W28_in0, W28_in1, W28_in2, concat_cat2, cast_eq, stage0, stage1, stage2, stage3, stage4, stage5, stage6, stage7, stage8]
  rfl

/-- Launch 10's result is the reference's stage 123 of the arguments. -/
theorem stage10 (c : Dev nD) : W24 m ρ c (no_index (Proc.devRef .tc main_v108))
    = Cert.ReferenceIdeal.ReadP.val_main_v123 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  refine (W24_out m ρ c _ (bias10 m ρ c)).trans ?_
  simp (disch := decide) only [W0, W2, W1, W3, W5, W7, W9, W11, W13, W15, W17, W19, W21, W23, W25, W27, hostOps0, hostOps0_1, hostOps0_2, hostOps1, hostOps2, hostOps3, hostOps4, hostOps5, hostOps6, hostOps7, hostOps8, hostOps9, hostOps10, hostOps11, hostOps12, List.flatten_cons, List.flatten_nil, List.append_nil, List.cons_append, List.nil_append, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', W4_skip, W6_skip, W8_skip, W10_skip, W12_skip, W14_skip, W16_skip, W18_skip, W20_skip, W22_skip, W24_skip, W26_skip, W28_skip, W4_in0, W4_in1, W4_in2, W6_in0, W6_in1, W6_in2, W8_in0, W8_in1, W10_in0, W10_in1, W10_in2, W12_in0, W12_in1, W14_in0, W14_in1, W14_in2, W16_in0, W16_in1, W18_in0, W18_in1, W18_in2, W20_in0, W20_in1, W22_in0, W22_in1, W22_in2, W24_in0, W24_in1, W24_in2, W26_in0, W26_in1, W26_in2, W28_in0, W28_in1, W28_in2, concat_cat2, cast_eq, stage0, stage1, stage2, stage3, stage4, stage5, stage6, stage7, stage8, stage9]
  rfl

/-- Launch 11's result is the reference's stage 128 of the arguments. -/
theorem stage11 (c : Dev nD) : W26 m ρ c (no_index (Proc.devRef .tc main_v110))
    = Cert.ReferenceIdeal.ReadP.val_main_v128 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  refine (W26_out m ρ c _ (bias11 m ρ c)).trans ?_
  simp (disch := decide) only [W0, W2, W1, W3, W5, W7, W9, W11, W13, W15, W17, W19, W21, W23, W25, W27, hostOps0, hostOps0_1, hostOps0_2, hostOps1, hostOps2, hostOps3, hostOps4, hostOps5, hostOps6, hostOps7, hostOps8, hostOps9, hostOps10, hostOps11, hostOps12, List.flatten_cons, List.flatten_nil, List.append_nil, List.cons_append, List.nil_append, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', W4_skip, W6_skip, W8_skip, W10_skip, W12_skip, W14_skip, W16_skip, W18_skip, W20_skip, W22_skip, W24_skip, W26_skip, W28_skip, W4_in0, W4_in1, W4_in2, W6_in0, W6_in1, W6_in2, W8_in0, W8_in1, W10_in0, W10_in1, W10_in2, W12_in0, W12_in1, W14_in0, W14_in1, W14_in2, W16_in0, W16_in1, W18_in0, W18_in1, W18_in2, W20_in0, W20_in1, W22_in0, W22_in1, W22_in2, W24_in0, W24_in1, W24_in2, W26_in0, W26_in1, W26_in2, W28_in0, W28_in1, W28_in2, concat_cat2, cast_eq, stage0, stage1, stage2, stage3, stage4, stage5, stage6, stage7, stage8, stage9, stage10]
  rfl

/-- Launch 12's result is the reference's stage 132 of the arguments. -/
theorem stage12 (c : Dev nD) : W28 m ρ c (no_index (Proc.devRef .tc main_v112))
    = Cert.ReferenceIdeal.ReadP.val_main_v132 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  refine (W28_out m ρ c _ (bias12 m ρ c)).trans ?_
  simp (disch := decide) only [W0, W2, W1, W3, W5, W7, W9, W11, W13, W15, W17, W19, W21, W23, W25, W27, hostOps0, hostOps0_1, hostOps0_2, hostOps1, hostOps2, hostOps3, hostOps4, hostOps5, hostOps6, hostOps7, hostOps8, hostOps9, hostOps10, hostOps11, hostOps12, List.flatten_cons, List.flatten_nil, List.append_nil, List.cons_append, List.nil_append, StableHlo.after_cons, StableHlo.after_nil, StableHlo.nullary_result', StableHlo.unary_result', StableHlo.binary_result', StableHlo.ternary_result', StableHlo.quaternary_result', StableHlo.reshape_result', StableHlo.nary4_result', StableHlo.nary_result', StableHlo.unaryIndexed_result', StableHlo.binaryIndexed_result', StableHlo.nullary_result_ne', StableHlo.unary_result_ne', StableHlo.binary_result_ne', StableHlo.ternary_result_ne', StableHlo.quaternary_result_ne', StableHlo.reshape_result_ne', StableHlo.nary_result_ne', StableHlo.unaryIndexed_result_ne', StableHlo.binaryIndexed_result_ne', W4_skip, W6_skip, W8_skip, W10_skip, W12_skip, W14_skip, W16_skip, W18_skip, W20_skip, W22_skip, W24_skip, W26_skip, W28_skip, W4_in0, W4_in1, W4_in2, W6_in0, W6_in1, W6_in2, W8_in0, W8_in1, W10_in0, W10_in1, W10_in2, W12_in0, W12_in1, W14_in0, W14_in1, W14_in2, W16_in0, W16_in1, W18_in0, W18_in1, W18_in2, W20_in0, W20_in1, W22_in0, W22_in1, W22_in2, W24_in0, W24_in1, W24_in2, W26_in0, W26_in1, W26_in2, W28_in0, W28_in1, W28_in2, concat_cat2, cast_eq, stage0, stage1, stage2, stage3, stage4, stage5, stage6, stage7, stage8, stage9, stage10, stage11]
  rfl

end Cert.KernelIdeal.Gen

end
-- ==== Proof.RefValue.lean ====
/-
  The reference program's run, read back at its result buffer.

  The reference is a straight line of host operations. Every weakly fair execution terminates with each buffer at the
  fold of the operations' results over the launch contents; walking that fold backwards from the result buffer — an
  operation's result at its own buffer is its function of its operands' contents, at any other buffer what was there —
  gives the composed term of the argument arrays, which is the last of the reference's stage functions. No operation
  writes an argument buffer, so the arguments end as launched.
-/
import proofs.«113295_j44487271252562_1_alg».proof.Proof.RefOps
import proofs.«113295_j44487271252562_1_alg».proof.Proof.RefStages
import proofs.«113295_j44487271252562_1_alg».proof.Proof.LibJoinForms
import Idealize.ShloMosaic.Lib.StableHlo.Run

set_option maxRecDepth 16384
set_option maxHeartbeats 4000000

noncomputable section

namespace Cert.ReferenceIdeal.RefValue

open Cert.ReferenceIdeal Cert.ReferenceIdeal.Gen Cert.ReferenceIdeal.ValueP Idealize.ShloMosaic Idealize.ShloMosaic.TcCoe Idealize.SL.Sem Idealize.ShloMosaic.StableHlo

variable (m : (ℓ : Loc nD τ sig) → Buf (Elt Ideal) ℓ) (ρ : Dev nD → PrngReg)

/-- The fold of the operations at the result buffer is the last stage of the arguments. -/
theorem result_value (c : Dev nD) :
    after (ops (F := Ideal)) (launchContents m c) (Proc.devRef .tc main_v132)
      = Cert.ReferenceIdeal.ReadP.val_main_v132 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) := by
  simp (disch := decide) only [ops, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', Idealize.ShloMosaic.JoinForms.concat_cat2, cast_eq]
  rfl

/-- Every weakly fair execution of the reference terminates, nothing faulting, with the result buffer at the last stage
    of the arguments and the arguments as launched. -/
theorem run : θ_run defs (onTc (τ := τ) (main (F := Ideal))) ⟨m, fun _ => 0, ρ⟩ fun r => ∀ c : Dev nD,
      r.2.mem ((c.tc : Thread nD τ).loc main_v132) = Cert.ReferenceIdeal.ReadP.val_main_v132 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) :=
  (θ_run defs _ _).mono (fun _ h c => ⟨(h c main_v132).trans (result_value m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl),
      (h c main_arg15).trans (by after_results_simp <;> rfl),
      (h c main_arg16).trans (by after_results_simp <;> rfl),
      (h c main_arg17).trans (by after_results_simp <;> rfl),
      (h c main_arg18).trans (by after_results_simp <;> rfl),
      (h c main_arg19).trans (by after_results_simp <;> rfl)⟩)
    (run_seq scopedRefs_eq scopedSems_eq defs main (fun _ => ops) main_eq (fun _ => ops_sub) m ρ)

end Cert.ReferenceIdeal.RefValue

end
-- ==== Proof.lean ====
/-
  A four-layer graph convolution network with skip concatenation, followed by a four-layer perceptron: the kernel program
  (thirteen dense or bias-and-activation launches among host operations) against the plain reference, at the exact
  extended-real reading of both.

  Both programs build the edge lists with self loops, the in-degrees by a scatter-add of ones, the symmetric
  normalisation `d^(-1/2)[src] · d^(-1/2)[dst]` (zero where the degree is zero), and per layer gather the projected rows
  at the sources, scale them, and scatter-add them to the targets, with the very same host operations. They differ in
  how the dense parts are computed: the kernel multiplies 5000-row blocks by the weights on the matrix unit and adds a
  bias row inside the launch (an all-zero row for the four projections, the real bias in a separate launch after the
  aggregation), where the reference multiplies whole matrices and adds broadcast bias vectors. Entry by entry these are
  the same sums, products, maxima and selections of the same numbers — no rearrangement of a sum is involved, and the
  only law used is `a + 0 = a`, which holds for every extended real — so the result arrays are equal whatever the inputs.
  The idealisation rewrote nothing, so its conjunct is `True`.
-/
import proofs.«113295_j44487271252562_1_alg».proof.Defs
import proofs.«113295_j44487271252562_1_alg».proof.Proof.Gen.Kernel
import proofs.«113295_j44487271252562_1_alg».proof.Proof.Gen.Kernel.Skeleton
import proofs.«113295_j44487271252562_1_alg».proof.Proof.Gen.Kernel.Launch
import proofs.«113295_j44487271252562_1_alg».proof.Proof.Gen.Kernel.Points
import proofs.«113295_j44487271252562_1_alg».proof.Proof.Gen.Kernel.Frame
import proofs.«113295_j44487271252562_1_alg».proof.Proof.Gen.KernelIdeal
import proofs.«113295_j44487271252562_1_alg».proof.Proof.Gen.KernelIdeal.Skeleton
import proofs.«113295_j44487271252562_1_alg».proof.Proof.Gen.KernelIdeal.Launch
import proofs.«113295_j44487271252562_1_alg».proof.Proof.Gen.KernelIdeal.Points
import proofs.«113295_j44487271252562_1_alg».proof.Proof.Gen.KernelIdeal.Frame
import proofs.«113295_j44487271252562_1_alg».proof.Proof.Gen.ReferenceIdeal
import proofs.«113295_j44487271252562_1_alg».proof.Proof.Gen.Pre_finite_inputs
import proofs.«113295_j44487271252562_1_alg».proof.Proof.KernelRun
import proofs.«113295_j44487271252562_1_alg».proof.Proof.Walk
import proofs.«113295_j44487271252562_1_alg».proof.Proof.RefValue
import Idealize.ShloMosaic.Adequacy
import Idealize.ShloMosaic.Init

set_option maxRecDepth 16384

noncomputable section

namespace Cert.Proof

open Idealize.ShloMosaic Idealize.SL.Sem

/-- The word-level kernel program runs and leaves its arguments as launched. -/
theorem frame_k : Cert.frame_Kernel := fun m ρ _ => Cert.Kernel.Gen.frame m ρ

/-- So does the idealised kernel program. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.RefValue.run m ρ)

/-- From memories that agree on the arguments both programs end with the same result array: the reference's last
    stage of the arguments. -/
theorem algebraic : Cert.algebraic_KernelIdeal_ReferenceIdeal := by
  intro m ρ m' ρ' _ hagree
  refine ⟨fun c => Cert.ReferenceIdeal.ReadP.val_main_v132 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)), ?_, ?_⟩
  · exact (θ_run Cert.KernelIdeal.defs _ _).mono
      (fun r h c => ⟨(h c).1.trans (Cert.KernelIdeal.Gen.stage12 m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.RefValue.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
